-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S512x128 : Shape := ⟨2, ![512, 128]⟩
abbrev S128 : Shape := ⟨1, ![128]⟩
abbrev S512x256 : Shape := ⟨2, ![512, 256]⟩
abbrev S256 : Shape := ⟨1, ![256]⟩
abbrev S512x512 : Shape := ⟨2, ![512, 512]⟩
abbrev S1024x960 : Shape := ⟨2, ![1024, 960]⟩
abbrev S960 : Shape := ⟨1, ![960]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S1024x960 : S_.BroadcastsInDim S1024x960 (![] : Fin 0 → Fin S1024x960.rank)
  reducesTo_S1024x960_S_d0_1 : S1024x960.ReducesTo [0, 1] S_
  bcast_S_S960 : S_.BroadcastsInDim S960 (![] : Fin 0 → Fin S960.rank)
  reducesTo_S960_S_d0 : S960.ReducesTo [0] S_

variable [Facts]

def fn_part5 {F : FTy → Type} [FloatOps F] (main_arg18 : FVec F S960 .f32) (main_v83 : IVec S_ 1) (main_v84 : FVec F S1024x960 .f32) (main_cst_32 : FVec F S_ .f32) : IVec S_ 1 :=
  let main_v85 : FVec F S1024x960 .f32 := broadcastInDim S1024x960 ![] bcast_S_S1024x960 main_cst_32
  let main_v86 : IVec S1024x960 1 := cmpf .olt main_v84 main_v85
  let main_c_33 : IVec S_ 1 := constantI S_ 1 1#1
  let main_v87 : IVec S_ 1 := (fun x v => Host.reduce IntOp.andi x v reducesTo_S1024x960_S_d0_1 h_S_) main_v86 main_c_33
  let main_v88 : IVec S_ 1 := andi main_v83 main_v87
  let main_v89 : FVec F S960 .f32 := Host.absf main_arg18
  let main_cst_34 : FVec F S_ .f32 := constant S_ .f32 0x7F800000#32
  let main_v90 : FVec F S960 .f32 := broadcastInDim S960 ![] bcast_S_S960 main_cst_34
  let main_v91 : IVec S960 1 := cmpf .olt main_v89 main_v90
  let main_c_35 : IVec S_ 1 := constantI S_ 1 1#1
  let main_v92 : IVec S_ 1 := (fun x v => Host.reduce IntOp.andi x v reducesTo_S960_S_d0 h_S_) main_v91 main_c_35
  let main_v93 : IVec S_ 1 := andi main_v88 main_v92
  main_v93

def fn_part4 {F : FTy → Type} [FloatOps F] (main_arg14 : FVec F S256 .f32) (main_arg15 : FVec F S512x512 .f32) (main_arg16 : FVec F S512 .f32) (main_arg17 : FVec F S1024x960 .f32) (main_arg18 : FVec F S960 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S1024x960 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x128 .f32) (main_arg12 : FVec F S128 .f32) (main_arg13 : FVec F S512x256 .f32) (main_arg14 : FVec F S256 .f32) (main_arg15 : FVec F S512x512 .f32) (main_arg16 : FVec F S512 .f32) (main_arg17 : FVec F S1024x960 .f32) (main_arg18 : FVec F S960 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x128 .f32 := Host.absf main_arg11
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S512x256 .f32 := Host.absf main_arg13
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg14 main_arg15 main_arg16 main_arg17 main_arg18 main_v63 main_v67

def fn_part2 {F : FTy → Type} [FloatOps F] (main_arg7 : FVec F S1024x512 .f32) (main_arg8 : FVec F S512 .f32) (main_arg9 : FVec F S512x64 .f32) (main_arg10 : FVec F S64 .f32) (main_arg11 : FVec F S512x128 .f32) (main_arg12 : FVec F S128 .f32) (main_arg13 : FVec F S512x256 .f32) (main_arg14 : FVec F S256 .f32) (main_arg15 : FVec F S512x512 .f32) (main_arg16 : FVec F S512 .f32) (main_arg17 : FVec F S1024x960 .f32) (main_arg18 : FVec F S960 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S1024x512 .f32) (main_arg6 : FVec F S512 .f32) (main_arg7 : FVec F S1024x512 .f32) (main_arg8 : FVec F S512 .f32) (main_arg9 : FVec F S512x64 .f32) (main_arg10 : FVec F S64 .f32) (main_arg11 : FVec F S512x128 .f32) (main_arg12 : FVec F S128 .f32) (main_arg13 : FVec F S512x256 .f32) (main_arg14 : FVec F S256 .f32) (main_arg15 : FVec F S512x512 .f32) (main_arg16 : FVec F S512 .f32) (main_arg17 : FVec F S1024x960 .f32) (main_arg18 : FVec F S960 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S1024x512 .f32) (main_arg2 : FVec F S512 .f32) (main_arg3 : FVec F S1024x512 .f32) (main_arg4 : FVec F S512 .f32) (main_arg5 : FVec F S1024x512 .f32) (main_arg6 : FVec F S512 .f32) (main_arg7 : FVec F S1024x512 .f32) (main_arg8 : FVec F S512 .f32) (main_arg9 : FVec F S512x64 .f32) (main_arg10 : FVec F S64 .f32) (main_arg11 : FVec F S512x128 .f32) (main_arg12 : FVec F S128 .f32) (main_arg13 : FVec F S512x256 .f32) (main_arg14 : FVec F S256 .f32) (main_arg15 : FVec F S512x512 .f32) (main_arg16 : FVec F S512 .f32) (main_arg17 : FVec F S1024x960 .f32) (main_arg18 : FVec F S960 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S512x128 : Shape := ⟨2, ![512, 128]⟩
abbrev S128 : Shape := ⟨1, ![128]⟩
abbrev S512x256 : Shape := ⟨2, ![512, 256]⟩
abbrev S256 : Shape := ⟨1, ![256]⟩
abbrev S512x512 : Shape := ⟨2, ![512, 512]⟩
abbrev S1024x960 : Shape := ⟨2, ![1024, 960]⟩
abbrev S960 : Shape := ⟨1, ![960]⟩
abbrev S512x2048 : Shape := ⟨2, ![512, 2048]⟩
abbrev S2048 : Shape := ⟨1, ![2048]⟩
abbrev S1x2048 : Shape := ⟨2, ![1, 2048]⟩
abbrev S1x64 : Shape := ⟨2, ![1, 64]⟩
abbrev S1x128 : Shape := ⟨2, ![1, 128]⟩
abbrev S1x256 : Shape := ⟨2, ![1, 256]⟩
abbrev S1x512 : Shape := ⟨2, ![1, 512]⟩
abbrev S512x960 : Shape := ⟨2, ![512, 960]⟩
abbrev S1x960 : Shape := ⟨2, ![1, 960]⟩
abbrev S16384x960 : Shape := ⟨2, ![16384, 960]⟩

abbrev nBuf : Space → Nat
  | .hbm => 48
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S512, .f32⟩
  | .hbm, ⟨3, _⟩ => ⟨S1024x512, .f32⟩
  | .hbm, ⟨4, _⟩ => ⟨S512, .f32⟩
  | .hbm, ⟨5, _⟩ => ⟨S1024x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S512x64, .f32⟩
  | .hbm, ⟨10, _⟩ => ⟨S64, .f32⟩
  | .hbm, ⟨11, _⟩ => ⟨S512x128, .f32⟩
  | .hbm, ⟨12, _⟩ => ⟨S128, .f32⟩
  | .hbm, ⟨13, _⟩ => ⟨S512x256, .f32⟩
  | .hbm, ⟨14, _⟩ => ⟨S256, .f32⟩
  | .hbm, ⟨15, _⟩ => ⟨S512x512, .f32⟩
  | .hbm, ⟨16, _⟩ => ⟨S512, .f32⟩
  | .hbm, ⟨17, _⟩ => ⟨S1024x960, .f32⟩
  | .hbm, ⟨18, _⟩ => ⟨S960, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x2048, .f32⟩
  | .hbm, ⟨24, _⟩ => ⟨S512x2048, .bf16⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x2048, .f32⟩
  | .hbm, ⟨30, _⟩ => ⟨S512x2048, .bf16⟩
  | .hbm, ⟨31, _⟩ => ⟨S2048, .f32⟩
  | .hbm, ⟨32, _⟩ => ⟨S1x2048, .f32⟩
  | .hbm, ⟨33, _⟩ => ⟨S512x64, .bf16⟩
  | .hbm, ⟨34, _⟩ => ⟨S512x128, .bf16⟩
  | .hbm, ⟨35, _⟩ => ⟨S512x256, .bf16⟩
  | .hbm, ⟨36, _⟩ => ⟨S512x512, .bf16⟩
  | .hbm, ⟨37, _⟩ => ⟨S1x64, .f32⟩
  | .hbm, ⟨38, _⟩ => ⟨S1x128, .f32⟩
  | .hbm, ⟨39, _⟩ => ⟨S1x256, .f32⟩
  | .hbm, ⟨40, _⟩ => ⟨S1x512, .f32⟩
  | .hbm, ⟨41, _⟩ => ⟨S512x960, .f32⟩
  | .hbm, ⟨42, _⟩ => ⟨S512x960, .bf16⟩
  | .hbm, ⟨43, _⟩ => ⟨S512x960, .f32⟩
  | .hbm, ⟨44, _⟩ => ⟨S512x960, .bf16⟩
  | .hbm, ⟨45, _⟩ => ⟨S1x960, .f32⟩
  | .hbm, ⟨46, _⟩ => ⟨S16384x960, .f32⟩
  | .hbm, ⟨47, _⟩ => ⟨S16384x960, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x64, .bf16⟩
  | .local _ .vmem, ⟨6, _⟩ => ⟨S1x64, .f32⟩
  | .local _ .vmem, ⟨7, _⟩ => ⟨S512x128, .bf16⟩
  | .local _ .vmem, ⟨8, _⟩ => ⟨S1x128, .f32⟩
  | .local _ .vmem, ⟨9, _⟩ => ⟨S512x256, .bf16⟩
  | .local _ .vmem, ⟨10, _⟩ => ⟨S1x256, .f32⟩
  | .local _ .vmem, ⟨11, _⟩ => ⟨S512x512, .bf16⟩
  | .local _ .vmem, ⟨12, _⟩ => ⟨S1x512, .f32⟩
  | .local _ .vmem, ⟨13, _⟩ => ⟨S512x960, .bf16⟩
  | .local _ .vmem, ⟨14, _⟩ => ⟨S512x960, .bf16⟩
  | .local _ .vmem, ⟨15, _⟩ => ⟨S1x960, .f32⟩
  | .local _ .vmem, ⟨16, _⟩ => ⟨S512x960, .f32⟩
  | .local _ .vmem, ⟨17, _⟩ => ⟨S512x960, .f32⟩
  | .local _ .vmem, ⟨18, _⟩ => ⟨S512x960, .f32⟩
  | .local _ .vmem, ⟨19, _⟩ => ⟨S512x960, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x960 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x960 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x960 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x960 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x960 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S1024x512_S512x512_0_0 : S1024x512.Slices ![0, 0] S512x512
  concatenates_S512x512_S512x512_S512x512_S512x512_S512x2048_d1 : Shape.Concatenates [S512x512, S512x512, S512x512, S512x512] S512x2048 1
  bitsLt_bf16_f32 : FTy.bits .bf16 < FTy.bits .f32
  slices_S1024x512_S512x512_512_0 : S1024x512.Slices ![512, 0] S512x512
  concatenates_S512_S512_S512_S512_S2048_d0 : Shape.Concatenates [S512, S512, S512, S512] S2048 0
  shapeCasts_S2048_S1x2048 : S2048.ShapeCasts S1x2048
  shapeCasts_S64_S1x64 : S64.ShapeCasts S1x64
  shapeCasts_S128_S1x128 : S128.ShapeCasts S1x128
  shapeCasts_S256_S1x256 : S256.ShapeCasts S1x256
  shapeCasts_S512_S1x512 : S512.ShapeCasts S1x512
  slices_S1024x960_S512x960_0_0 : S1024x960.Slices ![0, 0] S512x960
  slices_S1024x960_S512x960_512_0 : S1024x960.Slices ![512, 0] S512x960
  shapeCasts_S960_S1x960 : S960.ShapeCasts S1x960
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x960_S512x960_0_0 : ∀ a, (![0, 0] : Fin 2 → Nat) a + S512x960.size a ≤ S512x960.size a
  h_S512x960 : 0 < S512x960.numel
  shapeCasts_S512x960_S512x960 : S512x960.ShapeCasts S512x960
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  concatenates_S512x64_S512x128_S512x256_S512x512_S512x960_d1 : Shape.Concatenates [S512x64, S512x128, S512x256, S512x512] S512x960 1
  inb_S1x960_S1x960_0_0 : ∀ a, (![0, 0] : Fin 2 → Nat) a + S1x960.size a ≤ S1x960.size a
  h_S1x960 : 0 < S1x960.numel
  shapeCasts_S1x960_S1x960 : S1x960.ShapeCasts S1x960
  broadcasts_S1x960_S512x960 : S1x960.Broadcasts S512x960
  dot_S512x512_S512x2048_S512x2048_1_0_0_1_n_n_wf : DotDims.WF S512x512 S512x2048 S512x2048 [1] [0] [0] [1] [] []
  dot_S512x512_S512x960_S512x960_1_0_0_1_n_n_wf : DotDims.WF S512x512 S512x960 S512x960 [1] [0] [0] [1] [] []
  dot_S512x512_S512x64_S512x64_1_0_0_1_n_n_wf : DotDims.WF S512x512 S512x64 S512x64 [1] [0] [0] [1] [] []
  dot_S512x512_S512x128_S512x128_1_0_0_1_n_n_wf : DotDims.WF S512x512 S512x128 S512x128 [1] [0] [0] [1] [] []
  dot_S512x512_S512x256_S512x256_1_0_0_1_n_n_wf : DotDims.WF S512x512 S512x256 S512x256 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x960.size a ≤ S512x960.size a
  hwx0_12 : ∀ i : grid0.Coords, EltTy.bits .bf16 = 32 ∨ (Rect.block (s := S512x960) S512x960.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x960.size a ≤ S512x960.size a
  hwx0_13 : ∀ i : grid0.Coords, EltTy.bits .bf16 = 32 ∨ (Rect.block (s := S512x960) S512x960.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x960.size a ≤ S1x960.size a
  hwx0_14 : ∀ i : grid0.Coords, EltTy.bits .f32 = 32 ∨ (Rect.block (s := S1x960) S1x960.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x960.size a ≤ S16384x960.size a
  hwx0_15 : ∀ i : grid0.Coords, EltTy.bits .f32 = 32 ∨ (Rect.block (s := S16384x960) S512x960.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x960.size a ≤ S16384x960.size a
  hwx0_16 : ∀ i : grid0.Coords, EltTy.bits .f32 = 32 ∨ (Rect.block (s := S16384x960) S512x960.size (cc0_transform_16 i) (hinb0_16 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x960_S512x960_1_0_0_1_n_n : DotDims S512x512 S512x960 S512x960 where
  lhsContracting := [1]
  rhsContracting := [0]
  lhsNonContracting := [0]
  rhsNonContracting := [1]
  lhsBatch := []
  rhsBatch := []
  wf := dot_S512x512_S512x960_S512x960_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S512x960.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S512x960.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x960.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27_0) S512x960.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v27_1) S512x960.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S512x128 : Shape := ⟨2, ![512, 128]⟩
abbrev S128 : Shape := ⟨1, ![128]⟩
abbrev S512x256 : Shape := ⟨2, ![512, 256]⟩
abbrev S256 : Shape := ⟨1, ![256]⟩
abbrev S512x512 : Shape := ⟨2, ![512, 512]⟩
abbrev S1024x960 : Shape := ⟨2, ![1024, 960]⟩
abbrev S960 : Shape := ⟨1, ![960]⟩
abbrev S_ : Shape := ⟨0, ![]⟩
abbrev S16384x1024 : Shape := ⟨2, ![16384, 1024]⟩
abbrev S1x512 : Shape := ⟨2, ![1, 512]⟩
abbrev S16384x64 : Shape := ⟨2, ![16384, 64]⟩
abbrev S1x64 : Shape := ⟨2, ![1, 64]⟩
abbrev S16384x128 : Shape := ⟨2, ![16384, 128]⟩
abbrev S1x128 : Shape := ⟨2, ![1, 128]⟩
abbrev S16384x256 : Shape := ⟨2, ![16384, 256]⟩
abbrev S1x256 : Shape := ⟨2, ![1, 256]⟩
abbrev S16384x960 : Shape := ⟨2, ![16384, 960]⟩
abbrev S1x960 : Shape := ⟨2, ![1, 960]⟩

abbrev nBuf : Space → Nat
  | .hbm => 233
  | .vmem => 0
  | .smem => 0
  | _ => 0

abbrev hbmTy0_0 (i : Nat) : BufTy := match i % 128 with
  | 0 => ⟨S16384x512, .f32⟩
  | 1 => ⟨S1024x512, .f32⟩
  | 2 => ⟨S512, .f32⟩
  | 3 => ⟨S1024x512, .f32⟩
  | 4 => ⟨S512, .f32⟩
  | 5 => ⟨S1024x512, .f32⟩
  | 6 => ⟨S512, .f32⟩
  | 7 => ⟨S1024x512, .f32⟩
  | 8 => ⟨S512, .f32⟩
  | 9 => ⟨S512x64, .f32⟩
  | 10 => ⟨S64, .f32⟩
  | 11 => ⟨S512x128, .f32⟩
  | 12 => ⟨S128, .f32⟩
  | 13 => ⟨S512x256, .f32⟩
  | 14 => ⟨S256, .f32⟩
  | 15 => ⟨S512x512, .f32⟩
  | 16 => ⟨S512, .f32⟩
  | 17 => ⟨S1024x960, .f32⟩
  | 18 => ⟨S960, .f32⟩
  | 19 => ⟨S_, .f32⟩
  | 20 => ⟨S16384x512, .f32⟩
  | 21 => ⟨S_, .f32⟩
  | 22 => ⟨S16384x512, .f32⟩
  | 23 => ⟨S16384x1024, .f32⟩
  | 24 => ⟨S16384x512, .f32⟩
  | 25 => ⟨S1x512, .f32⟩
  | 26 => ⟨S16384x512, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S1x512, .f32⟩
  | 38 => ⟨S16384x512, .f32⟩
  | 39 => ⟨S16384x512, .f32⟩
  | 40 => ⟨S16384x512, .f32⟩
  | 41 => ⟨S16384x512, .f32⟩
  | 42 => ⟨S_, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S16384x512, .f32⟩
  | 49 => ⟨S1x512, .f32⟩
  | 50 => ⟨S16384x512, .f32⟩
  | 51 => ⟨S16384x512, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S16384x512, .f32⟩
  | 61 => ⟨S1x512, .f32⟩
  | 62 => ⟨S16384x512, .f32⟩
  | 63 => ⟨S16384x512, .f32⟩
  | 64 => ⟨S16384x512, .f32⟩
  | 65 => ⟨S16384x512, .f32⟩
  | 66 => ⟨S16384x512, .f32⟩
  | 67 => ⟨S16384x512, .f32⟩
  | 68 => ⟨S16384x512, .f32⟩
  | 69 => ⟨S16384x512, .f32⟩
  | 70 => ⟨S16384x64, .f32⟩
  | 71 => ⟨S1x64, .f32⟩
  | 72 => ⟨S16384x64, .f32⟩
  | 73 => ⟨S16384x64, .f32⟩
  | 74 => ⟨S16384x1024, .f32⟩
  | 75 => ⟨S16384x512, .f32⟩
  | 76 => ⟨S1x512, .f32⟩
  | 77 => ⟨S16384x512, .f32⟩
  | 78 => ⟨S16384x512, .f32⟩
  | 79 => ⟨S16384x512, .f32⟩
  | 80 => ⟨S16384x512, .f32⟩
  | 81 => ⟨S_, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S16384x512, .f32⟩
  | 88 => ⟨S1x512, .f32⟩
  | 89 => ⟨S16384x512, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S16384x512, .f32⟩
  | 100 => ⟨S1x512, .f32⟩
  | 101 => ⟨S16384x512, .f32⟩
  | 102 => ⟨S16384x512, .f32⟩
  | 103 => ⟨S16384x512, .f32⟩
  | 104 => ⟨S16384x512, .f32⟩
  | 105 => ⟨S_, .f32⟩
  | 106 => ⟨S16384x512, .f32⟩
  | 107 => ⟨S16384x512, .f32⟩
  | 108 => ⟨S_, .f32⟩
  | 109 => ⟨S16384x512, .f32⟩
  | 110 => ⟨S16384x512, .f32⟩
  | 111 => ⟨S16384x512, .f32⟩
  | 112 => ⟨S1x512, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S16384x512, .f32⟩
  | 119 => ⟨S16384x512, .f32⟩
  | 120 => ⟨S16384x512, .f32⟩
  | 121 => ⟨S16384x128, .f32⟩
  | 122 => ⟨S1x128, .f32⟩
  | 123 => ⟨S16384x128, .f32⟩
  | 124 => ⟨S16384x128, .f32⟩
  | 125 => ⟨S16384x1024, .f32⟩
  | 126 => ⟨S16384x512, .f32⟩
  | 127 => ⟨S1x512, .f32⟩
  | _ => ⟨S16384x512, .f32⟩

abbrev hbmTy0_1 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S1x512, .f32⟩
  | 12 => ⟨S16384x512, .f32⟩
  | 13 => ⟨S16384x512, .f32⟩
  | 14 => ⟨S16384x512, .f32⟩
  | 15 => ⟨S16384x512, .f32⟩
  | 16 => ⟨S_, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S1x512, .f32⟩
  | 24 => ⟨S16384x512, .f32⟩
  | 25 => ⟨S16384x512, .f32⟩
  | 26 => ⟨S16384x512, .f32⟩
  | 27 => ⟨S16384x512, .f32⟩
  | 28 => ⟨S_, .f32⟩
  | 29 => ⟨S16384x512, .f32⟩
  | 30 => ⟨S16384x512, .f32⟩
  | 31 => ⟨S_, .f32⟩
  | 32 => ⟨S16384x512, .f32⟩
  | 33 => ⟨S16384x512, .f32⟩
  | 34 => ⟨S16384x512, .f32⟩
  | 35 => ⟨S1x512, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S16384x512, .f32⟩
  | 42 => ⟨S16384x512, .f32⟩
  | 43 => ⟨S16384x512, .f32⟩
  | 44 => ⟨S16384x256, .f32⟩
  | 45 => ⟨S1x256, .f32⟩
  | 46 => ⟨S16384x256, .f32⟩
  | 47 => ⟨S16384x256, .f32⟩
  | 48 => ⟨S16384x1024, .f32⟩
  | 49 => ⟨S16384x512, .f32⟩
  | 50 => ⟨S1x512, .f32⟩
  | 51 => ⟨S16384x512, .f32⟩
  | 52 => ⟨S16384x512, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S16384x512, .f32⟩
  | 62 => ⟨S1x512, .f32⟩
  | 63 => ⟨S16384x512, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S1x512, .f32⟩
  | 75 => ⟨S16384x512, .f32⟩
  | 76 => ⟨S16384x512, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S16384x512, .f32⟩
  | 86 => ⟨S1x512, .f32⟩
  | 87 => ⟨S16384x512, .f32⟩
  | 88 => ⟨S16384x512, .f32⟩
  | 89 => ⟨S16384x512, .f32⟩
  | 90 => ⟨S16384x512, .f32⟩
  | 91 => ⟨S16384x512, .f32⟩
  | 92 => ⟨S16384x512, .f32⟩
  | 93 => ⟨S16384x512, .f32⟩
  | 94 => ⟨S16384x512, .f32⟩
  | 95 => ⟨S16384x512, .f32⟩
  | 96 => ⟨S1x512, .f32⟩
  | 97 => ⟨S16384x512, .f32⟩
  | 98 => ⟨S16384x512, .f32⟩
  | 99 => ⟨S16384x1024, .f32⟩
  | 100 => ⟨S16384x960, .f32⟩
  | 101 => ⟨S1x960, .f32⟩
  | 102 => ⟨S16384x960, .f32⟩
  | 103 => ⟨S16384x960, .f32⟩
  | 104 => ⟨S16384x960, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_11 : Ref sig .tc := ⟨.hbm, 105, rfl⟩
abbrev main_v74 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_13 : Ref sig .tc := ⟨.hbm, 132, rfl⟩
abbrev main_v99 : Ref sig .tc := ⟨.hbm, 133, rfl⟩
abbrev main_v100 : Ref sig .tc := ⟨.hbm, 134, rfl⟩
abbrev main_cst_14 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_15 : Ref sig .tc := ⟨.hbm, 144, rfl⟩
abbrev main_v109 : Ref sig .tc := ⟨.hbm, 145, rfl⟩
abbrev main_v110 : Ref sig .tc := ⟨.hbm, 146, rfl⟩
abbrev main_cst_16 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_17 : Ref sig .tc := ⟨.hbm, 156, rfl⟩
abbrev main_v119 : Ref sig .tc := ⟨.hbm, 157, rfl⟩
abbrev main_v120 : Ref sig .tc := ⟨.hbm, 158, rfl⟩
abbrev main_cst_18 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_19 : Ref sig .tc := ⟨.hbm, 183, rfl⟩
abbrev main_v144 : Ref sig .tc := ⟨.hbm, 184, rfl⟩
abbrev main_v145 : Ref sig .tc := ⟨.hbm, 185, rfl⟩
abbrev main_cst_20 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_21 : Ref sig .tc := ⟨.hbm, 195, rfl⟩
abbrev main_v154 : Ref sig .tc := ⟨.hbm, 196, rfl⟩
abbrev main_v155 : Ref sig .tc := ⟨.hbm, 197, rfl⟩
abbrev main_cst_22 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_23 : Ref sig .tc := ⟨.hbm, 207, rfl⟩
abbrev main_v164 : Ref sig .tc := ⟨.hbm, 208, rfl⟩
abbrev main_v165 : Ref sig .tc := ⟨.hbm, 209, rfl⟩
abbrev main_cst_24 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S960_S1x960_1 : S960.BroadcastsInDim S1x960 (![1] : Fin 1 → Fin S1x960.rank)
  bcast_S1x960_S16384x960_0_1 : S1x960.BroadcastsInDim S16384x960 (![0, 1] : Fin 2 → Fin S16384x960.rank)
  concatenates_S16384x64_S16384x128_S16384x256_S16384x512_S16384x960_d1 : Shape.Concatenates [S16384x64, S16384x128, S16384x256, S16384x512] S16384x960 1
  dot_S16384x1024_S1024x512_S16384x512_1_0_0_1_n_n_wf : DotDims.WF S16384x1024 S1024x512 S16384x512 [1] [0] [0] [1] [] []
  dot_S16384x512_S512x64_S16384x64_1_0_0_1_n_n_wf : DotDims.WF S16384x512 S512x64 S16384x64 [1] [0] [0] [1] [] []
  dot_S16384x512_S512x128_S16384x128_1_0_0_1_n_n_wf : DotDims.WF S16384x512 S512x128 S16384x128 [1] [0] [0] [1] [] []
  dot_S16384x512_S512x256_S16384x256_1_0_0_1_n_n_wf : DotDims.WF S16384x512 S512x256 S16384x256 [1] [0] [0] [1] [] []
  dot_S16384x512_S512x512_S16384x512_1_0_0_1_n_n_wf : DotDims.WF S16384x512 S512x512 S16384x512 [1] [0] [0] [1] [] []
  dot_S16384x1024_S1024x960_S16384x960_1_0_0_1_n_n_wf : DotDims.WF S16384x1024 S1024x960 S16384x960 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x1024_S1024x960_S16384x960_1_0_0_1_n_n : DotDims S16384x1024 S1024x960 S16384x960 where
  lhsContracting := [1]
  rhsContracting := [0]
  lhsNonContracting := [0]
  rhsNonContracting := [1]
  lhsBatch := []
  rhsBatch := []
  wf := dot_S16384x1024_S1024x960_S16384x960_1_0_0_1_n_n_wf

class Facts : Prop extends Facts₀ where

variable [Facts]
-- ==== Proof.KernelEntry.lean ====
import proofs.«127465_j91130616086566_2_alg».proof.Proof.Gen.Kernel.Launch
import proofs.«127465_j91130616086566_2_alg».proof.Proof.Gen.Kernel.Skeleton
import proofs.«127465_j91130616086566_2_alg».proof.Proof.Gen.Kernel.Points
import Idealize.ShloMosaic.Lib.Pipeline.FrameBody
import Idealize.ShloMosaic.Lib.Ring
import Idealize.ShloMosaic.Lib.Tactic

/-! The entry function up to its one region: the host prefix leaves every argument array as launched, every input
    window's staging buffer holds its block of the array at every grid point, and the frame claim's post follows
    from the region's post for any proof data over these arrays. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host prefix -/

/-- Core `c`'s buffers when the region is entered: the launch contents folded through the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The entry function is its host operations followed by the one region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes a fresh intermediate, never argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether the block was fetched
    there or carried over from the point before (then the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether the block was fetched
    there or carried over from the point before (then the block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether the block was fetched
    there or carried over from the point before (then the block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether the block was fetched
    there or carried over from the point before (then the block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, whether the block was fetched
    there or carried over from the point before (then the block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every point, whether the block was fetched
    there or carried over from the point before (then the block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds the window's block at every point, whether the block was fetched
    there or carried over from the point before (then the block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds the window's block at every point, whether the block was fetched
    there or carried over from the point before (then the block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds the window's block at every point, whether the block was fetched
    there or carried over from the point before (then the block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds the window's block at every point, whether the block was fetched
    there or carried over from the point before (then the block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds the window's block at every point, whether the block was fetched
    there or carried over from the point before (then the block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds the window's block at every point, whether the block was fetched
    there or carried over from the point before (then the block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds the window's block at every point, whether the block was fetched
    there or carried over from the point before (then the block index has not moved). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds the window's block at every point, whether the block was fetched
    there or carried over from the point before (then the block index has not moved). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds the window's block at every point, whether the block was fetched
    there or carried over from the point before (then the block index has not moved). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the region's post at any proof data whose arrays are the region-entry contents: argument 0,
    the blocked input, ends at its launch contents because an input array is never written back; every other
    argument is no window's array and is left as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: each buffer is read and written as one whole block -/

abbrev rS512x512 : Rect S512x512 := Rect.unit (s := S512x512) ![0, 0] S512x512.size inb_S512x512_S512x512_0_0
abbrev rS512x2048 : Rect S512x2048 := Rect.unit (s := S512x2048) ![0, 0] S512x2048.size inb_S512x2048_S512x2048_0_0
abbrev rS1x2048 : Rect S1x2048 := Rect.unit (s := S1x2048) ![0, 0] S1x2048.size inb_S1x2048_S1x2048_0_0
abbrev rS512x64 : Rect S512x64 := Rect.unit (s := S512x64) ![0, 0] S512x64.size inb_S512x64_S512x64_0_0
abbrev rS1x64 : Rect S1x64 := Rect.unit (s := S1x64) ![0, 0] S1x64.size inb_S1x64_S1x64_0_0
abbrev rS512x128 : Rect S512x128 := Rect.unit (s := S512x128) ![0, 0] S512x128.size inb_S512x128_S512x128_0_0
abbrev rS1x128 : Rect S1x128 := Rect.unit (s := S1x128) ![0, 0] S1x128.size inb_S1x128_S1x128_0_0
abbrev rS512x256 : Rect S512x256 := Rect.unit (s := S512x256) ![0, 0] S512x256.size inb_S512x256_S512x256_0_0
abbrev rS1x256 : Rect S1x256 := Rect.unit (s := S1x256) ![0, 0] S1x256.size inb_S1x256_S1x256_0_0
abbrev rS1x512 : Rect S1x512 := Rect.unit (s := S1x512) ![0, 0] S1x512.size inb_S1x512_S1x512_0_0
abbrev rS512x960 : Rect S512x960 := Rect.unit (s := S512x960) ![0, 0] S512x960.size inb_S512x960_S512x960_0_0
abbrev rS1x960 : Rect S1x960 := Rect.unit (s := S1x960) ![0, 0] S1x960.size inb_S1x960_S1x960_0_0

end Cert.Kernel.Hand

end
-- ==== Proof.KernelPay.lean ====
/-
  What one grid point's body stores, as two functions of the fifteen blocks it loads.

  The body reads the block of input rows `x0`, the gates' feature weights `x1` and hidden weights `x2` (four gates side by
  side, 2048 columns), their biases `x3`, four heads' weights and biases `x4 … x11`, and the last head's feature weights
  `x12`, hidden weights `x13` and bias `x14`. It computes four layers of the cell and stores the four heads' results side
  by side (`payLocal`) and the last head's result (`payGlobal`). The intermediate values are named after the layer they
  belong to; each is one of the printed body's payload terms applied to the earlier ones.
-/
import proofs.«127465_j91130616086566_2_alg».proof.Proof.Gen.Kernel.Skeleton

noncomputable section

namespace Cert.Kernel.Hand

open Idealize.ShloMosaic Cert.Kernel Cert.Kernel.Gen

variable {F : FTy → Type} [FloatOps F]

/-- The hidden weights as loaded. -/
def hv5 (x2 : Vec F S512x2048 .bf16) : FVec F S512x2048 .bf16 := k0_pay5 x2
/-- The gates' feature part plus bias, all four gates side by side. -/
def hv10 (x0 : Vec F S512x512 .f32) (x1 : Vec F S512x2048 .bf16) (x3 : Vec F S1x2048 .f32) : FVec F S512x2048 .f32 := k0_pay6 x0 x1 x3
/-- The last head's feature part. -/
def hv13 (x0 : Vec F S512x512 .f32) (x12 : Vec F S512x960 .bf16) : FVec F S512x960 .f32 := k0_pay7 x0 x12
/-- The cell state after the first layer. -/
def hv25 (x0 : Vec F S512x512 .f32) (x1 : Vec F S512x2048 .bf16) (x3 : Vec F S1x2048 .f32) : FVec F S512x512 .f32 := k0_pay8 x0 x1 x3
/-- The first head. -/
def hv35 (x0 : Vec F S512x512 .f32) (x1 : Vec F S512x2048 .bf16) (x3 : Vec F S1x2048 .f32) (x4 : Vec F S512x64 .bf16) (x5 : Vec F S1x64 .f32) : FVec F S512x64 .f32 :=
  k0_pay10 x0 x1 x3 x4 x5
/-- The second layer's four pre-activations side by side, and the first 512 columns of them. -/
def hv38 (x0 : Vec F S512x512 .f32) (x1 x2 : Vec F S512x2048 .bf16) (x3 : Vec F S1x2048 .f32) : FVec F S512x2048 .f32 := k0_pay11 x0 x1 x2 x3
def hv39 (x0 : Vec F S512x512 .f32) (x1 x2 : Vec F S512x2048 .bf16) (x3 : Vec F S1x2048 .f32) : FVec F S512x512 .f32 := k0_pay12 x0 x1 x2 x3
/-- The second head. -/
def hv59 (x0 : Vec F S512x512 .f32) (x1 x2 : Vec F S512x2048 .bf16) (x3 : Vec F S1x2048 .f32) (x6 : Vec F S512x128 .bf16) (x7 : Vec F S1x128 .f32) : FVec F S512x128 .f32 :=
  k0_pay15 (hv25 x0 x1 x3) (hv38 x0 x1 x2 x3) (hv39 x0 x1 x2 x3) x6 x7
/-- The cell state after the third layer. -/
def hv73 (x0 : Vec F S512x512 .f32) (x1 x2 : Vec F S512x2048 .bf16) (x3 : Vec F S1x2048 .f32) : FVec F S512x512 .f32 :=
  k0_pay17 (hv5 x2) (hv10 x0 x1 x3) (hv25 x0 x1 x3) (hv38 x0 x1 x2 x3) (hv39 x0 x1 x2 x3)
/-- The third head. -/
def hv83 (x0 : Vec F S512x512 .f32) (x1 x2 : Vec F S512x2048 .bf16) (x3 : Vec F S1x2048 .f32) (x8 : Vec F S512x256 .bf16) (x9 : Vec F S1x256 .f32) : FVec F S512x256 .f32 :=
  k0_pay19 (hv5 x2) (hv10 x0 x1 x3) (hv25 x0 x1 x3) (hv38 x0 x1 x2 x3) (hv39 x0 x1 x2 x3) x8 x9
/-- The fourth layer's four pre-activations side by side, and the first 512 columns of them. -/
def hv86 (x0 : Vec F S512x512 .f32) (x1 x2 : Vec F S512x2048 .bf16) (x3 : Vec F S1x2048 .f32) : FVec F S512x2048 .f32 :=
  k0_pay20 (hv5 x2) (hv10 x0 x1 x3) (hv25 x0 x1 x3) (hv38 x0 x1 x2 x3) (hv39 x0 x1 x2 x3)
def hv87 (x0 : Vec F S512x512 .f32) (x1 x2 : Vec F S512x2048 .bf16) (x3 : Vec F S1x2048 .f32) : FVec F S512x512 .f32 :=
  k0_pay21 (hv5 x2) (hv10 x0 x1 x3) (hv25 x0 x1 x3) (hv38 x0 x1 x2 x3) (hv39 x0 x1 x2 x3)

/-- What the body stores into the first output's buffer: the four heads side by side. -/
def payLocal (x0 : Vec F S512x512 .f32) (x1 x2 : Vec F S512x2048 .bf16) (x3 : Vec F S1x2048 .f32) (x4 : Vec F S512x64 .bf16) (x5 : Vec F S1x64 .f32)
    (x6 : Vec F S512x128 .bf16) (x7 : Vec F S1x128 .f32) (x8 : Vec F S512x256 .bf16) (x9 : Vec F S1x256 .f32) (x10 : Vec F S512x512 .bf16) (x11 : Vec F S1x512 .f32) :
    FVec F S512x960 .f32 :=
  k0_pay2 (hv35 x0 x1 x3 x4 x5) (hv59 x0 x1 x2 x3 x6 x7) (hv73 x0 x1 x2 x3) (hv83 x0 x1 x2 x3 x8 x9) (hv86 x0 x1 x2 x3) (hv87 x0 x1 x2 x3) x10 x11

/-- What the body stores into the second output's buffer: the last head. -/
def payGlobal (x0 : Vec F S512x512 .f32) (x1 x2 : Vec F S512x2048 .bf16) (x3 : Vec F S1x2048 .f32) (x12 x13 : Vec F S512x960 .bf16) (x14 : Vec F S1x960 .f32) :
    FVec F S512x960 .f32 :=
  k0_pay3 (hv13 x0 x12) (hv73 x0 x1 x2 x3) (hv86 x0 x1 x2 x3) (hv87 x0 x1 x2 x3) x13 x14

end Cert.Kernel.Hand

end
-- ==== Proof.KernelFrame.lean ====
import proofs.«127465_j91130616086566_2_alg».proof.Proof.KernelEntry
import proofs.«127465_j91130616086566_2_alg».proof.Proof.KernelPay
import Idealize.ShloMosaic.Lib.Pipeline.FrameBody
import Idealize.ShloMosaic.Lib.Ring
import Idealize.ShloMosaic.Lib.Tactic

/-! The frame run of the program: the body stores into each output buffer a closed function of the input blocks
    it loads and leaves every input buffer as found, so the one region runs to its post at proof data naming
    those contents, and every argument array ends as it began. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each output window's buffer -/

/-- The first output's buffer after the body: its one whole-block store over the loaded input blocks. -/
def out0_15 (x0 : Vec F S512x512 .f32) (x1 : Vec F S512x2048 .bf16) (x2 : Vec F S512x2048 .bf16) (x3 : Vec F S1x2048 .f32) (x4 : Vec F S512x64 .bf16) (x5 : Vec F S1x64 .f32) (x6 : Vec F S512x128 .bf16) (x7 : Vec F S1x128 .f32) (x8 : Vec F S512x256 .bf16) (x9 : Vec F S1x256 .f32) (x10 : Vec F S512x512 .bf16) (x11 : Vec F S1x512 .f32) : Vec F S512x960 .f32 :=
  View.canon [⟨rS512x960, payLocal (View.ld x0 rS512x512) (View.ld x1 rS512x2048) (View.ld x2 rS512x2048) (View.ld x3 rS1x2048) (View.ld x4 rS512x64) (View.ld x5 rS1x64) (View.ld x6 rS512x128) (View.ld x7 rS1x128) (View.ld x8 rS512x256) (View.ld x9 rS1x256) (View.ld x10 rS512x512) (View.ld x11 rS1x512)⟩]

/-- The second output's buffer after the body: its one whole-block store over the loaded input blocks. -/
def out0_16 (x0 : Vec F S512x512 .f32) (x1 : Vec F S512x2048 .bf16) (x2 : Vec F S512x2048 .bf16) (x3 : Vec F S1x2048 .f32) (x12 : Vec F S512x960 .bf16) (x13 : Vec F S512x960 .bf16) (x14 : Vec F S1x960 .f32) : Vec F S512x960 .f32 :=
  View.canon [⟨rS512x960, payGlobal (View.ld x0 rS512x512) (View.ld x1 rS512x2048) (View.ld x2 rS512x2048) (View.ld x3 rS1x2048) (View.ld x12 rS512x960) (View.ld x13 rS512x960) (View.ld x14 rS1x960)⟩]

/-- The one store is the whole block, so it covers the buffer. -/
theorem cover0_15 (p0 : Vec F S512x960 .f32) (y : S512x960.Idx) :
    ∃ pc ∈ ([⟨rS512x960, p0⟩] : List (View.Piece (Elt F) S512x960 .f32)), y ∈ pc.1.set :=
  View.cover_of_tiled [⟨rS512x960, p0⟩] S512x960.size (by rfl) y
theorem cover0_16 (p0 : Vec F S512x960 .f32) (y : S512x960.Idx) :
    ∃ pc ∈ ([⟨rS512x960, p0⟩] : List (View.Piece (Elt F) S512x960 .f32)), y ∈ pc.1.set :=
  View.cover_of_tiled [⟨rS512x960, p0⟩] S512x960.size (by rfl) y

/-! ## The body's triple -/

set_option maxHeartbeats 4000000 in
/-- The kernel body on whole staging buffers — each input's read at contents `xW`, each output's at anything —
    runs to the continuation holding every input as it was and each output at the canon of its one store over
    the loaded blocks. The two loads of the output buffers return values nothing reads. -/
theorem sound_kernel (c : Dev nD) (E : Set ℕ) (i : grid0.Coords) (arg0 : Memref sig .tc .vmem S512x512 .f32) (harg0 : arg0.IsWhole) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x64 .bf16) (harg4 : arg4.IsWhole) (arg5 : Memref sig .tc .vmem S1x64 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x960 .bf16) (harg12 : arg12.IsWhole) (arg13 : Memref sig .tc .vmem S512x960 .bf16) (harg13 : arg13.IsWhole) (arg14 : Memref sig .tc .vmem S1x960 .f32) (harg14 : arg14.IsWhole) (arg15 : Memref sig .tc .vmem S512x960 .f32) (harg15 : arg15.IsWhole) (arg16 : Memref sig .tc .vmem S512x960 .f32) (harg16 : arg16.IsWhole)
    (x0 : Vec F S512x512 .f32) (x1 : Vec F S512x2048 .bf16) (x2 : Vec F S512x2048 .bf16) (x3 : Vec F S1x2048 .f32) (x4 : Vec F S512x64 .bf16) (x5 : Vec F S1x64 .f32) (x6 : Vec F S512x128 .bf16) (x7 : Vec F S1x128 .f32) (x8 : Vec F S512x256 .bf16) (x9 : Vec F S1x256 .f32) (x10 : Vec F S512x512 .bf16) (x11 : Vec F S1x512 .f32) (x12 : Vec F S512x960 .bf16) (x13 : Vec F S512x960 .bf16) (x14 : Vec F S1x960 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (∃ d, owns (c : Thread nD τ) arg15 fullShare d) ∗ (∃ d, owns (c : Thread nD τ) arg16 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ owns (c : Thread nD τ) arg15 fullShare (out0_15 x0 x1 x2 x3 x4 x5 x6 x7 x8 x9 x10 x11) ∗ owns (c : Thread nD τ) arg16 fullShare (out0_16 x0 x1 x2 x3 x12 x13 x14)) -∗ K ⟨⟩))
      ⊢ wp frame (wpE (defs₀ (F := F)) Variants.none c none) E (cc0__hmc_lstm_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__hmc_lstm_kernel_eq_skeleton]; unfold cc0__hmc_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover0_15 _)
  iexists _; isplitr
  swap; · iexact H16
  ipureintro
  exact View.read_writes_eq_canon _ _ _ (cover0_16 _)

/-! ## The pipeline's proof data -/

/-- The proof data of the one pipeline on core `c`: the arrays as the region finds them; after the body at point
    `t` each input's buffer still at its block and each output's at the canon of its store over the input blocks;
    the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (iblk m c 0 t) (iblk m c 1 t) (iblk m c 2 t) (iblk m c 3 t) (iblk m c 12 t) (iblk m c 13 t) (iblk m c 14 t)
    | ⟨_ + 17, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (iblk m c 0 t) (iblk m c 1 t) (iblk m c 2 t) (iblk m c 3 t) (iblk m c 12 t) (iblk m c 13 t) (iblk m c 14 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`: the invariant, the core's debts, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1000000 in
/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    entry function terminates, and every final state has every array of the pipeline at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without fault and every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.KernelIdealEntry.lean ====
import proofs.«127465_j91130616086566_2_alg».proof.Proof.Gen.KernelIdeal.Launch
import proofs.«127465_j91130616086566_2_alg».proof.Proof.Gen.KernelIdeal.Skeleton
import proofs.«127465_j91130616086566_2_alg».proof.Proof.Gen.KernelIdeal.Points
import Idealize.ShloMosaic.Lib.Pipeline.FrameBody
import Idealize.ShloMosaic.Lib.Ring
import Idealize.ShloMosaic.Lib.Tactic

/-! The entry function up to its one region: the host prefix leaves every argument array as launched, every input
    window's staging buffer holds its block of the array at every grid point, and the frame claim's post follows
    from the region's post for any proof data over these arrays. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host prefix -/

/-- Core `c`'s buffers when the region is entered: the launch contents folded through the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The entry function is its host operations followed by the one region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes a fresh intermediate, never argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes a fresh intermediate, never argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, whether the block was fetched
    there or carried over from the point before (then the block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, whether the block was fetched
    there or carried over from the point before (then the block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, whether the block was fetched
    there or carried over from the point before (then the block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, whether the block was fetched
    there or carried over from the point before (then the block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, whether the block was fetched
    there or carried over from the point before (then the block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds the window's block at every point, whether the block was fetched
    there or carried over from the point before (then the block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds the window's block at every point, whether the block was fetched
    there or carried over from the point before (then the block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds the window's block at every point, whether the block was fetched
    there or carried over from the point before (then the block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds the window's block at every point, whether the block was fetched
    there or carried over from the point before (then the block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds the window's block at every point, whether the block was fetched
    there or carried over from the point before (then the block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds the window's block at every point, whether the block was fetched
    there or carried over from the point before (then the block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds the window's block at every point, whether the block was fetched
    there or carried over from the point before (then the block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds the window's block at every point, whether the block was fetched
    there or carried over from the point before (then the block index has not moved). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds the window's block at every point, whether the block was fetched
    there or carried over from the point before (then the block index has not moved). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds the window's block at every point, whether the block was fetched
    there or carried over from the point before (then the block index has not moved). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the region's post at any proof data whose arrays are the region-entry contents: argument 0,
    the blocked input, ends at its launch contents because an input array is never written back; every other
    argument is no window's array and is left as the region found it, which is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body's accesses: each buffer is read and written as one whole block -/

abbrev rS512x512 : Rect S512x512 := Rect.unit (s := S512x512) ![0, 0] S512x512.size inb_S512x512_S512x512_0_0
abbrev rS512x2048 : Rect S512x2048 := Rect.unit (s := S512x2048) ![0, 0] S512x2048.size inb_S512x2048_S512x2048_0_0
abbrev rS1x2048 : Rect S1x2048 := Rect.unit (s := S1x2048) ![0, 0] S1x2048.size inb_S1x2048_S1x2048_0_0
abbrev rS512x64 : Rect S512x64 := Rect.unit (s := S512x64) ![0, 0] S512x64.size inb_S512x64_S512x64_0_0
abbrev rS1x64 : Rect S1x64 := Rect.unit (s := S1x64) ![0, 0] S1x64.size inb_S1x64_S1x64_0_0
abbrev rS512x128 : Rect S512x128 := Rect.unit (s := S512x128) ![0, 0] S512x128.size inb_S512x128_S512x128_0_0
abbrev rS1x128 : Rect S1x128 := Rect.unit (s := S1x128) ![0, 0] S1x128.size inb_S1x128_S1x128_0_0
abbrev rS512x256 : Rect S512x256 := Rect.unit (s := S512x256) ![0, 0] S512x256.size inb_S512x256_S512x256_0_0
abbrev rS1x256 : Rect S1x256 := Rect.unit (s := S1x256) ![0, 0] S1x256.size inb_S1x256_S1x256_0_0
abbrev rS1x512 : Rect S1x512 := Rect.unit (s := S1x512) ![0, 0] S1x512.size inb_S1x512_S1x512_0_0
abbrev rS512x960 : Rect S512x960 := Rect.unit (s := S512x960) ![0, 0] S512x960.size inb_S512x960_S512x960_0_0
abbrev rS1x960 : Rect S1x960 := Rect.unit (s := S1x960) ![0, 0] S1x960.size inb_S1x960_S1x960_0_0

end Cert.KernelIdeal.Hand

end
-- ==== Proof.KernelIdealPay.lean ====
/-
  What one grid point's body stores, as two functions of the fifteen blocks it loads.

  The body reads the block of input rows `x0`, the gates' feature weights `x1` and hidden weights `x2` (four gates side by
  side, 2048 columns), their biases `x3`, four heads' weights and biases `x4 … x11`, and the last head's feature weights
  `x12`, hidden weights `x13` and bias `x14`. It computes four layers of the cell and stores the four heads' results side
  by side (`payLocal`) and the last head's result (`payGlobal`). The intermediate values are named after the layer they
  belong to; each is one of the printed body's payload terms applied to the earlier ones.
-/
import proofs.«127465_j91130616086566_2_alg».proof.Proof.Gen.KernelIdeal.Skeleton

noncomputable section

namespace Cert.KernelIdeal.Hand

open Idealize.ShloMosaic Cert.KernelIdeal Cert.KernelIdeal.Gen

variable {F : FTy → Type} [FloatOps F]

/-- The hidden weights as loaded. -/
def hv5 (x2 : Vec F S512x2048 .bf16) : FVec F S512x2048 .bf16 := k0_pay5 x2
/-- The gates' feature part plus bias, all four gates side by side. -/
def hv10 (x0 : Vec F S512x512 .f32) (x1 : Vec F S512x2048 .bf16) (x3 : Vec F S1x2048 .f32) : FVec F S512x2048 .f32 := k0_pay6 x0 x1 x3
/-- The last head's feature part. -/
def hv13 (x0 : Vec F S512x512 .f32) (x12 : Vec F S512x960 .bf16) : FVec F S512x960 .f32 := k0_pay7 x0 x12
/-- The cell state after the first layer. -/
def hv25 (x0 : Vec F S512x512 .f32) (x1 : Vec F S512x2048 .bf16) (x3 : Vec F S1x2048 .f32) : FVec F S512x512 .f32 := k0_pay8 x0 x1 x3
/-- The first head. -/
def hv35 (x0 : Vec F S512x512 .f32) (x1 : Vec F S512x2048 .bf16) (x3 : Vec F S1x2048 .f32) (x4 : Vec F S512x64 .bf16) (x5 : Vec F S1x64 .f32) : FVec F S512x64 .f32 :=
  k0_pay10 x0 x1 x3 x4 x5
/-- The second layer's four pre-activations side by side, and the first 512 columns of them. -/
def hv38 (x0 : Vec F S512x512 .f32) (x1 x2 : Vec F S512x2048 .bf16) (x3 : Vec F S1x2048 .f32) : FVec F S512x2048 .f32 := k0_pay11 x0 x1 x2 x3
def hv39 (x0 : Vec F S512x512 .f32) (x1 x2 : Vec F S512x2048 .bf16) (x3 : Vec F S1x2048 .f32) : FVec F S512x512 .f32 := k0_pay12 x0 x1 x2 x3
/-- The second head. -/
def hv59 (x0 : Vec F S512x512 .f32) (x1 x2 : Vec F S512x2048 .bf16) (x3 : Vec F S1x2048 .f32) (x6 : Vec F S512x128 .bf16) (x7 : Vec F S1x128 .f32) : FVec F S512x128 .f32 :=
  k0_pay15 (hv25 x0 x1 x3) (hv38 x0 x1 x2 x3) (hv39 x0 x1 x2 x3) x6 x7
/-- The cell state after the third layer. -/
def hv73 (x0 : Vec F S512x512 .f32) (x1 x2 : Vec F S512x2048 .bf16) (x3 : Vec F S1x2048 .f32) : FVec F S512x512 .f32 :=
  k0_pay17 (hv5 x2) (hv10 x0 x1 x3) (hv25 x0 x1 x3) (hv38 x0 x1 x2 x3) (hv39 x0 x1 x2 x3)
/-- The third head. -/
def hv83 (x0 : Vec F S512x512 .f32) (x1 x2 : Vec F S512x2048 .bf16) (x3 : Vec F S1x2048 .f32) (x8 : Vec F S512x256 .bf16) (x9 : Vec F S1x256 .f32) : FVec F S512x256 .f32 :=
  k0_pay19 (hv5 x2) (hv10 x0 x1 x3) (hv25 x0 x1 x3) (hv38 x0 x1 x2 x3) (hv39 x0 x1 x2 x3) x8 x9
/-- The fourth layer's four pre-activations side by side, and the first 512 columns of them. -/
def hv86 (x0 : Vec F S512x512 .f32) (x1 x2 : Vec F S512x2048 .bf16) (x3 : Vec F S1x2048 .f32) : FVec F S512x2048 .f32 :=
  k0_pay20 (hv5 x2) (hv10 x0 x1 x3) (hv25 x0 x1 x3) (hv38 x0 x1 x2 x3) (hv39 x0 x1 x2 x3)
def hv87 (x0 : Vec F S512x512 .f32) (x1 x2 : Vec F S512x2048 .bf16) (x3 : Vec F S1x2048 .f32) : FVec F S512x512 .f32 :=
  k0_pay21 (hv5 x2) (hv10 x0 x1 x3) (hv25 x0 x1 x3) (hv38 x0 x1 x2 x3) (hv39 x0 x1 x2 x3)

/-- What the body stores into the first output's buffer: the four heads side by side. -/
def payLocal (x0 : Vec F S512x512 .f32) (x1 x2 : Vec F S512x2048 .bf16) (x3 : Vec F S1x2048 .f32) (x4 : Vec F S512x64 .bf16) (x5 : Vec F S1x64 .f32)
    (x6 : Vec F S512x128 .bf16) (x7 : Vec F S1x128 .f32) (x8 : Vec F S512x256 .bf16) (x9 : Vec F S1x256 .f32) (x10 : Vec F S512x512 .bf16) (x11 : Vec F S1x512 .f32) :
    FVec F S512x960 .f32 :=
  k0_pay2 (hv35 x0 x1 x3 x4 x5) (hv59 x0 x1 x2 x3 x6 x7) (hv73 x0 x1 x2 x3) (hv83 x0 x1 x2 x3 x8 x9) (hv86 x0 x1 x2 x3) (hv87 x0 x1 x2 x3) x10 x11

/-- What the body stores into the second output's buffer: the last head. -/
def payGlobal (x0 : Vec F S512x512 .f32) (x1 x2 : Vec F S512x2048 .bf16) (x3 : Vec F S1x2048 .f32) (x12 x13 : Vec F S512x960 .bf16) (x14 : Vec F S1x960 .f32) :
    FVec F S512x960 .f32 :=
  k0_pay3 (hv13 x0 x12) (hv73 x0 x1 x2 x3) (hv86 x0 x1 x2 x3) (hv87 x0 x1 x2 x3) x13 x14

end Cert.KernelIdeal.Hand

end
-- ==== Proof.KernelIdealFrame.lean ====
import proofs.«127465_j91130616086566_2_alg».proof.Proof.KernelIdealEntry
import proofs.«127465_j91130616086566_2_alg».proof.Proof.KernelIdealPay
import Idealize.ShloMosaic.Lib.Pipeline.FrameBody
import Idealize.ShloMosaic.Lib.Ring
import Idealize.ShloMosaic.Lib.Tactic

/-! The frame run of the program: the body stores into each output buffer a closed function of the input blocks
    it loads and leaves every input buffer as found, so the one region runs to its post at proof data naming
    those contents, and every argument array ends as it began. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each output window's buffer -/

/-- The first output's buffer after the body: its one whole-block store over the loaded input blocks. -/
def out0_15 (x0 : Vec F S512x512 .f32) (x1 : Vec F S512x2048 .bf16) (x2 : Vec F S512x2048 .bf16) (x3 : Vec F S1x2048 .f32) (x4 : Vec F S512x64 .bf16) (x5 : Vec F S1x64 .f32) (x6 : Vec F S512x128 .bf16) (x7 : Vec F S1x128 .f32) (x8 : Vec F S512x256 .bf16) (x9 : Vec F S1x256 .f32) (x10 : Vec F S512x512 .bf16) (x11 : Vec F S1x512 .f32) : Vec F S512x960 .f32 :=
  View.canon [⟨rS512x960, payLocal (View.ld x0 rS512x512) (View.ld x1 rS512x2048) (View.ld x2 rS512x2048) (View.ld x3 rS1x2048) (View.ld x4 rS512x64) (View.ld x5 rS1x64) (View.ld x6 rS512x128) (View.ld x7 rS1x128) (View.ld x8 rS512x256) (View.ld x9 rS1x256) (View.ld x10 rS512x512) (View.ld x11 rS1x512)⟩]

/-- The second output's buffer after the body: its one whole-block store over the loaded input blocks. -/
def out0_16 (x0 : Vec F S512x512 .f32) (x1 : Vec F S512x2048 .bf16) (x2 : Vec F S512x2048 .bf16) (x3 : Vec F S1x2048 .f32) (x12 : Vec F S512x960 .bf16) (x13 : Vec F S512x960 .bf16) (x14 : Vec F S1x960 .f32) : Vec F S512x960 .f32 :=
  View.canon [⟨rS512x960, payGlobal (View.ld x0 rS512x512) (View.ld x1 rS512x2048) (View.ld x2 rS512x2048) (View.ld x3 rS1x2048) (View.ld x12 rS512x960) (View.ld x13 rS512x960) (View.ld x14 rS1x960)⟩]

/-- The one store is the whole block, so it covers the buffer. -/
theorem cover0_15 (p0 : Vec F S512x960 .f32) (y : S512x960.Idx) :
    ∃ pc ∈ ([⟨rS512x960, p0⟩] : List (View.Piece (Elt F) S512x960 .f32)), y ∈ pc.1.set :=
  View.cover_of_tiled [⟨rS512x960, p0⟩] S512x960.size (by rfl) y
theorem cover0_16 (p0 : Vec F S512x960 .f32) (y : S512x960.Idx) :
    ∃ pc ∈ ([⟨rS512x960, p0⟩] : List (View.Piece (Elt F) S512x960 .f32)), y ∈ pc.1.set :=
  View.cover_of_tiled [⟨rS512x960, p0⟩] S512x960.size (by rfl) y

/-! ## The body's triple -/

set_option maxHeartbeats 4000000 in
/-- The kernel body on whole staging buffers — each input's read at contents `xW`, each output's at anything —
    runs to the continuation holding every input as it was and each output at the canon of its one store over
    the loaded blocks. The two loads of the output buffers return values nothing reads. -/
theorem sound_kernel (c : Dev nD) (E : Set ℕ) (i : grid0.Coords) (arg0 : Memref sig .tc .vmem S512x512 .f32) (harg0 : arg0.IsWhole) (arg1 : Memref sig .tc .vmem S512x2048 .bf16) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x64 .bf16) (harg4 : arg4.IsWhole) (arg5 : Memref sig .tc .vmem S1x64 .f32) (harg5 : arg5.IsWhole) (arg6 : Memref sig .tc .vmem S512x128 .bf16) (harg6 : arg6.IsWhole) (arg7 : Memref sig .tc .vmem S1x128 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S512x512 .bf16) (harg10 : arg10.IsWhole) (arg11 : Memref sig .tc .vmem S1x512 .f32) (harg11 : arg11.IsWhole) (arg12 : Memref sig .tc .vmem S512x960 .bf16) (harg12 : arg12.IsWhole) (arg13 : Memref sig .tc .vmem S512x960 .bf16) (harg13 : arg13.IsWhole) (arg14 : Memref sig .tc .vmem S1x960 .f32) (harg14 : arg14.IsWhole) (arg15 : Memref sig .tc .vmem S512x960 .f32) (harg15 : arg15.IsWhole) (arg16 : Memref sig .tc .vmem S512x960 .f32) (harg16 : arg16.IsWhole)
    (x0 : Vec F S512x512 .f32) (x1 : Vec F S512x2048 .bf16) (x2 : Vec F S512x2048 .bf16) (x3 : Vec F S1x2048 .f32) (x4 : Vec F S512x64 .bf16) (x5 : Vec F S1x64 .f32) (x6 : Vec F S512x128 .bf16) (x7 : Vec F S1x128 .f32) (x8 : Vec F S512x256 .bf16) (x9 : Vec F S1x256 .f32) (x10 : Vec F S512x512 .bf16) (x11 : Vec F S1x512 .f32) (x12 : Vec F S512x960 .bf16) (x13 : Vec F S512x960 .bf16) (x14 : Vec F S1x960 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
        ∗ (∃ d, owns (c : Thread nD τ) arg15 fullShare d) ∗ (∃ d, owns (c : Thread nD τ) arg16 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ owns (c : Thread nD τ) arg15 fullShare (out0_15 x0 x1 x2 x3 x4 x5 x6 x7 x8 x9 x10 x11) ∗ owns (c : Thread nD τ) arg16 fullShare (out0_16 x0 x1 x2 x3 x12 x13 x14)) -∗ K ⟨⟩))
      ⊢ wp frame (wpE (defs₀ (F := F)) Variants.none c none) E (cc0__hmc_lstm_kernel i arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__hmc_lstm_kernel_eq_skeleton]; unfold cc0__hmc_lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover0_15 _)
  iexists _; isplitr
  swap; · iexact H16
  ipureintro
  exact View.read_writes_eq_canon _ _ _ (cover0_16 _)

/-! ## The pipeline's proof data -/

/-- The proof data of the one pipeline on core `c`: the arrays as the region finds them; after the body at point
    `t` each input's buffer still at its block and each output's at the canon of its store over the input blocks;
    the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (iblk m c 0 t) (iblk m c 1 t) (iblk m c 2 t) (iblk m c 3 t) (iblk m c 12 t) (iblk m c 13 t) (iblk m c 14 t)
    | ⟨_ + 17, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (iblk m c 0 t) (iblk m c 1 t) (iblk m c 2 t) (iblk m c 3 t) (iblk m c 12 t) (iblk m c 13 t) (iblk m c 14 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t`: the invariant, the core's debts, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1000000 in
/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    entry function terminates, and every final state has every array of the pipeline at what the proof data
    computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates without fault and every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.LstmSpec.lean ====
/-
  The layered recurrent cell, one input row at a time.

  An input row `x` (512 features) is fed, together with the previous layer's hidden row `h` (512 units, zero before the
  first layer), to four gates. Gate `g` has a weight matrix `W` of 1024 rows — the first 512 multiply the features, the
  last 512 the hidden row — and a bias `b`; its pre-activation at unit `j` is

      pre W b x h j = (Σ_k x_k · W[k, j] + Σ_k h_k · W[512 + k, j]) + b_j .

  With σ the logistic function, the cell state and the hidden row of the next layer are

      c' = tanh(pre_c) · σ(pre_i) + σ(pre_f) · c ,        h' = σ(pre_o) · tanh(c') .

  Four layers are stacked (all reading the same `x`); after layer `l` a linear head reads the hidden row,
  `Σ_k h_k · Wl[k, q] + bl_q`, and after the last layer a head over the features and the hidden row together,
  `pre Wg bg x h q`. Everything is over the extended reals; sums are finite sums in a commutative monoid, and the three
  rearrangements below (`sum_halves`, `pre_swap`, `pre_zero`) use only that and `0 · a = 0`: no entry need be finite.
-/
import Idealize.ShloMosaic.PureOps.Ideal.Laws
import Idealize.ShloMosaic.Lib.ValueIdx

noncomputable section

open scoped BigOperators

namespace Cert.Lstm

open Idealize.ShloMosaic Idealize.ShloMosaic.ValueIdx

/-- A matrix of extended reals, indexed by the library's rank-2 indices. -/
abbrev Mat (a b : Nat) := (⟨2, ![a, b]⟩ : Shape).Idx → EReal
/-- A vector of extended reals. -/
abbrev Vc (a : Nat) := (⟨1, ![a]⟩ : Shape).Idx → EReal

/-- Row `k` of the feature half of a 1024-row weight matrix. -/
def lo (k : Fin 512) : Fin 1024 := ⟨k.val, by omega⟩
/-- Row `512 + k`: the hidden half. -/
def hi (k : Fin 512) : Fin 1024 := ⟨512 + k.val, by omega⟩

/-- A sum over the 1024 rows is the sum over the feature half plus the sum over the hidden half. -/
theorem sum_halves (f : Fin 1024 → EReal) : ∑ k : Fin 1024, f k = ∑ k : Fin 512, f (lo k) + ∑ k : Fin 512, f (hi k) := by
  have h := Fin.sum_univ_add (a := 512) (b := 512) (fun k : Fin (512 + 512) => f (Fin.cast (by norm_num : 512 + 512 = 1024) k))
  have e : ∑ k : Fin 1024, f k = ∑ k : Fin (512 + 512), f (Fin.cast (by norm_num : 512 + 512 = 1024) k) :=
    (Equiv.sum_comp (finCongr (by norm_num : 512 + 512 = 1024)) f).symm
  rw [e, h]
  rfl

/-- The pre-activation of a gate (or of the last head) with weights `W`, bias `b`, at features `x` and hidden row `h`. -/
def pre {N : Nat} (W : Mat 1024 N) (b : Vc N) (x h : Fin 512 → EReal) (j : Fin N) : EReal :=
  (∑ k : Fin 512, x k * W (ix2 (lo k) j) + ∑ k : Fin 512, h k * W (ix2 (hi k) j)) + b (ix1 j)

/-- The feature part may be added to the bias first and the hidden part afterwards. -/
theorem pre_swap {N : Nat} (W : Mat 1024 N) (b : Vc N) (x h : Fin 512 → EReal) (j : Fin N) :
    (∑ k : Fin 512, x k * W (ix2 (lo k) j) + b (ix1 j)) + ∑ k : Fin 512, h k * W (ix2 (hi k) j) = pre W b x h j := by
  unfold pre
  exact add_right_comm _ _ _

/-- At a zero hidden row only the feature part and the bias are left. -/
theorem pre_zero {N : Nat} (W : Mat 1024 N) (b : Vc N) (x : Fin 512 → EReal) (j : Fin N) :
    pre W b x (fun _ => 0) j = ∑ k : Fin 512, x k * W (ix2 (lo k) j) + b (ix1 j) := by
  unfold pre
  simp only [zero_mul, Finset.sum_const_zero, add_zero]

/-- The pre-activation as ONE sum over the 1024 rows of the features and the hidden row laid side by side. -/
theorem pre_joined {N : Nat} (W : Mat 1024 N) (b : Vc N) (x h : Fin 512 → EReal) (j : Fin N) (z : Fin 1024 → EReal)
    (hlo : ∀ k, z (lo k) = x k) (hhi : ∀ k, z (hi k) = h k) :
    ∑ k : Fin 1024, z k * W (ix2 k j) + b (ix1 j) = pre W b x h j := by
  unfold pre
  rw [sum_halves]
  simp only [hlo, hhi]

/-- The four gates' weights and biases: forget, input, output, candidate. -/
structure Gates where
  Wf : Mat 1024 512
  bf : Vc 512
  Wi : Mat 1024 512
  bi : Vc 512
  Wo : Mat 1024 512
  bo : Vc 512
  Wc : Mat 1024 512
  bc : Vc 512

/-- The next cell state. -/
def cellC (G : Gates) (x h c : Fin 512 → EReal) (j : Fin 512) : EReal :=
  Ideal.tanh (pre G.Wc G.bc x h j) * Ideal.logistic (pre G.Wi G.bi x h j) + Ideal.logistic (pre G.Wf G.bf x h j) * c j

/-- The next hidden row. -/
def cellH (G : Gates) (x h c : Fin 512 → EReal) (j : Fin 512) : EReal :=
  Ideal.logistic (pre G.Wo G.bo x h j) * Ideal.tanh (cellC G x h c j)

/-- Hidden row and cell state after `n` layers (both zero before the first). -/
def st (G : Gates) (x : Fin 512 → EReal) : Nat → (Fin 512 → EReal) × (Fin 512 → EReal)
  | 0 => (fun _ => 0, fun _ => 0)
  | n + 1 => (cellH G x (st G x n).1 (st G x n).2, cellC G x (st G x n).1 (st G x n).2)

theorem st_zero (G : Gates) (x : Fin 512 → EReal) : st G x 0 = (fun _ => 0, fun _ => 0) := rfl
theorem st_succ (G : Gates) (x : Fin 512 → EReal) (n : Nat) :
    st G x (n + 1) = (cellH G x (st G x n).1 (st G x n).2, cellC G x (st G x n).1 (st G x n).2) := rfl

/-- A linear head over a hidden row. -/
def head {N : Nat} (W : Mat 512 N) (b : Vc N) (h : Fin 512 → EReal) (q : Fin N) : EReal :=
  ∑ k : Fin 512, h k * W (ix2 k q) + b (ix1 q)

/-- Every argument array of the two programs. -/
structure Args where
  X : Mat 16384 512
  G : Gates
  Wl0 : Mat 512 64
  bl0 : Vc 64
  Wl1 : Mat 512 128
  bl1 : Vc 128
  Wl2 : Mat 512 256
  bl2 : Vc 256
  Wl3 : Mat 512 512
  bl3 : Vc 512
  Wg : Mat 1024 960
  bg : Vc 960

/-- Input row `r`. -/
def Args.row (A : Args) (r : Fin 16384) : Fin 512 → EReal := fun k => A.X (ix2 r k)

/-- The hidden row of input row `r` after `n` layers. -/
def Args.hid (A : Args) (n : Nat) (r : Fin 16384) : Fin 512 → EReal := (st A.G (A.row r) n).1

/-- The four per-layer heads, as arrays over all rows. -/
def Args.loc0 (A : Args) : Mat 16384 64 := fun i => head A.Wl0 A.bl0 (A.hid 1 (i 0)) (i 1)
def Args.loc1 (A : Args) : Mat 16384 128 := fun i => head A.Wl1 A.bl1 (A.hid 2 (i 0)) (i 1)
def Args.loc2 (A : Args) : Mat 16384 256 := fun i => head A.Wl2 A.bl2 (A.hid 3 (i 0)) (i 1)
def Args.loc3 (A : Args) : Mat 16384 512 := fun i => head A.Wl3 A.bl3 (A.hid 4 (i 0)) (i 1)

/-- Four blocks of 64, 128, 256 and 512 columns laid side by side fill 960 columns. -/
theorem widths_fill : Shape.Concatenates [(⟨2, ![16384, 64]⟩ : Shape), ⟨2, ![16384, 128]⟩, ⟨2, ![16384, 256]⟩, ⟨2, ![16384, 512]⟩]
    ⟨2, ![16384, 960]⟩ 1 := by decide

/-- FIRST RESULT: the four heads side by side, 64 + 128 + 256 + 512 = 960 columns. -/
def Args.localOut (A : Args) : Mat 16384 960 :=
  concatenate ⟨2, ![16384, 960]⟩ 1
    [⟨⟨2, ![16384, 64]⟩, A.loc0⟩, ⟨⟨2, ![16384, 128]⟩, A.loc1⟩, ⟨⟨2, ![16384, 256]⟩, A.loc2⟩, ⟨⟨2, ![16384, 512]⟩, A.loc3⟩]
    widths_fill

/-- SECOND RESULT: the last head, over the features and the last hidden row. -/
def Args.globalOut (A : Args) : Mat 16384 960 := fun i => pre A.Wg A.bg (A.row (i 0)) (A.hid 4 (i 0)) (i 1)

end Cert.Lstm

end
-- ==== Proof.GateCols.lean ====
/-
  The four gates side by side: gate `g` (forget, input, output, candidate) occupies columns `512 g … 512 g + 511` of the
  2048 columns of the joined weight blocks and of the joined bias row.
-/
import Mathlib.Data.Fin.Basic

namespace Cert.Lstm

/-- Column `j` of the forget gate. -/
def c0 (j : Fin 512) : Fin 2048 := ⟨j.val, by omega⟩
/-- Column `j` of the input gate. -/
def c1 (j : Fin 512) : Fin 2048 := ⟨512 + j.val, by omega⟩
/-- Column `j` of the output gate. -/
def c2 (j : Fin 512) : Fin 2048 := ⟨1024 + j.val, by omega⟩
/-- Column `j` of the candidate gate. -/
def c3 (j : Fin 512) : Fin 2048 := ⟨1536 + j.val, by omega⟩

end Cert.Lstm
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelIdealPayAt.lean ====
/-
  What one grid point's body stores, read entry by entry over the extended reals, and matched with the layered cell.

  First the body's values one at a time: a product of a block of rows with a weight block is, at `(p, q)`, the inner product
  of row `p` with column `q` (rounding to a shorter format changes nothing here); a bias row spread over the rows reads the
  row's entry; a gate is 512 of the 2048 joined columns; the cell and hidden updates are pointwise. Then, for blocks that
  are row `p`'s view of the argument arrays at input row `r` (`BlockOf`), layer by layer: the joined pre-activation
  `(Σ x·W_lo + b) + Σ h·W_hi` is the specification's `(Σ x·W_lo + Σ h·W_hi) + b` — addition is commutative and associative,
  nothing else is used — and at the first layer, where the hidden row is zero, `0 · w = 0` removes the hidden part. So the
  two stored blocks are, row by row, the specification's two results.
-/
import proofs.«127465_j91130616086566_2_alg».proof.Proof.KernelIdealPay
import proofs.«127465_j91130616086566_2_alg».proof.Proof.LstmSpec
import proofs.«127465_j91130616086566_2_alg».proof.Proof.GateCols
import proofs.«127465_j91130616086566_2_alg».proof.Proof.LibDotCols
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

open Cert.Lstm (c0 c1 c2 c3)

/-- A block of rows (rounded, which changes nothing on the extended reals) times a weight block, into zeros: entry
    `(p, q)` is the inner product of row `p` with column `q`. -/
theorem dense_apply' {N : Nat} (D : DotDims ⟨2, ![512, 512]⟩ ⟨2, ![512, N]⟩ ⟨2, ![512, N]⟩) (hD : D = DotDims.plain 512 512 N)
    (h : FVec Ideal ⟨2, ![512, 512]⟩ .f32) (w : FVec Ideal ⟨2, ![512, N]⟩ .bf16)
    (hb : FTy.bf16.bits < FTy.f32.bits) (p : Fin 512) (q : Fin N) :
    matmul D none (truncf .bf16 h hb) w (constant ⟨2, ![512, N]⟩ .f32 0x00000000#32) (ix2 p q)
      = ∑ k : Fin 512, h (ix2 p k) * w (ix2 k q) :=
  Cert.Lib.DotCols.matmul_cols_apply D hD none (truncf .bf16 h hb) w p q

/-- The same with the weight block passed through a reshape to its own shape. -/
theorem dense_apply {N : Nat} (D : DotDims ⟨2, ![512, 512]⟩ ⟨2, ![512, N]⟩ ⟨2, ![512, N]⟩) (hD : D = DotDims.plain 512 512 N)
    (h : FVec Ideal ⟨2, ![512, 512]⟩ .f32) (w : FVec Ideal ⟨2, ![512, N]⟩ .bf16)
    (hb : FTy.bf16.bits < FTy.f32.bits) (hw : (⟨2, ![512, N]⟩ : Shape).ShapeCasts ⟨2, ![512, N]⟩) (p : Fin 512) (q : Fin N) :
    matmul D none (truncf .bf16 h hb) (shapeCast ⟨2, ![512, N]⟩ w hw) (constant ⟨2, ![512, N]⟩ .f32 0x00000000#32) (ix2 p q)
      = ∑ k : Fin 512, h (ix2 p k) * w (ix2 k q) := by
  rw [shapeCast_self w hw]
  exact dense_apply' D hD h w hb p q

/-- A bias row spread over the block's rows reads, at `(p, q)`, the row's entry `q`. -/
theorem bias_apply {N : Nat} (b : FVec Ideal ⟨2, ![1, N]⟩ .f32) (hc : (⟨2, ![1, N]⟩ : Shape).ShapeCasts ⟨2, ![1, N]⟩)
    (hbc : (⟨2, ![1, N]⟩ : Shape).Broadcasts ⟨2, ![512, N]⟩) (p : Fin 512) (q : Fin N) :
    broadcastTo ⟨2, ![512, N]⟩ (shapeCast ⟨2, ![1, N]⟩ b hc) hbc (ix2 p q) = b (ix2 (0 : Fin 1) q) := by
  rw [shapeCast_self b hc]
  exact broadcastTo_1b_ab_apply b hbc p q

/-- Gate `g`'s 512 columns cut out of the 2048. -/
theorem gate0_apply (v : FVec Ideal S512x2048 .f32) (h) (p j : Fin 512) : extractStridedSlice S512x512 ![0, 0] v h (ix2 p j) = v (ix2 p (c0 j)) :=
  slice2_axis1_apply 0 v h p j (c0 j) (by simp [c0])
theorem gate1_apply (v : FVec Ideal S512x2048 .f32) (h) (p j : Fin 512) : extractStridedSlice S512x512 ![0, 512] v h (ix2 p j) = v (ix2 p (c1 j)) :=
  slice2_axis1_apply 512 v h p j (c1 j) rfl
theorem gate2_apply (v : FVec Ideal S512x2048 .f32) (h) (p j : Fin 512) : extractStridedSlice S512x512 ![0, 1024] v h (ix2 p j) = v (ix2 p (c2 j)) :=
  slice2_axis1_apply 1024 v h p j (c2 j) rfl
theorem gate3_apply (v : FVec Ideal S512x2048 .f32) (h) (p j : Fin 512) : extractStridedSlice S512x512 ![0, 1536] v h (ix2 p j) = v (ix2 p (c3 j)) :=
  slice2_axis1_apply 1536 v h p j (c3 j) rfl

/-- The cell update at an entry, from the four gates' pre-activations side by side (`g`), the forget gate's own
    pre-activation `gf` and the previous cell state. -/
theorem cell_apply (g : FVec Ideal S512x2048 .f32) (gf cprev : FVec Ideal S512x512 .f32) (h1 h3) (p j : Fin 512) :
    addf (mulf (tanh (extractStridedSlice S512x512 ![0, 1536] g h3)) (logistic (extractStridedSlice S512x512 ![0, 512] g h1)))
        (mulf (logistic gf) cprev) (ix2 p j)
      = Ideal.tanh (g (ix2 p (c3 j))) * Ideal.logistic (g (ix2 p (c1 j))) + Ideal.logistic (gf (ix2 p j)) * cprev (ix2 p j) := by
  show Ideal.tanh (extractStridedSlice S512x512 ![0, 1536] g h3 (ix2 p j)) * Ideal.logistic (extractStridedSlice S512x512 ![0, 512] g h1 (ix2 p j))
    + Ideal.logistic (gf (ix2 p j)) * cprev (ix2 p j) = _
  rw [gate3_apply, gate1_apply]

/-- The hidden update at an entry. -/
theorem hidden_apply (g : FVec Ideal S512x2048 .f32) (c : FVec Ideal S512x512 .f32) (h2) (p j : Fin 512) :
    mulf (logistic (extractStridedSlice S512x512 ![0, 1024] g h2)) (tanh c) (ix2 p j)
      = Ideal.logistic (g (ix2 p (c2 j))) * Ideal.tanh (c (ix2 p j)) := by
  show Ideal.logistic (extractStridedSlice S512x512 ![0, 1024] g h2 (ix2 p j)) * Ideal.tanh (c (ix2 p j)) = _
  rw [gate2_apply]

section Payloads
variable (x0 : FVec Ideal S512x512 .f32) (x1 x2 : FVec Ideal S512x2048 .bf16) (x3 : FVec Ideal S1x2048 .f32)

/-- The gates' feature part plus bias at an entry. -/
theorem pay6_apply (p : Fin 512) (c : Fin 2048) :
    k0_pay6 (F := Ideal) x0 x1 x3 (ix2 p c) = ∑ k : Fin 512, x0 (ix2 p k) * x1 (ix2 k c) + x3 (ix2 (0 : Fin 1) c) := by
  show addf (matmul dot_S512x512_S512x2048_S512x2048_1_0_0_1_n_n none (truncf .bf16 x0 _) (shapeCast S512x2048 x1 _) (constant S512x2048 .f32 0x00000000#32))
    (broadcastTo S512x2048 (shapeCast S1x2048 x3 _) _) (ix2 p c) = _
  rw [addf_apply, dense_apply dot_S512x512_S512x2048_S512x2048_1_0_0_1_n_n rfl, bias_apply]

/-- The first layer's cell state at an entry (the previous cell state is zero). -/
theorem pay8_apply (p j : Fin 512) :
    k0_pay8 (F := Ideal) x0 x1 x3 (ix2 p j)
      = Ideal.tanh (k0_pay6 (F := Ideal) x0 x1 x3 (ix2 p (c3 j))) * Ideal.logistic (k0_pay6 (F := Ideal) x0 x1 x3 (ix2 p (c1 j)))
        + Ideal.logistic (k0_pay6 (F := Ideal) x0 x1 x3 (ix2 p (c0 j))) * 0 := by
  have h := cell_apply (k0_pay6 (F := Ideal) x0 x1 x3) (extractStridedSlice S512x512 ![0, 0] (k0_pay6 (F := Ideal) x0 x1 x3) Facts₀.slices_S512x2048_o0_0_S512x512)
    (broadcast S512x512 (Scalar.ofBits (F := Ideal) .f32 0x00000000#32)) Facts₀.slices_S512x2048_o0_512_S512x512 Facts₀.slices_S512x2048_o0_1536_S512x512 p j
  rw [gate0_apply] at h
  refine h.trans ?_
  show _ + _ * Ideal.ofBits .f32 0x00000000#32 = _
  rw [Ideal.ofBits_zero_f32]

/-- The first layer's hidden row at an entry. -/
theorem pay9_apply (p j : Fin 512) :
    k0_pay9 (F := Ideal) x0 x1 x3 (ix2 p j)
      = Ideal.logistic (k0_pay6 (F := Ideal) x0 x1 x3 (ix2 p (c2 j))) * Ideal.tanh (k0_pay8 (F := Ideal) x0 x1 x3 (ix2 p j)) :=
  hidden_apply (k0_pay6 (F := Ideal) x0 x1 x3) (k0_pay8 (F := Ideal) x0 x1 x3) Facts₀.slices_S512x2048_o0_1024_S512x512 p j

/-- The first head at an entry. -/
theorem pay10_apply (x4 : FVec Ideal S512x64 .bf16) (x5 : FVec Ideal S1x64 .f32) (p : Fin 512) (q : Fin 64) :
    k0_pay10 (F := Ideal) x0 x1 x3 x4 x5 (ix2 p q) = ∑ k : Fin 512, k0_pay9 (F := Ideal) x0 x1 x3 (ix2 p k) * x4 (ix2 k q) + x5 (ix2 (0 : Fin 1) q) := by
  show addf (matmul dot_S512x512_S512x64_S512x64_1_0_0_1_n_n none (truncf .bf16 (k0_pay9 (F := Ideal) x0 x1 x3) _) (shapeCast S512x64 x4 _) (constant S512x64 .f32 0x00000000#32))
    (broadcastTo S512x64 (shapeCast S1x64 x5 _) _) (ix2 p q) = _
  rw [addf_apply, dense_apply dot_S512x512_S512x64_S512x64_1_0_0_1_n_n rfl, bias_apply]

/-- The second layer's pre-activations at an entry: the feature part plus bias, plus the hidden part. -/
theorem pay11_apply (p : Fin 512) (c : Fin 2048) :
    k0_pay11 (F := Ideal) x0 x1 x2 x3 (ix2 p c)
      = k0_pay6 (F := Ideal) x0 x1 x3 (ix2 p c) + ∑ k : Fin 512, k0_pay9 (F := Ideal) x0 x1 x3 (ix2 p k) * x2 (ix2 k c) := by
  show addf (k0_pay6 (F := Ideal) x0 x1 x3) (matmul dot_S512x512_S512x2048_S512x2048_1_0_0_1_n_n none (truncf .bf16 (k0_pay9 (F := Ideal) x0 x1 x3) _)
    (shapeCast S512x2048 x2 _) (constant S512x2048 .f32 0x00000000#32)) (ix2 p c) = _
  rw [addf_apply, dense_apply dot_S512x512_S512x2048_S512x2048_1_0_0_1_n_n rfl]

theorem pay12_apply (p j : Fin 512) : k0_pay12 (F := Ideal) x0 x1 x2 x3 (ix2 p j) = k0_pay11 (F := Ideal) x0 x1 x2 x3 (ix2 p (c0 j)) := by
  show extractStridedSlice S512x512 ![0, 0] (k0_pay11 (F := Ideal) x0 x1 x2 x3) Facts₀.slices_S512x2048_o0_0_S512x512 (ix2 p j) = _
  exact gate0_apply _ _ p j

theorem pay5_eq : k0_pay5 (F := Ideal) x2 = x2 := shapeCast_self x2 _

/-- The last head's feature part at an entry. -/
theorem pay7_apply (x12 : FVec Ideal S512x960 .bf16) (p : Fin 512) (q : Fin 960) :
    k0_pay7 (F := Ideal) x0 x12 (ix2 p q) = ∑ k : Fin 512, x0 (ix2 p k) * x12 (ix2 k q) := by
  show matmul dot_S512x512_S512x960_S512x960_1_0_0_1_n_n none (truncf .bf16 x0 _) (shapeCast S512x960 x12 _) (constant S512x960 .f32 0x00000000#32) (ix2 p q) = _
  rw [dense_apply dot_S512x512_S512x960_S512x960_1_0_0_1_n_n rfl]

end Payloads

section Later
variable (v5 : FVec Ideal S512x2048 .bf16) (v10 : FVec Ideal S512x2048 .f32) (v25 : FVec Ideal S512x512 .f32) (v38 : FVec Ideal S512x2048 .f32) (v39 : FVec Ideal S512x512 .f32)

/-- The second layer's cell state and hidden row at an entry. -/
theorem pay13_apply (p j : Fin 512) :
    k0_pay13 (F := Ideal) v25 v38 v39 (ix2 p j)
      = Ideal.tanh (v38 (ix2 p (c3 j))) * Ideal.logistic (v38 (ix2 p (c1 j))) + Ideal.logistic (v39 (ix2 p j)) * v25 (ix2 p j) :=
  cell_apply v38 v39 v25 Facts₀.slices_S512x2048_o0_512_S512x512 Facts₀.slices_S512x2048_o0_1536_S512x512 p j
theorem pay14_apply (p j : Fin 512) :
    k0_pay14 (F := Ideal) v25 v38 v39 (ix2 p j) = Ideal.logistic (v38 (ix2 p (c2 j))) * Ideal.tanh (k0_pay13 (F := Ideal) v25 v38 v39 (ix2 p j)) :=
  hidden_apply v38 (k0_pay13 (F := Ideal) v25 v38 v39) Facts₀.slices_S512x2048_o0_1024_S512x512 p j

/-- The second head at an entry. -/
theorem pay15_apply (x6 : FVec Ideal S512x128 .bf16) (x7 : FVec Ideal S1x128 .f32) (p : Fin 512) (q : Fin 128) :
    k0_pay15 (F := Ideal) v25 v38 v39 x6 x7 (ix2 p q) = ∑ k : Fin 512, k0_pay14 (F := Ideal) v25 v38 v39 (ix2 p k) * x6 (ix2 k q) + x7 (ix2 (0 : Fin 1) q) := by
  show addf (matmul dot_S512x512_S512x128_S512x128_1_0_0_1_n_n none (truncf .bf16 (k0_pay14 (F := Ideal) v25 v38 v39) _) (shapeCast S512x128 x6 _) (constant S512x128 .f32 0x00000000#32))
    (broadcastTo S512x128 (shapeCast S1x128 x7 _) _) (ix2 p q) = _
  rw [addf_apply, dense_apply dot_S512x512_S512x128_S512x128_1_0_0_1_n_n rfl, bias_apply]

/-- The third layer's pre-activations, cell state, hidden row and head at an entry. -/
theorem pay16_apply (p : Fin 512) (c : Fin 2048) :
    k0_pay16 (F := Ideal) v5 v10 v25 v38 v39 (ix2 p c) = v10 (ix2 p c) + ∑ k : Fin 512, k0_pay14 (F := Ideal) v25 v38 v39 (ix2 p k) * v5 (ix2 k c) := by
  show addf v10 (matmul dot_S512x512_S512x2048_S512x2048_1_0_0_1_n_n none (truncf .bf16 (k0_pay14 (F := Ideal) v25 v38 v39) _) v5 (constant S512x2048 .f32 0x00000000#32)) (ix2 p c) = _
  rw [addf_apply, dense_apply' dot_S512x512_S512x2048_S512x2048_1_0_0_1_n_n rfl]
theorem pay17_apply (p j : Fin 512) :
    k0_pay17 (F := Ideal) v5 v10 v25 v38 v39 (ix2 p j)
      = Ideal.tanh (k0_pay16 (F := Ideal) v5 v10 v25 v38 v39 (ix2 p (c3 j))) * Ideal.logistic (k0_pay16 (F := Ideal) v5 v10 v25 v38 v39 (ix2 p (c1 j)))
        + Ideal.logistic (k0_pay16 (F := Ideal) v5 v10 v25 v38 v39 (ix2 p (c0 j))) * k0_pay13 (F := Ideal) v25 v38 v39 (ix2 p j) := by
  have h := cell_apply (k0_pay16 (F := Ideal) v5 v10 v25 v38 v39) (extractStridedSlice S512x512 ![0, 0] (k0_pay16 (F := Ideal) v5 v10 v25 v38 v39) Facts₀.slices_S512x2048_o0_0_S512x512)
    (k0_pay13 (F := Ideal) v25 v38 v39) Facts₀.slices_S512x2048_o0_512_S512x512 Facts₀.slices_S512x2048_o0_1536_S512x512 p j
  rw [gate0_apply] at h
  exact h
theorem pay18_apply (p j : Fin 512) :
    k0_pay18 (F := Ideal) v5 v10 v25 v38 v39 (ix2 p j)
      = Ideal.logistic (k0_pay16 (F := Ideal) v5 v10 v25 v38 v39 (ix2 p (c2 j))) * Ideal.tanh (k0_pay17 (F := Ideal) v5 v10 v25 v38 v39 (ix2 p j)) :=
  hidden_apply (k0_pay16 (F := Ideal) v5 v10 v25 v38 v39) (k0_pay17 (F := Ideal) v5 v10 v25 v38 v39) Facts₀.slices_S512x2048_o0_1024_S512x512 p j
theorem pay19_apply (x8 : FVec Ideal S512x256 .bf16) (x9 : FVec Ideal S1x256 .f32) (p : Fin 512) (q : Fin 256) :
    k0_pay19 (F := Ideal) v5 v10 v25 v38 v39 x8 x9 (ix2 p q)
      = ∑ k : Fin 512, k0_pay18 (F := Ideal) v5 v10 v25 v38 v39 (ix2 p k) * x8 (ix2 k q) + x9 (ix2 (0 : Fin 1) q) := by
  show addf (matmul dot_S512x512_S512x256_S512x256_1_0_0_1_n_n none (truncf .bf16 (k0_pay18 (F := Ideal) v5 v10 v25 v38 v39) _) (shapeCast S512x256 x8 _) (constant S512x256 .f32 0x00000000#32))
    (broadcastTo S512x256 (shapeCast S1x256 x9 _) _) (ix2 p q) = _
  rw [addf_apply, dense_apply dot_S512x512_S512x256_S512x256_1_0_0_1_n_n rfl, bias_apply]

/-- The fourth layer's pre-activations at an entry. -/
theorem pay20_apply (p : Fin 512) (c : Fin 2048) :
    k0_pay20 (F := Ideal) v5 v10 v25 v38 v39 (ix2 p c) = v10 (ix2 p c) + ∑ k : Fin 512, k0_pay18 (F := Ideal) v5 v10 v25 v38 v39 (ix2 p k) * v5 (ix2 k c) := by
  show addf v10 (matmul dot_S512x512_S512x2048_S512x2048_1_0_0_1_n_n none (truncf .bf16 (k0_pay18 (F := Ideal) v5 v10 v25 v38 v39) _) v5 (constant S512x2048 .f32 0x00000000#32)) (ix2 p c) = _
  rw [addf_apply, dense_apply' dot_S512x512_S512x2048_S512x2048_1_0_0_1_n_n rfl]
theorem pay21_apply (p j : Fin 512) : k0_pay21 (F := Ideal) v5 v10 v25 v38 v39 (ix2 p j) = k0_pay20 (F := Ideal) v5 v10 v25 v38 v39 (ix2 p (c0 j)) := by
  show extractStridedSlice S512x512 ![0, 0] (k0_pay20 (F := Ideal) v5 v10 v25 v38 v39) Facts₀.slices_S512x2048_o0_0_S512x512 (ix2 p j) = _
  exact gate0_apply _ _ p j

end Later

section Last
variable (v73 : FVec Ideal S512x512 .f32) (v86 : FVec Ideal S512x2048 .f32) (v87 : FVec Ideal S512x512 .f32)

/-- The fourth layer's hidden row at an entry (its cell state inside). -/
theorem pay1_apply (p j : Fin 512) :
    k0_pay1 (F := Ideal) v73 v86 v87 (ix2 p j)
      = Ideal.logistic (v86 (ix2 p (c2 j)))
        * Ideal.tanh (Ideal.tanh (v86 (ix2 p (c3 j))) * Ideal.logistic (v86 (ix2 p (c1 j))) + Ideal.logistic (v87 (ix2 p j)) * v73 (ix2 p j)) := by
  have h := hidden_apply v86 (addf (mulf (tanh (extractStridedSlice S512x512 ![0, 1536] v86 Facts₀.slices_S512x2048_o0_1536_S512x512))
      (logistic (extractStridedSlice S512x512 ![0, 512] v86 Facts₀.slices_S512x2048_o0_512_S512x512))) (mulf (logistic v87) v73))
    Facts₀.slices_S512x2048_o0_1024_S512x512 p j
  rw [cell_apply] at h
  exact h

/-- The last head at an entry. -/
theorem pay3_apply (v13 : FVec Ideal S512x960 .f32) (x13 : FVec Ideal S512x960 .bf16) (x14 : FVec Ideal S1x960 .f32) (p : Fin 512) (q : Fin 960) :
    k0_pay3 (F := Ideal) v13 v73 v86 v87 x13 x14 (ix2 p q)
      = (v13 (ix2 p q) + ∑ k : Fin 512, k0_pay1 (F := Ideal) v73 v86 v87 (ix2 p k) * x13 (ix2 k q)) + x14 (ix2 (0 : Fin 1) q) := by
  show addf (addf v13 (matmul dot_S512x512_S512x960_S512x960_1_0_0_1_n_n none (truncf .bf16 (k0_pay1 (F := Ideal) v73 v86 v87) _) (shapeCast S512x960 x13 _) (constant S512x960 .f32 0x00000000#32)))
    (broadcastTo S512x960 (shapeCast S1x960 x14 _) _) (ix2 p q) = _
  rw [addf_apply, addf_apply, dense_apply dot_S512x512_S512x960_S512x960_1_0_0_1_n_n rfl, bias_apply]

/-- The fourth head as an array, and the four heads laid side by side. -/
def head4 (x10 : FVec Ideal S512x512 .bf16) (x11 : FVec Ideal S1x512 .f32) : FVec Ideal S512x512 .f32 :=
  addf (matmul dot_S512x512_S512x512_S512x512_1_0_0_1_n_n none (truncf .bf16 (k0_pay1 (F := Ideal) v73 v86 v87) Facts₀.bitsLt_bf16_f32) (shapeCast S512x512 x10 Facts₀.shapeCasts_S512x512_S512x512) (constant S512x512 .f32 0x00000000#32))
    (broadcastTo S512x512 (shapeCast S1x512 x11 Facts₀.shapeCasts_S1x512_S1x512) Facts₀.broadcasts_S1x512_S512x512)
theorem head4_apply (x10 : FVec Ideal S512x512 .bf16) (x11 : FVec Ideal S1x512 .f32) (p q : Fin 512) :
    head4 v73 v86 v87 x10 x11 (ix2 p q) = ∑ k : Fin 512, k0_pay1 (F := Ideal) v73 v86 v87 (ix2 p k) * x10 (ix2 k q) + x11 (ix2 (0 : Fin 1) q) := by
  unfold head4
  rw [addf_apply, dense_apply dot_S512x512_S512x512_S512x512_1_0_0_1_n_n rfl, bias_apply]
theorem pay2_eq (v35 : FVec Ideal S512x64 .f32) (v59 : FVec Ideal S512x128 .f32) (v83 : FVec Ideal S512x256 .f32) (x10 : FVec Ideal S512x512 .bf16) (x11 : FVec Ideal S1x512 .f32) :
    k0_pay2 (F := Ideal) v35 v59 v73 v83 v86 v87 x10 x11
      = concatenate S512x960 1 [⟨S512x64, v35⟩, ⟨S512x128, v59⟩, ⟨S512x256, v83⟩, ⟨S512x512, head4 v73 v86 v87 x10 x11⟩]
          Facts₀.concatenates_S512x64_S512x128_S512x256_S512x512_S512x960_d1 := rfl

end Last

/-! ## Four blocks side by side, read at an entry -/

/-- Blocks of 64, 128, 256 and 512 columns laid side by side: column `q` of the 960 falls in exactly one of them. -/
theorem cat4_apply {n : Nat} (a0 : (⟨2, ![n, 64]⟩ : Shape).Idx → EReal) (a1 : (⟨2, ![n, 128]⟩ : Shape).Idx → EReal)
    (a2 : (⟨2, ![n, 256]⟩ : Shape).Idx → EReal) (a3 : (⟨2, ![n, 512]⟩ : Shape).Idx → EReal)
    (h : Shape.Concatenates [(⟨2, ![n, 64]⟩ : Shape), ⟨2, ![n, 128]⟩, ⟨2, ![n, 256]⟩, ⟨2, ![n, 512]⟩] ⟨2, ![n, 960]⟩ 1)
    (r : Fin n) (q : Fin 960) :
    concatenate ⟨2, ![n, 960]⟩ 1 [⟨⟨2, ![n, 64]⟩, a0⟩, ⟨⟨2, ![n, 128]⟩, a1⟩, ⟨⟨2, ![n, 256]⟩, a2⟩, ⟨⟨2, ![n, 512]⟩, a3⟩] h (ix2 r q)
      = if h0 : q.val < 64 then a0 (ix2 r (⟨q.val - 0, by omega⟩ : Fin 64))
        else if h1 : q.val < 192 then a1 (ix2 r ⟨q.val - 64, by omega⟩)
        else if h2 : q.val < 448 then a2 (ix2 r ⟨q.val - 192, by omega⟩)
        else a3 (ix2 r ⟨q.val - 448, by omega⟩) := by
  have hq := q.isLt
  split_ifs with h0 h1 h2
  · refine concatenate_apply_piece (t := ⟨2, ![n, 960]⟩) 1 [⟨⟨2, ![n, 64]⟩, a0⟩, ⟨⟨2, ![n, 128]⟩, a1⟩, ⟨⟨2, ![n, 256]⟩, a2⟩, ⟨⟨2, ![n, 512]⟩, a3⟩] h (ix2 r q) 0 (by simp) ⟨2, ![n, 64]⟩ a0 rfl rfl 0 rfl
      (ix2 r (⟨q.val - 0, by omega⟩ : Fin 64)) (fun b hb => ?_) ?_
    · match b with
      | ⟨0, _⟩ => rfl
      | ⟨1, _⟩ => exact absurd rfl hb
    · show 0 + (q.val - 0) = q.val; omega
  · refine concatenate_apply_piece (t := ⟨2, ![n, 960]⟩) 1 [⟨⟨2, ![n, 64]⟩, a0⟩, ⟨⟨2, ![n, 128]⟩, a1⟩, ⟨⟨2, ![n, 256]⟩, a2⟩, ⟨⟨2, ![n, 512]⟩, a3⟩] h (ix2 r q) 1 (by simp) ⟨2, ![n, 128]⟩ a1 rfl rfl 64 rfl
      (ix2 r (⟨q.val - 64, by omega⟩ : Fin 128)) (fun b hb => ?_) ?_
    · match b with
      | ⟨0, _⟩ => rfl
      | ⟨1, _⟩ => exact absurd rfl hb
    · show 64 + (q.val - 64) = q.val; omega
  · refine concatenate_apply_piece (t := ⟨2, ![n, 960]⟩) 1 [⟨⟨2, ![n, 64]⟩, a0⟩, ⟨⟨2, ![n, 128]⟩, a1⟩, ⟨⟨2, ![n, 256]⟩, a2⟩, ⟨⟨2, ![n, 512]⟩, a3⟩] h (ix2 r q) 2 (by simp) ⟨2, ![n, 256]⟩ a2 rfl rfl 192 rfl
      (ix2 r (⟨q.val - 192, by omega⟩ : Fin 256)) (fun b hb => ?_) ?_
    · match b with
      | ⟨0, _⟩ => rfl
      | ⟨1, _⟩ => exact absurd rfl hb
    · show 192 + (q.val - 192) = q.val; omega
  · refine concatenate_apply_piece (t := ⟨2, ![n, 960]⟩) 1 [⟨⟨2, ![n, 64]⟩, a0⟩, ⟨⟨2, ![n, 128]⟩, a1⟩, ⟨⟨2, ![n, 256]⟩, a2⟩, ⟨⟨2, ![n, 512]⟩, a3⟩] h (ix2 r q) 3 (by simp) ⟨2, ![n, 512]⟩ a3 rfl rfl 448 rfl
      (ix2 r (⟨q.val - 448, by omega⟩ : Fin 512)) (fun b hb => ?_) ?_
    · match b with
      | ⟨0, _⟩ => rfl
      | ⟨1, _⟩ => exact absurd rfl hb
    · show 448 + (q.val - 448) = q.val; omega

/-! ## The blocks a grid point loads, against the argument arrays -/

open Cert.Lstm in
/-- Row `p` of the fifteen loaded blocks is input row `r`'s view of the argument arrays `A`: the input block's row `p` is
    input row `r`; the gates' weights are the arrays' feature halves (`x1`) and hidden halves (`x2`), gate `g` in columns
    `512 g … 512 g + 511`; the biases likewise; the heads' weights and biases are the arrays themselves; the last head's
    weights are its array's two halves. -/
structure BlockOf (A : Args) (r : Fin 16384) (p : Fin 512)
    (x0 : FVec Ideal S512x512 .f32) (x1 x2 : FVec Ideal S512x2048 .bf16) (x3 : FVec Ideal S1x2048 .f32)
    (x4 : FVec Ideal S512x64 .bf16) (x5 : FVec Ideal S1x64 .f32) (x6 : FVec Ideal S512x128 .bf16) (x7 : FVec Ideal S1x128 .f32)
    (x8 : FVec Ideal S512x256 .bf16) (x9 : FVec Ideal S1x256 .f32) (x10 : FVec Ideal S512x512 .bf16) (x11 : FVec Ideal S1x512 .f32)
    (x12 x13 : FVec Ideal S512x960 .bf16) (x14 : FVec Ideal S1x960 .f32) : Prop where
  row : ∀ k : Fin 512, x0 (ix2 p k) = A.X (ix2 r k)
  wf_lo : ∀ k j : Fin 512, x1 (ix2 k (c0 j)) = A.G.Wf (ix2 (lo k) j)
  wi_lo : ∀ k j : Fin 512, x1 (ix2 k (c1 j)) = A.G.Wi (ix2 (lo k) j)
  wo_lo : ∀ k j : Fin 512, x1 (ix2 k (c2 j)) = A.G.Wo (ix2 (lo k) j)
  wc_lo : ∀ k j : Fin 512, x1 (ix2 k (c3 j)) = A.G.Wc (ix2 (lo k) j)
  wf_hi : ∀ k j : Fin 512, x2 (ix2 k (c0 j)) = A.G.Wf (ix2 (hi k) j)
  wi_hi : ∀ k j : Fin 512, x2 (ix2 k (c1 j)) = A.G.Wi (ix2 (hi k) j)
  wo_hi : ∀ k j : Fin 512, x2 (ix2 k (c2 j)) = A.G.Wo (ix2 (hi k) j)
  wc_hi : ∀ k j : Fin 512, x2 (ix2 k (c3 j)) = A.G.Wc (ix2 (hi k) j)
  bf : ∀ j : Fin 512, x3 (ix2 (0 : Fin 1) (c0 j)) = A.G.bf (ix1 j)
  bi : ∀ j : Fin 512, x3 (ix2 (0 : Fin 1) (c1 j)) = A.G.bi (ix1 j)
  bo : ∀ j : Fin 512, x3 (ix2 (0 : Fin 1) (c2 j)) = A.G.bo (ix1 j)
  bc : ∀ j : Fin 512, x3 (ix2 (0 : Fin 1) (c3 j)) = A.G.bc (ix1 j)
  wl0 : ∀ (k : Fin 512) (q : Fin 64), x4 (ix2 k q) = A.Wl0 (ix2 k q)
  bl0 : ∀ q : Fin 64, x5 (ix2 (0 : Fin 1) q) = A.bl0 (ix1 q)
  wl1 : ∀ (k : Fin 512) (q : Fin 128), x6 (ix2 k q) = A.Wl1 (ix2 k q)
  bl1 : ∀ q : Fin 128, x7 (ix2 (0 : Fin 1) q) = A.bl1 (ix1 q)
  wl2 : ∀ (k : Fin 512) (q : Fin 256), x8 (ix2 k q) = A.Wl2 (ix2 k q)
  bl2 : ∀ q : Fin 256, x9 (ix2 (0 : Fin 1) q) = A.bl2 (ix1 q)
  wl3 : ∀ (k : Fin 512) (q : Fin 512), x10 (ix2 k q) = A.Wl3 (ix2 k q)
  bl3 : ∀ q : Fin 512, x11 (ix2 (0 : Fin 1) q) = A.bl3 (ix1 q)
  wg_lo : ∀ (k : Fin 512) (q : Fin 960), x12 (ix2 k q) = A.Wg (ix2 (lo k) q)
  wg_hi : ∀ (k : Fin 512) (q : Fin 960), x13 (ix2 k q) = A.Wg (ix2 (hi k) q)
  bg : ∀ q : Fin 960, x14 (ix2 (0 : Fin 1) q) = A.bg (ix1 q)

section Match
open Cert.Lstm
variable {A : Args} {r : Fin 16384} {p : Fin 512}
  {x0 : FVec Ideal S512x512 .f32} {x1 x2 : FVec Ideal S512x2048 .bf16} {x3 : FVec Ideal S1x2048 .f32}
  {x4 : FVec Ideal S512x64 .bf16} {x5 : FVec Ideal S1x64 .f32} {x6 : FVec Ideal S512x128 .bf16} {x7 : FVec Ideal S1x128 .f32}
  {x8 : FVec Ideal S512x256 .bf16} {x9 : FVec Ideal S1x256 .f32} {x10 : FVec Ideal S512x512 .bf16} {x11 : FVec Ideal S1x512 .f32}
  {x12 x13 : FVec Ideal S512x960 .bf16} {x14 : FVec Ideal S1x960 .f32}

/-- A gate's feature part plus bias at its column. -/
theorem xg_gate (W : Mat 1024 512) (b : Vc 512) (cg : Fin 512 → Fin 2048) (ρ : Fin 512 → EReal)
    (hrow : ∀ k : Fin 512, x0 (ix2 p k) = ρ k) (hw : ∀ k j : Fin 512, x1 (ix2 k (cg j)) = W (ix2 (lo k) j))
    (hb : ∀ j : Fin 512, x3 (ix2 (0 : Fin 1) (cg j)) = b (ix1 j)) (j : Fin 512) :
    k0_pay6 (F := Ideal) x0 x1 x3 (ix2 p (cg j)) = ∑ k : Fin 512, ρ k * W (ix2 (lo k) j) + b (ix1 j) := by
  rw [pay6_apply]
  simp only [hrow, hw, hb]

/-- A gate's whole pre-activation at its column: feature part plus bias, plus the hidden part against a hidden block `h`
    whose row `p` is the hidden row `η`. -/
theorem gate_pre (W : Mat 1024 512) (b : Vc 512) (cg : Fin 512 → Fin 2048) (ρ η : Fin 512 → EReal)
    (hrow : ∀ k : Fin 512, x0 (ix2 p k) = ρ k) (hw : ∀ k j : Fin 512, x1 (ix2 k (cg j)) = W (ix2 (lo k) j))
    (hb : ∀ j : Fin 512, x3 (ix2 (0 : Fin 1) (cg j)) = b (ix1 j)) (hw2 : ∀ k j : Fin 512, x2 (ix2 k (cg j)) = W (ix2 (hi k) j))
    (h : FVec Ideal S512x512 .f32) (hh : ∀ k : Fin 512, h (ix2 p k) = η k) (j : Fin 512) :
    k0_pay6 (F := Ideal) x0 x1 x3 (ix2 p (cg j)) + ∑ k : Fin 512, h (ix2 p k) * x2 (ix2 k (cg j)) = pre W b ρ η j := by
  rw [xg_gate W b cg ρ hrow hw hb]
  simp only [hh, hw2]
  exact pre_swap W b ρ η j

variable (H : BlockOf A r p x0 x1 x2 x3 x4 x5 x6 x7 x8 x9 x10 x11 x12 x13 x14)
include H

/-- After the first layer. -/
theorem layer1_c (j : Fin 512) : k0_pay8 (F := Ideal) x0 x1 x3 (ix2 p j) = (st A.G (A.row r) 1).2 j := by
  rw [pay8_apply, xg_gate A.G.Wc A.G.bc c3 (A.row r) H.row H.wc_lo H.bc, xg_gate A.G.Wi A.G.bi c1 (A.row r) H.row H.wi_lo H.bi,
    xg_gate A.G.Wf A.G.bf c0 (A.row r) H.row H.wf_lo H.bf]
  simp only [st_succ, st_zero, cellC, pre_zero]
theorem layer1_h (j : Fin 512) : k0_pay9 (F := Ideal) x0 x1 x3 (ix2 p j) = (st A.G (A.row r) 1).1 j := by
  rw [pay9_apply, layer1_c H, xg_gate A.G.Wo A.G.bo c2 (A.row r) H.row H.wo_lo H.bo]
  simp only [st_succ, st_zero, cellH, cellC, pre_zero]

/-- The second layer's pre-activations. -/
theorem layer2_pre (W : Mat 1024 512) (b : Vc 512) (cg : Fin 512 → Fin 2048)
    (hw : ∀ k j : Fin 512, x1 (ix2 k (cg j)) = W (ix2 (lo k) j)) (hb : ∀ j : Fin 512, x3 (ix2 (0 : Fin 1) (cg j)) = b (ix1 j))
    (hw2 : ∀ k j : Fin 512, x2 (ix2 k (cg j)) = W (ix2 (hi k) j)) (j : Fin 512) :
    hv38 (F := Ideal) x0 x1 x2 x3 (ix2 p (cg j)) = pre W b (A.row r) (st A.G (A.row r) 1).1 j := by
  unfold hv38
  rw [pay11_apply]
  exact gate_pre W b cg (A.row r) _ H.row hw hb hw2 _ (layer1_h H) j

theorem layer2_c (j : Fin 512) : k0_pay13 (F := Ideal) (hv25 (F := Ideal) x0 x1 x3) (hv38 (F := Ideal) x0 x1 x2 x3) (hv39 (F := Ideal) x0 x1 x2 x3) (ix2 p j) = (st A.G (A.row r) 2).2 j := by
  rw [pay13_apply, layer2_pre H A.G.Wc A.G.bc c3 H.wc_lo H.bc H.wc_hi, layer2_pre H A.G.Wi A.G.bi c1 H.wi_lo H.bi H.wi_hi]
  have e : hv39 (F := Ideal) x0 x1 x2 x3 (ix2 p j) = pre A.G.Wf A.G.bf (A.row r) (st A.G (A.row r) 1).1 j := by
    unfold hv39; rw [pay12_apply]; exact layer2_pre H A.G.Wf A.G.bf c0 H.wf_lo H.bf H.wf_hi j
  have e2 : hv25 (F := Ideal) x0 x1 x3 (ix2 p j) = (st A.G (A.row r) 1).2 j := layer1_c H j
  rw [e, e2]
  rfl
theorem layer2_h (j : Fin 512) : k0_pay14 (F := Ideal) (hv25 (F := Ideal) x0 x1 x3) (hv38 (F := Ideal) x0 x1 x2 x3) (hv39 (F := Ideal) x0 x1 x2 x3) (ix2 p j) = (st A.G (A.row r) 2).1 j := by
  rw [pay14_apply, layer2_c H, layer2_pre H A.G.Wo A.G.bo c2 H.wo_lo H.bo H.wo_hi]
  rfl

/-- The third layer. -/
theorem layer3_pre (W : Mat 1024 512) (b : Vc 512) (cg : Fin 512 → Fin 2048)
    (hw : ∀ k j : Fin 512, x1 (ix2 k (cg j)) = W (ix2 (lo k) j)) (hb : ∀ j : Fin 512, x3 (ix2 (0 : Fin 1) (cg j)) = b (ix1 j))
    (hw2 : ∀ k j : Fin 512, x2 (ix2 k (cg j)) = W (ix2 (hi k) j)) (j : Fin 512) :
    k0_pay16 (F := Ideal) (hv5 (F := Ideal) x2) (hv10 (F := Ideal) x0 x1 x3) (hv25 (F := Ideal) x0 x1 x3) (hv38 (F := Ideal) x0 x1 x2 x3) (hv39 (F := Ideal) x0 x1 x2 x3) (ix2 p (cg j))
      = pre W b (A.row r) (st A.G (A.row r) 2).1 j := by
  rw [pay16_apply]
  unfold hv5 hv10
  rw [pay5_eq]
  exact gate_pre W b cg (A.row r) _ H.row hw hb hw2 _ (layer2_h H) j
theorem layer3_c (j : Fin 512) : hv73 (F := Ideal) x0 x1 x2 x3 (ix2 p j) = (st A.G (A.row r) 3).2 j := by
  unfold hv73
  rw [pay17_apply, layer3_pre H A.G.Wc A.G.bc c3 H.wc_lo H.bc H.wc_hi, layer3_pre H A.G.Wi A.G.bi c1 H.wi_lo H.bi H.wi_hi,
    layer3_pre H A.G.Wf A.G.bf c0 H.wf_lo H.bf H.wf_hi, layer2_c H]
  rfl
theorem layer3_h (j : Fin 512) :
    k0_pay18 (F := Ideal) (hv5 (F := Ideal) x2) (hv10 (F := Ideal) x0 x1 x3) (hv25 (F := Ideal) x0 x1 x3) (hv38 (F := Ideal) x0 x1 x2 x3) (hv39 (F := Ideal) x0 x1 x2 x3) (ix2 p j) = (st A.G (A.row r) 3).1 j := by
  have e := layer3_c H j
  unfold hv73 at e
  rw [pay18_apply, e, layer3_pre H A.G.Wo A.G.bo c2 H.wo_lo H.bo H.wo_hi]
  rfl

/-- The fourth layer. -/
theorem layer4_pre (W : Mat 1024 512) (b : Vc 512) (cg : Fin 512 → Fin 2048)
    (hw : ∀ k j : Fin 512, x1 (ix2 k (cg j)) = W (ix2 (lo k) j)) (hb : ∀ j : Fin 512, x3 (ix2 (0 : Fin 1) (cg j)) = b (ix1 j))
    (hw2 : ∀ k j : Fin 512, x2 (ix2 k (cg j)) = W (ix2 (hi k) j)) (j : Fin 512) :
    hv86 (F := Ideal) x0 x1 x2 x3 (ix2 p (cg j)) = pre W b (A.row r) (st A.G (A.row r) 3).1 j := by
  unfold hv86
  rw [pay20_apply]
  simp only [show ∀ i, hv5 (F := Ideal) x2 i = x2 i from fun i => congrFun (pay5_eq x2) i]
  exact gate_pre W b cg (A.row r) _ H.row hw hb hw2 _ (layer3_h H) j
theorem layer4_h (j : Fin 512) :
    k0_pay1 (F := Ideal) (hv73 (F := Ideal) x0 x1 x2 x3) (hv86 (F := Ideal) x0 x1 x2 x3) (hv87 (F := Ideal) x0 x1 x2 x3) (ix2 p j) = (st A.G (A.row r) 4).1 j := by
  have e : hv87 (F := Ideal) x0 x1 x2 x3 (ix2 p j) = pre A.G.Wf A.G.bf (A.row r) (st A.G (A.row r) 3).1 j := by
    have e' := layer4_pre H A.G.Wf A.G.bf c0 H.wf_lo H.bf H.wf_hi j
    unfold hv86 at e'
    unfold hv87; rw [pay21_apply]; exact e'
  rw [pay1_apply, layer4_pre H A.G.Wo A.G.bo c2 H.wo_lo H.bo H.wo_hi, layer4_pre H A.G.Wc A.G.bc c3 H.wc_lo H.bc H.wc_hi,
    layer4_pre H A.G.Wi A.G.bi c1 H.wi_lo H.bi H.wi_hi, e, layer3_c H]
  rfl

/-- The four heads. -/
theorem head1_at (q : Fin 64) : hv35 (F := Ideal) x0 x1 x3 x4 x5 (ix2 p q) = A.loc0 (ix2 r q) := by
  unfold hv35
  rw [pay10_apply]
  simp only [layer1_h H, H.wl0, H.bl0]
  rfl
theorem head2_at (q : Fin 128) : hv59 (F := Ideal) x0 x1 x2 x3 x6 x7 (ix2 p q) = A.loc1 (ix2 r q) := by
  unfold hv59
  rw [pay15_apply]
  simp only [layer2_h H, H.wl1, H.bl1]
  rfl
theorem head3_at (q : Fin 256) : hv83 (F := Ideal) x0 x1 x2 x3 x8 x9 (ix2 p q) = A.loc2 (ix2 r q) := by
  unfold hv83
  rw [pay19_apply]
  simp only [layer3_h H, H.wl2, H.bl2]
  rfl
theorem head4_at (q : Fin 512) : head4 (hv73 (F := Ideal) x0 x1 x2 x3) (hv86 (F := Ideal) x0 x1 x2 x3) (hv87 (F := Ideal) x0 x1 x2 x3) x10 x11 (ix2 p q) = A.loc3 (ix2 r q) := by
  rw [head4_apply]
  simp only [layer4_h H, H.wl3, H.bl3]
  rfl

/-- FIRST STORE: row `p` of what the body stores into the first output's buffer is row `r` of the four heads side by side. -/
theorem payLocal_at (q : Fin 960) : payLocal (F := Ideal) x0 x1 x2 x3 x4 x5 x6 x7 x8 x9 x10 x11 (ix2 p q) = A.localOut (ix2 r q) := by
  unfold payLocal Args.localOut
  rw [pay2_eq]
  refine (cat4_apply (n := 512) _ _ _ _ _ p q).trans ((cat4_apply (n := 16384) _ _ _ _ _ r q).trans ?_).symm
  split_ifs
  · exact (head1_at H _).symm
  · exact (head2_at H _).symm
  · exact (head3_at H _).symm
  · exact (head4_at H _).symm

/-- SECOND STORE: row `p` of what the body stores into the second output's buffer is row `r` of the last head. -/
theorem payGlobal_at (q : Fin 960) : payGlobal (F := Ideal) x0 x1 x2 x3 x12 x13 x14 (ix2 p q) = A.globalOut (ix2 r q) := by
  unfold payGlobal hv13
  rw [pay3_apply, pay7_apply]
  simp only [layer4_h H, H.row, H.wg_lo, H.wg_hi, H.bg]
  rfl

end Match

end Cert.KernelIdeal.Hand

end
-- ==== Proof.KernelIdealHost.lean ====
import proofs.«127465_j91130616086566_2_alg».proof.Proof.KernelIdealEntry
import proofs.«127465_j91130616086566_2_alg».proof.Proof.LstmSpec
import proofs.«127465_j91130616086566_2_alg».proof.Proof.GateCols
import Idealize.ShloMosaic.Lib.Pipeline.Value
import Idealize.ShloMosaic.Lib.ValueLayout
import Idealize.ShloMosaic.Lib.ValueIdx
import Idealize.ShloMosaic.Lib.StableHlo.Run

/-! The weight and bias arrays as the region finds them, entry by entry. The host prefix cuts each 1024-row weight
    matrix into its feature half (rows `lo k`) and its hidden half (rows `hi k`), lays the four gates' halves side by
    side (gate `g` in columns `512 g + j`), lays the four gates' biases end to end the same way, and rounds the
    weights to a narrower format — which over the extended reals is the identity. So every entry of every array the
    region reads is one entry of one argument array. -/

set_option maxRecDepth 16384

noncomputable section

namespace Cert.KernelIdeal.Hand

open Cert.KernelIdeal Cert.KernelIdeal.Gen Cert.Lstm
open Idealize.ShloMosaic Idealize.ShloMosaic.TcCoe Idealize.ShloMosaic.ValueIdx
open Idealize.SL Idealize.SL.Sem

variable (m : (ℓ : Loc nD τ sig) → Buf (Elt Ideal) ℓ)

/-! ## Blocks side by side, read at a column -/

/-- Four blocks of 512 columns side by side: column `512·0 + j` of the whole is column `j` of block 0. -/
theorem cat4_c0 (X0 X1 X2 X3 : S512x512.Idx → EReal) (h : Shape.Concatenates [S512x512, S512x512, S512x512, S512x512] S512x2048 1) (k j : Fin 512) :
    concatenate S512x2048 1 [⟨S512x512, X0⟩, ⟨S512x512, X1⟩, ⟨S512x512, X2⟩, ⟨S512x512, X3⟩] h (ix2 k (c0 j)) = X0 (ix2 k j) :=
  concatenate_apply_piece (t := S512x2048) 1 [⟨S512x512, X0⟩, ⟨S512x512, X1⟩, ⟨S512x512, X2⟩, ⟨S512x512, X3⟩] h (ix2 k (c0 j))
    0 (by simp) S512x512 X0 rfl rfl 0 rfl (ix2 k j) (fun b hb => by
      match b with
      | ⟨0, _⟩ => rfl
      | ⟨1, _⟩ => exact absurd (Fin.ext rfl) hb) (Nat.zero_add _)

/-- Four blocks of 512 columns side by side: column `512·1 + j` of the whole is column `j` of block 1. -/
theorem cat4_c1 (X0 X1 X2 X3 : S512x512.Idx → EReal) (h : Shape.Concatenates [S512x512, S512x512, S512x512, S512x512] S512x2048 1) (k j : Fin 512) :
    concatenate S512x2048 1 [⟨S512x512, X0⟩, ⟨S512x512, X1⟩, ⟨S512x512, X2⟩, ⟨S512x512, X3⟩] h (ix2 k (c1 j)) = X1 (ix2 k j) :=
  concatenate_apply_piece (t := S512x2048) 1 [⟨S512x512, X0⟩, ⟨S512x512, X1⟩, ⟨S512x512, X2⟩, ⟨S512x512, X3⟩] h (ix2 k (c1 j))
    1 (by simp) S512x512 X1 rfl rfl 512 rfl (ix2 k j) (fun b hb => by
      match b with
      | ⟨0, _⟩ => rfl
      | ⟨1, _⟩ => exact absurd (Fin.ext rfl) hb) rfl

/-- Four blocks of 512 columns side by side: column `512·2 + j` of the whole is column `j` of block 2. -/
theorem cat4_c2 (X0 X1 X2 X3 : S512x512.Idx → EReal) (h : Shape.Concatenates [S512x512, S512x512, S512x512, S512x512] S512x2048 1) (k j : Fin 512) :
    concatenate S512x2048 1 [⟨S512x512, X0⟩, ⟨S512x512, X1⟩, ⟨S512x512, X2⟩, ⟨S512x512, X3⟩] h (ix2 k (c2 j)) = X2 (ix2 k j) :=
  concatenate_apply_piece (t := S512x2048) 1 [⟨S512x512, X0⟩, ⟨S512x512, X1⟩, ⟨S512x512, X2⟩, ⟨S512x512, X3⟩] h (ix2 k (c2 j))
    2 (by simp) S512x512 X2 rfl rfl 1024 rfl (ix2 k j) (fun b hb => by
      match b with
      | ⟨0, _⟩ => rfl
      | ⟨1, _⟩ => exact absurd (Fin.ext rfl) hb) rfl

/-- Four blocks of 512 columns side by side: column `512·3 + j` of the whole is column `j` of block 3. -/
theorem cat4_c3 (X0 X1 X2 X3 : S512x512.Idx → EReal) (h : Shape.Concatenates [S512x512, S512x512, S512x512, S512x512] S512x2048 1) (k j : Fin 512) :
    concatenate S512x2048 1 [⟨S512x512, X0⟩, ⟨S512x512, X1⟩, ⟨S512x512, X2⟩, ⟨S512x512, X3⟩] h (ix2 k (c3 j)) = X3 (ix2 k j) :=
  concatenate_apply_piece (t := S512x2048) 1 [⟨S512x512, X0⟩, ⟨S512x512, X1⟩, ⟨S512x512, X2⟩, ⟨S512x512, X3⟩] h (ix2 k (c3 j))
    3 (by simp) S512x512 X3 rfl rfl 1536 rfl (ix2 k j) (fun b hb => by
      match b with
      | ⟨0, _⟩ => rfl
      | ⟨1, _⟩ => exact absurd (Fin.ext rfl) hb) rfl

/-- Four vectors of 512 entries end to end: entry `512·0 + j` of the whole is entry `j` of vector 0. -/
theorem cat4v_c0 (u0 u1 u2 u3 : S512.Idx → EReal) (h : Shape.Concatenates [S512, S512, S512, S512] S2048 0) (j : Fin 512) :
    concatenate S2048 0 [⟨S512, u0⟩, ⟨S512, u1⟩, ⟨S512, u2⟩, ⟨S512, u3⟩] h (ix1 (c0 j)) = u0 (ix1 j) :=
  concatenate_apply_piece (t := S2048) 0 [⟨S512, u0⟩, ⟨S512, u1⟩, ⟨S512, u2⟩, ⟨S512, u3⟩] h (ix1 (c0 j))
    0 (by simp) S512 u0 rfl rfl 0 rfl (ix1 j) (fun b hb => by
      match b with
      | ⟨0, _⟩ => exact absurd (Fin.ext rfl) hb) (Nat.zero_add _)

/-- Four vectors of 512 entries end to end: entry `512·1 + j` of the whole is entry `j` of vector 1. -/
theorem cat4v_c1 (u0 u1 u2 u3 : S512.Idx → EReal) (h : Shape.Concatenates [S512, S512, S512, S512] S2048 0) (j : Fin 512) :
    concatenate S2048 0 [⟨S512, u0⟩, ⟨S512, u1⟩, ⟨S512, u2⟩, ⟨S512, u3⟩] h (ix1 (c1 j)) = u1 (ix1 j) :=
  concatenate_apply_piece (t := S2048) 0 [⟨S512, u0⟩, ⟨S512, u1⟩, ⟨S512, u2⟩, ⟨S512, u3⟩] h (ix1 (c1 j))
    1 (by simp) S512 u1 rfl rfl 512 rfl (ix1 j) (fun b hb => by
      match b with
      | ⟨0, _⟩ => exact absurd (Fin.ext rfl) hb) rfl

/-- Four vectors of 512 entries end to end: entry `512·2 + j` of the whole is entry `j` of vector 2. -/
theorem cat4v_c2 (u0 u1 u2 u3 : S512.Idx → EReal) (h : Shape.Concatenates [S512, S512, S512, S512] S2048 0) (j : Fin 512) :
    concatenate S2048 0 [⟨S512, u0⟩, ⟨S512, u1⟩, ⟨S512, u2⟩, ⟨S512, u3⟩] h (ix1 (c2 j)) = u2 (ix1 j) :=
  concatenate_apply_piece (t := S2048) 0 [⟨S512, u0⟩, ⟨S512, u1⟩, ⟨S512, u2⟩, ⟨S512, u3⟩] h (ix1 (c2 j))
    2 (by simp) S512 u2 rfl rfl 1024 rfl (ix1 j) (fun b hb => by
      match b with
      | ⟨0, _⟩ => exact absurd (Fin.ext rfl) hb) rfl

/-- Four vectors of 512 entries end to end: entry `512·3 + j` of the whole is entry `j` of vector 3. -/
theorem cat4v_c3 (u0 u1 u2 u3 : S512.Idx → EReal) (h : Shape.Concatenates [S512, S512, S512, S512] S2048 0) (j : Fin 512) :
    concatenate S2048 0 [⟨S512, u0⟩, ⟨S512, u1⟩, ⟨S512, u2⟩, ⟨S512, u3⟩] h (ix1 (c3 j)) = u3 (ix1 j) :=
  concatenate_apply_piece (t := S2048) 0 [⟨S512, u0⟩, ⟨S512, u1⟩, ⟨S512, u2⟩, ⟨S512, u3⟩] h (ix1 (c3 j))
    3 (by simp) S512 u3 rfl rfl 1536 rfl (ix1 j) (fun b hb => by
      match b with
      | ⟨0, _⟩ => exact absurd (Fin.ext rfl) hb) rfl

/-! ## The joined gate weights -/

set_option maxHeartbeats 2000000 in
/-- The joined feature weights as the region finds them: the four gates' feature halves side by side, rounded. -/
theorem V_main_v5_eq (c : Dev nD) (i : S512x2048.Idx) : V m c main_v5 i = truncf (F := Ideal) .bf16 (concatenate S512x2048 1 [
    ⟨S512x512, extractStridedSlice S512x512 ![0, 0] (m ((c : Thread nD τ).loc main_arg1)) slices_S1024x512_S512x512_0_0⟩,
    ⟨S512x512, extractStridedSlice S512x512 ![0, 0] (m ((c : Thread nD τ).loc main_arg3)) slices_S1024x512_S512x512_0_0⟩,
    ⟨S512x512, extractStridedSlice S512x512 ![0, 0] (m ((c : Thread nD τ).loc main_arg5)) slices_S1024x512_S512x512_0_0⟩,
    ⟨S512x512, extractStridedSlice S512x512 ![0, 0] (m ((c : Thread nD τ).loc main_arg7)) slices_S1024x512_S512x512_0_0⟩]
    concatenates_S512x512_S512x512_S512x512_S512x512_S512x2048_d1) bitsLt_bf16_f32 i := by
  show StableHlo.after hostOps0 (fun b => m (c, b)) (Proc.devRef .tc main_v5) i = _
  after_results
  try rfl

/-- Row `k`, gate 0's column `j` of the joined feature weights is the gate's weight at feature row `k`. -/
theorem V_v5_c0 (c : Dev nD) (k j : Fin 512) :
    V m c main_v5 (ix2 k (c0 j)) = m ((c : Thread nD τ).loc main_arg1) (ix2 (lo k) j) := by
  rw [V_main_v5_eq, truncf_apply, cat4_c0]
  exact slice2_axis0_apply 0 _ _ k j (lo k) (Nat.zero_add _).symm

/-- Row `k`, gate 1's column `j` of the joined feature weights is the gate's weight at feature row `k`. -/
theorem V_v5_c1 (c : Dev nD) (k j : Fin 512) :
    V m c main_v5 (ix2 k (c1 j)) = m ((c : Thread nD τ).loc main_arg3) (ix2 (lo k) j) := by
  rw [V_main_v5_eq, truncf_apply, cat4_c1]
  exact slice2_axis0_apply 0 _ _ k j (lo k) (Nat.zero_add _).symm

/-- Row `k`, gate 2's column `j` of the joined feature weights is the gate's weight at feature row `k`. -/
theorem V_v5_c2 (c : Dev nD) (k j : Fin 512) :
    V m c main_v5 (ix2 k (c2 j)) = m ((c : Thread nD τ).loc main_arg5) (ix2 (lo k) j) := by
  rw [V_main_v5_eq, truncf_apply, cat4_c2]
  exact slice2_axis0_apply 0 _ _ k j (lo k) (Nat.zero_add _).symm

/-- Row `k`, gate 3's column `j` of the joined feature weights is the gate's weight at feature row `k`. -/
theorem V_v5_c3 (c : Dev nD) (k j : Fin 512) :
    V m c main_v5 (ix2 k (c3 j)) = m ((c : Thread nD τ).loc main_arg7) (ix2 (lo k) j) := by
  rw [V_main_v5_eq, truncf_apply, cat4_c3]
  exact slice2_axis0_apply 0 _ _ k j (lo k) (Nat.zero_add _).symm

set_option maxHeartbeats 2000000 in
/-- The joined hidden weights as the region finds them: the four gates' hidden halves side by side, rounded. -/
theorem V_main_v11_eq (c : Dev nD) (i : S512x2048.Idx) : V m c main_v11 i = truncf (F := Ideal) .bf16 (concatenate S512x2048 1 [
    ⟨S512x512, extractStridedSlice S512x512 ![512, 0] (m ((c : Thread nD τ).loc main_arg1)) slices_S1024x512_S512x512_512_0⟩,
    ⟨S512x512, extractStridedSlice S512x512 ![512, 0] (m ((c : Thread nD τ).loc main_arg3)) slices_S1024x512_S512x512_512_0⟩,
    ⟨S512x512, extractStridedSlice S512x512 ![512, 0] (m ((c : Thread nD τ).loc main_arg5)) slices_S1024x512_S512x512_512_0⟩,
    ⟨S512x512, extractStridedSlice S512x512 ![512, 0] (m ((c : Thread nD τ).loc main_arg7)) slices_S1024x512_S512x512_512_0⟩]
    concatenates_S512x512_S512x512_S512x512_S512x512_S512x2048_d1) bitsLt_bf16_f32 i := by
  show StableHlo.after hostOps0 (fun b => m (c, b)) (Proc.devRef .tc main_v11) i = _
  after_results
  try rfl

/-- Row `k`, gate 0's column `j` of the joined hidden weights is the gate's weight at hidden row `k`. -/
theorem V_v11_c0 (c : Dev nD) (k j : Fin 512) :
    V m c main_v11 (ix2 k (c0 j)) = m ((c : Thread nD τ).loc main_arg1) (ix2 (hi k) j) := by
  rw [V_main_v11_eq, truncf_apply, cat4_c0]
  exact slice2_axis0_apply 512 _ _ k j (hi k) rfl

/-- Row `k`, gate 1's column `j` of the joined hidden weights is the gate's weight at hidden row `k`. -/
theorem V_v11_c1 (c : Dev nD) (k j : Fin 512) :
    V m c main_v11 (ix2 k (c1 j)) = m ((c : Thread nD τ).loc main_arg3) (ix2 (hi k) j) := by
  rw [V_main_v11_eq, truncf_apply, cat4_c1]
  exact slice2_axis0_apply 512 _ _ k j (hi k) rfl

/-- Row `k`, gate 2's column `j` of the joined hidden weights is the gate's weight at hidden row `k`. -/
theorem V_v11_c2 (c : Dev nD) (k j : Fin 512) :
    V m c main_v11 (ix2 k (c2 j)) = m ((c : Thread nD τ).loc main_arg5) (ix2 (hi k) j) := by
  rw [V_main_v11_eq, truncf_apply, cat4_c2]
  exact slice2_axis0_apply 512 _ _ k j (hi k) rfl

/-- Row `k`, gate 3's column `j` of the joined hidden weights is the gate's weight at hidden row `k`. -/
theorem V_v11_c3 (c : Dev nD) (k j : Fin 512) :
    V m c main_v11 (ix2 k (c3 j)) = m ((c : Thread nD τ).loc main_arg7) (ix2 (hi k) j) := by
  rw [V_main_v11_eq, truncf_apply, cat4_c3]
  exact slice2_axis0_apply 512 _ _ k j (hi k) rfl

/-! ## The joined gate biases -/

set_option maxHeartbeats 2000000 in
/-- The joined bias row as the region finds it: the four gates' biases end to end, as one row. -/
theorem V_main_v13_eq (c : Dev nD) (i : S1x2048.Idx) : V m c main_v13 i = shapeCast S1x2048 (concatenate S2048 0 [
    ⟨S512, m ((c : Thread nD τ).loc main_arg2)⟩,
    ⟨S512, m ((c : Thread nD τ).loc main_arg4)⟩,
    ⟨S512, m ((c : Thread nD τ).loc main_arg6)⟩,
    ⟨S512, m ((c : Thread nD τ).loc main_arg8)⟩]
    concatenates_S512_S512_S512_S512_S2048_d0) shapeCasts_S2048_S1x2048 i := by
  show StableHlo.after hostOps0 (fun b => m (c, b)) (Proc.devRef .tc main_v13) i = _
  after_results
  try rfl

/-- Gate 0's entry `j` of the joined bias row is the gate's bias at `j`. -/
theorem V_v13_c0 (c : Dev nD) (j : Fin 512) :
    V m c main_v13 (ix2 (0 : Fin 1) (c0 j)) = m ((c : Thread nD τ).loc main_arg2) (ix1 j) := by
  rw [V_main_v13_eq, shapeCast_a_1a_apply, cat4v_c0]

/-- Gate 1's entry `j` of the joined bias row is the gate's bias at `j`. -/
theorem V_v13_c1 (c : Dev nD) (j : Fin 512) :
    V m c main_v13 (ix2 (0 : Fin 1) (c1 j)) = m ((c : Thread nD τ).loc main_arg4) (ix1 j) := by
  rw [V_main_v13_eq, shapeCast_a_1a_apply, cat4v_c1]

/-- Gate 2's entry `j` of the joined bias row is the gate's bias at `j`. -/
theorem V_v13_c2 (c : Dev nD) (j : Fin 512) :
    V m c main_v13 (ix2 (0 : Fin 1) (c2 j)) = m ((c : Thread nD τ).loc main_arg6) (ix1 j) := by
  rw [V_main_v13_eq, shapeCast_a_1a_apply, cat4v_c2]

/-- Gate 3's entry `j` of the joined bias row is the gate's bias at `j`. -/
theorem V_v13_c3 (c : Dev nD) (j : Fin 512) :
    V m c main_v13 (ix2 (0 : Fin 1) (c3 j)) = m ((c : Thread nD τ).loc main_arg8) (ix1 j) := by
  rw [V_main_v13_eq, shapeCast_a_1a_apply, cat4v_c3]

/-! ## The heads' weights and biases -/

/-- Head 0's weights reach the region rounded only: entry by entry the argument's. -/
theorem V_v14 (c : Dev nD) (k : Fin 512) (q : Fin 64) :
    V m c main_v14 (ix2 k q) = m ((c : Thread nD τ).loc main_arg9) (ix2 k q) := by
  show StableHlo.after hostOps0 (fun b => m (c, b)) (Proc.devRef .tc main_v14) (ix2 k q) = _
  after_results
  try rfl

/-- Head 1's weights reach the region rounded only: entry by entry the argument's. -/
theorem V_v15 (c : Dev nD) (k : Fin 512) (q : Fin 128) :
    V m c main_v15 (ix2 k q) = m ((c : Thread nD τ).loc main_arg11) (ix2 k q) := by
  show StableHlo.after hostOps0 (fun b => m (c, b)) (Proc.devRef .tc main_v15) (ix2 k q) = _
  after_results
  try rfl

/-- Head 2's weights reach the region rounded only: entry by entry the argument's. -/
theorem V_v16 (c : Dev nD) (k : Fin 512) (q : Fin 256) :
    V m c main_v16 (ix2 k q) = m ((c : Thread nD τ).loc main_arg13) (ix2 k q) := by
  show StableHlo.after hostOps0 (fun b => m (c, b)) (Proc.devRef .tc main_v16) (ix2 k q) = _
  after_results
  try rfl

/-- Head 3's weights reach the region rounded only: entry by entry the argument's. -/
theorem V_v17 (c : Dev nD) (k : Fin 512) (q : Fin 512) :
    V m c main_v17 (ix2 k q) = m ((c : Thread nD τ).loc main_arg15) (ix2 k q) := by
  show StableHlo.after hostOps0 (fun b => m (c, b)) (Proc.devRef .tc main_v17) (ix2 k q) = _
  after_results
  try rfl

/-- Head 0's bias reaches the region as one row: entry `q` of the row is the argument's entry `q`. -/
theorem V_v18 (c : Dev nD) (q : Fin 64) :
    V m c main_v18 (ix2 (0 : Fin 1) q) = m ((c : Thread nD τ).loc main_arg10) (ix1 q) := by
  show StableHlo.after hostOps0 (fun b => m (c, b)) (Proc.devRef .tc main_v18) (ix2 (0 : Fin 1) q) = _
  after_results
  exact shapeCast_a_1a_apply _ _ 0 q

/-- Head 1's bias reaches the region as one row: entry `q` of the row is the argument's entry `q`. -/
theorem V_v19 (c : Dev nD) (q : Fin 128) :
    V m c main_v19 (ix2 (0 : Fin 1) q) = m ((c : Thread nD τ).loc main_arg12) (ix1 q) := by
  show StableHlo.after hostOps0 (fun b => m (c, b)) (Proc.devRef .tc main_v19) (ix2 (0 : Fin 1) q) = _
  after_results
  exact shapeCast_a_1a_apply _ _ 0 q

/-- Head 2's bias reaches the region as one row: entry `q` of the row is the argument's entry `q`. -/
theorem V_v20 (c : Dev nD) (q : Fin 256) :
    V m c main_v20 (ix2 (0 : Fin 1) q) = m ((c : Thread nD τ).loc main_arg14) (ix1 q) := by
  show StableHlo.after hostOps0 (fun b => m (c, b)) (Proc.devRef .tc main_v20) (ix2 (0 : Fin 1) q) = _
  after_results
  exact shapeCast_a_1a_apply _ _ 0 q

/-- Head 3's bias reaches the region as one row: entry `q` of the row is the argument's entry `q`. -/
theorem V_v21 (c : Dev nD) (q : Fin 512) :
    V m c main_v21 (ix2 (0 : Fin 1) q) = m ((c : Thread nD τ).loc main_arg16) (ix1 q) := by
  show StableHlo.after hostOps0 (fun b => m (c, b)) (Proc.devRef .tc main_v21) (ix2 (0 : Fin 1) q) = _
  after_results
  exact shapeCast_a_1a_apply _ _ 0 q

/-! ## The last head's weights and bias -/

/-- The last head's feature weights: row `k` of the region's array is feature row `k` of the argument. -/
theorem V_v23 (c : Dev nD) (k : Fin 512) (q : Fin 960) :
    V m c main_v23 (ix2 k q) = m ((c : Thread nD τ).loc main_arg17) (ix2 (lo k) q) := by
  show StableHlo.after hostOps0 (fun b => m (c, b)) (Proc.devRef .tc main_v23) (ix2 k q) = _
  after_results
  rw [truncf_apply]
  exact slice2_axis0_apply 0 _ _ k q (lo k) (Nat.zero_add _).symm

/-- The last head's hidden weights: row `k` of the region's array is hidden row `k` of the argument. -/
theorem V_v25 (c : Dev nD) (k : Fin 512) (q : Fin 960) :
    V m c main_v25 (ix2 k q) = m ((c : Thread nD τ).loc main_arg17) (ix2 (hi k) q) := by
  show StableHlo.after hostOps0 (fun b => m (c, b)) (Proc.devRef .tc main_v25) (ix2 k q) = _
  after_results
  rw [truncf_apply]
  exact slice2_axis0_apply 512 _ _ k q (hi k) rfl

/-- The last head's bias reaches the region as one row. -/
theorem V_v26 (c : Dev nD) (q : Fin 960) :
    V m c main_v26 (ix2 (0 : Fin 1) q) = m ((c : Thread nD τ).loc main_arg18) (ix1 q) := by
  show StableHlo.after hostOps0 (fun b => m (c, b)) (Proc.devRef .tc main_v26) (ix2 (0 : Fin 1) q) = _
  after_results
  exact shapeCast_a_1a_apply _ _ 0 q

end Cert.KernelIdeal.Hand

end
-- ==== Proof.KernelIdealValue.lean ====
/-
  The kernel program's two result arrays after its run, over the extended reals.

  The grid has 32 points; point `t` works on input rows `512 t … 512 t + 511` and writes rows `512 t … 512 t + 511` of both
  results. The weight and bias windows are whole arrays at every point. So row `p` of what point `t` stores is the
  specification at input row `512 t + p`, the 32 blocks tile the 16384 rows, and each result array ends holding the
  specification's array.
-/
import proofs.«127465_j91130616086566_2_alg».proof.Proof.KernelIdealFrame
import proofs.«127465_j91130616086566_2_alg».proof.Proof.KernelIdealPayAt
import proofs.«127465_j91130616086566_2_alg».proof.Proof.KernelIdealHost
import proofs.«127465_j91130616086566_2_alg».proof.Proof.LstmSpec
import proofs.«127465_j91130616086566_2_alg».proof.Proof.GateCols
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Lstm

variable (m : (ℓ : Loc nD τ sig) → Buf (Elt Ideal) ℓ) (ρ : Dev nD → PrngReg)

/-- The argument arrays as launched on core `c`. -/
def argsOf (c : Dev nD) : Args where
  X := m ((c : Thread nD τ).loc main_arg0)
  G := ⟨m ((c : Thread nD τ).loc main_arg1), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7), m ((c : Thread nD τ).loc main_arg8)⟩
  Wl0 := m ((c : Thread nD τ).loc main_arg9)
  bl0 := m ((c : Thread nD τ).loc main_arg10)
  Wl1 := m ((c : Thread nD τ).loc main_arg11)
  bl1 := m ((c : Thread nD τ).loc main_arg12)
  Wl2 := m ((c : Thread nD τ).loc main_arg13)
  bl2 := m ((c : Thread nD τ).loc main_arg14)
  Wl3 := m ((c : Thread nD τ).loc main_arg15)
  bl3 := m ((c : Thread nD τ).loc main_arg16)
  Wg := m ((c : Thread nD τ).loc main_arg17)
  bg := m ((c : Thread nD τ).loc main_arg18)

theorem hz : (![0, 0] : Fin 2 → Nat) = fun _ => 0 := funext fun a => by fin_cases a <;> rfl

/-- The printed index maps over the grid: the input rows' window and both outputs' windows move down one block of rows
    per point; every other window stays at the array's one block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = t.val
    ∧ win0_15.index t (1 : Fin 2) = 0
    ∧ win0_16.index t (0 : Fin 2) = t.val
    ∧ win0_16.index t (1 : Fin 2) = 0 :=
  (by decide +kernel : ∀ t : Fin grid0.N, _)

/-- The input row that row `p` of point `t`'s block is. -/
def rowOf (t : Fin cfg0.N) (p : Fin 512) : Fin 16384 := ⟨512 * t.val + p.val, by have := t.isLt; have hN : cfg0.N = 32 := N_0; omega⟩

/-- The input block at point `t` is rows `512 t …` of the input array. -/
theorem iblk0_apply (c : Dev nD) (t : Fin cfg0.N) (p k : Fin 512) :
    (iblk m c 0 t : S512x512.Idx → EReal) (ix2 p k) = m ((c : Thread nD τ).loc main_arg0) (ix2 (rowOf t p) k) := by
  have hf := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

theorem iblk1_apply (c : Dev nD) (t : Fin cfg0.N) (i : Fin 512) (j : Fin 2048) :
    (iblk m c 1 t : S512x2048.Idx → EReal) (ix2 i j) = V m c main_v5 (ix2 i j) := by
  have hf := idx_facts t
  show V m c main_v5 (((cfg0.win 1).blk t).view.emb (ix2 i j)) = _
  refine congrArg _ (funext fun a => Fin.ext ?_)
  match a with
  | ⟨0, _⟩ => show win0_1.index t (0 : Fin 2) * 512 + 1 * i.val = i.val; omega
  | ⟨1, _⟩ => show win0_1.index t (1 : Fin 2) * 2048 + 1 * j.val = j.val; omega

theorem iblk2_apply (c : Dev nD) (t : Fin cfg0.N) (i : Fin 512) (j : Fin 2048) :
    (iblk m c 2 t : S512x2048.Idx → EReal) (ix2 i j) = V m c main_v11 (ix2 i j) := by
  have hf := idx_facts t
  show V m c main_v11 (((cfg0.win 2).blk t).view.emb (ix2 i j)) = _
  refine congrArg _ (funext fun a => Fin.ext ?_)
  match a with
  | ⟨0, _⟩ => show win0_2.index t (0 : Fin 2) * 512 + 1 * i.val = i.val; omega
  | ⟨1, _⟩ => show win0_2.index t (1 : Fin 2) * 2048 + 1 * j.val = j.val; omega

theorem iblk3_apply (c : Dev nD) (t : Fin cfg0.N) (i : Fin 1) (j : Fin 2048) :
    (iblk m c 3 t : S1x2048.Idx → EReal) (ix2 i j) = V m c main_v13 (ix2 i j) := by
  have hf := idx_facts t
  show V m c main_v13 (((cfg0.win 3).blk t).view.emb (ix2 i j)) = _
  refine congrArg _ (funext fun a => Fin.ext ?_)
  match a with
  | ⟨0, _⟩ => show win0_3.index t (0 : Fin 2) * 1 + 1 * i.val = i.val; omega
  | ⟨1, _⟩ => show win0_3.index t (1 : Fin 2) * 2048 + 1 * j.val = j.val; omega

theorem iblk4_apply (c : Dev nD) (t : Fin cfg0.N) (i : Fin 512) (j : Fin 64) :
    (iblk m c 4 t : S512x64.Idx → EReal) (ix2 i j) = V m c main_v14 (ix2 i j) := by
  have hf := idx_facts t
  show V m c main_v14 (((cfg0.win 4).blk t).view.emb (ix2 i j)) = _
  refine congrArg _ (funext fun a => Fin.ext ?_)
  match a with
  | ⟨0, _⟩ => show win0_4.index t (0 : Fin 2) * 512 + 1 * i.val = i.val; omega
  | ⟨1, _⟩ => show win0_4.index t (1 : Fin 2) * 64 + 1 * j.val = j.val; omega

theorem iblk5_apply (c : Dev nD) (t : Fin cfg0.N) (i : Fin 1) (j : Fin 64) :
    (iblk m c 5 t : S1x64.Idx → EReal) (ix2 i j) = V m c main_v18 (ix2 i j) := by
  have hf := idx_facts t
  show V m c main_v18 (((cfg0.win 5).blk t).view.emb (ix2 i j)) = _
  refine congrArg _ (funext fun a => Fin.ext ?_)
  match a with
  | ⟨0, _⟩ => show win0_5.index t (0 : Fin 2) * 1 + 1 * i.val = i.val; omega
  | ⟨1, _⟩ => show win0_5.index t (1 : Fin 2) * 64 + 1 * j.val = j.val; omega

theorem iblk6_apply (c : Dev nD) (t : Fin cfg0.N) (i : Fin 512) (j : Fin 128) :
    (iblk m c 6 t : S512x128.Idx → EReal) (ix2 i j) = V m c main_v15 (ix2 i j) := by
  have hf := idx_facts t
  show V m c main_v15 (((cfg0.win 6).blk t).view.emb (ix2 i j)) = _
  refine congrArg _ (funext fun a => Fin.ext ?_)
  match a with
  | ⟨0, _⟩ => show win0_6.index t (0 : Fin 2) * 512 + 1 * i.val = i.val; omega
  | ⟨1, _⟩ => show win0_6.index t (1 : Fin 2) * 128 + 1 * j.val = j.val; omega

theorem iblk7_apply (c : Dev nD) (t : Fin cfg0.N) (i : Fin 1) (j : Fin 128) :
    (iblk m c 7 t : S1x128.Idx → EReal) (ix2 i j) = V m c main_v19 (ix2 i j) := by
  have hf := idx_facts t
  show V m c main_v19 (((cfg0.win 7).blk t).view.emb (ix2 i j)) = _
  refine congrArg _ (funext fun a => Fin.ext ?_)
  match a with
  | ⟨0, _⟩ => show win0_7.index t (0 : Fin 2) * 1 + 1 * i.val = i.val; omega
  | ⟨1, _⟩ => show win0_7.index t (1 : Fin 2) * 128 + 1 * j.val = j.val; omega

theorem iblk8_apply (c : Dev nD) (t : Fin cfg0.N) (i : Fin 512) (j : Fin 256) :
    (iblk m c 8 t : S512x256.Idx → EReal) (ix2 i j) = V m c main_v16 (ix2 i j) := by
  have hf := idx_facts t
  show V m c main_v16 (((cfg0.win 8).blk t).view.emb (ix2 i j)) = _
  refine congrArg _ (funext fun a => Fin.ext ?_)
  match a with
  | ⟨0, _⟩ => show win0_8.index t (0 : Fin 2) * 512 + 1 * i.val = i.val; omega
  | ⟨1, _⟩ => show win0_8.index t (1 : Fin 2) * 256 + 1 * j.val = j.val; omega

theorem iblk9_apply (c : Dev nD) (t : Fin cfg0.N) (i : Fin 1) (j : Fin 256) :
    (iblk m c 9 t : S1x256.Idx → EReal) (ix2 i j) = V m c main_v20 (ix2 i j) := by
  have hf := idx_facts t
  show V m c main_v20 (((cfg0.win 9).blk t).view.emb (ix2 i j)) = _
  refine congrArg _ (funext fun a => Fin.ext ?_)
  match a with
  | ⟨0, _⟩ => show win0_9.index t (0 : Fin 2) * 1 + 1 * i.val = i.val; omega
  | ⟨1, _⟩ => show win0_9.index t (1 : Fin 2) * 256 + 1 * j.val = j.val; omega

theorem iblk10_apply (c : Dev nD) (t : Fin cfg0.N) (i : Fin 512) (j : Fin 512) :
    (iblk m c 10 t : S512x512.Idx → EReal) (ix2 i j) = V m c main_v17 (ix2 i j) := by
  have hf := idx_facts t
  show V m c main_v17 (((cfg0.win 10).blk t).view.emb (ix2 i j)) = _
  refine congrArg _ (funext fun a => Fin.ext ?_)
  match a with
  | ⟨0, _⟩ => show win0_10.index t (0 : Fin 2) * 512 + 1 * i.val = i.val; omega
  | ⟨1, _⟩ => show win0_10.index t (1 : Fin 2) * 512 + 1 * j.val = j.val; omega

theorem iblk11_apply (c : Dev nD) (t : Fin cfg0.N) (i : Fin 1) (j : Fin 512) :
    (iblk m c 11 t : S1x512.Idx → EReal) (ix2 i j) = V m c main_v21 (ix2 i j) := by
  have hf := idx_facts t
  show V m c main_v21 (((cfg0.win 11).blk t).view.emb (ix2 i j)) = _
  refine congrArg _ (funext fun a => Fin.ext ?_)
  match a with
  | ⟨0, _⟩ => show win0_11.index t (0 : Fin 2) * 1 + 1 * i.val = i.val; omega
  | ⟨1, _⟩ => show win0_11.index t (1 : Fin 2) * 512 + 1 * j.val = j.val; omega

theorem iblk12_apply (c : Dev nD) (t : Fin cfg0.N) (i : Fin 512) (j : Fin 960) :
    (iblk m c 12 t : S512x960.Idx → EReal) (ix2 i j) = V m c main_v23 (ix2 i j) := by
  have hf := idx_facts t
  show V m c main_v23 (((cfg0.win 12).blk t).view.emb (ix2 i j)) = _
  refine congrArg _ (funext fun a => Fin.ext ?_)
  match a with
  | ⟨0, _⟩ => show win0_12.index t (0 : Fin 2) * 512 + 1 * i.val = i.val; omega
  | ⟨1, _⟩ => show win0_12.index t (1 : Fin 2) * 960 + 1 * j.val = j.val; omega

theorem iblk13_apply (c : Dev nD) (t : Fin cfg0.N) (i : Fin 512) (j : Fin 960) :
    (iblk m c 13 t : S512x960.Idx → EReal) (ix2 i j) = V m c main_v25 (ix2 i j) := by
  have hf := idx_facts t
  show V m c main_v25 (((cfg0.win 13).blk t).view.emb (ix2 i j)) = _
  refine congrArg _ (funext fun a => Fin.ext ?_)
  match a with
  | ⟨0, _⟩ => show win0_13.index t (0 : Fin 2) * 512 + 1 * i.val = i.val; omega
  | ⟨1, _⟩ => show win0_13.index t (1 : Fin 2) * 960 + 1 * j.val = j.val; omega

theorem iblk14_apply (c : Dev nD) (t : Fin cfg0.N) (i : Fin 1) (j : Fin 960) :
    (iblk m c 14 t : S1x960.Idx → EReal) (ix2 i j) = V m c main_v26 (ix2 i j) := by
  have hf := idx_facts t
  show V m c main_v26 (((cfg0.win 14).blk t).view.emb (ix2 i j)) = _
  refine congrArg _ (funext fun a => Fin.ext ?_)
  match a with
  | ⟨0, _⟩ => show win0_14.index t (0 : Fin 2) * 1 + 1 * i.val = i.val; omega
  | ⟨1, _⟩ => show win0_14.index t (1 : Fin 2) * 960 + 1 * j.val = j.val; omega

/-- Row `p` of the fifteen blocks point `t` loads is input row `512 t + p`'s view of the argument arrays. -/
theorem blockOf (c : Dev nD) (t : Fin cfg0.N) (p : Fin 512) :
    BlockOf (argsOf m c) (rowOf t p) p (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) where
  row k := iblk0_apply m c t p k
  wf_lo k j := (iblk1_apply m c t k (c0 j)).trans (V_v5_c0 m c k j)
  wi_lo k j := (iblk1_apply m c t k (c1 j)).trans (V_v5_c1 m c k j)
  wo_lo k j := (iblk1_apply m c t k (c2 j)).trans (V_v5_c2 m c k j)
  wc_lo k j := (iblk1_apply m c t k (c3 j)).trans (V_v5_c3 m c k j)
  wf_hi k j := (iblk2_apply m c t k (c0 j)).trans (V_v11_c0 m c k j)
  wi_hi k j := (iblk2_apply m c t k (c1 j)).trans (V_v11_c1 m c k j)
  wo_hi k j := (iblk2_apply m c t k (c2 j)).trans (V_v11_c2 m c k j)
  wc_hi k j := (iblk2_apply m c t k (c3 j)).trans (V_v11_c3 m c k j)
  bf j := (iblk3_apply m c t 0 (c0 j)).trans (V_v13_c0 m c j)
  bi j := (iblk3_apply m c t 0 (c1 j)).trans (V_v13_c1 m c j)
  bo j := (iblk3_apply m c t 0 (c2 j)).trans (V_v13_c2 m c j)
  bc j := (iblk3_apply m c t 0 (c3 j)).trans (V_v13_c3 m c j)
  wl0 k q := (iblk4_apply m c t k q).trans (V_v14 m c k q)
  bl0 q := (iblk5_apply m c t 0 q).trans (V_v18 m c q)
  wl1 k q := (iblk6_apply m c t k q).trans (V_v15 m c k q)
  bl1 q := (iblk7_apply m c t 0 q).trans (V_v19 m c q)
  wl2 k q := (iblk8_apply m c t k q).trans (V_v16 m c k q)
  bl2 q := (iblk9_apply m c t 0 q).trans (V_v20 m c q)
  wl3 k q := (iblk10_apply m c t k q).trans (V_v17 m c k q)
  bl3 q := (iblk11_apply m c t 0 q).trans (V_v21 m c q)
  wg_lo k q := (iblk12_apply m c t k q).trans (V_v23 m c k q)
  wg_hi k q := (iblk13_apply m c t k q).trans (V_v25 m c k q)
  bg q := (iblk14_apply m c t 0 q).trans (V_v26 m c q)

/-- What point `t` writes back into result 1 is rows `512 t …` of the specification's array. -/
theorem flushed15_eq (c : Dev nD) (t : Fin cfg0.N) :
    (dats m 0 c).flushed 15 t = ((cfg0.win 15).blk t).view.read (Elt Ideal) ((argsOf m c).localOut) := by
  have hf := idx_facts t
  show (cfg0.win 15).cut (grid0.coords t) ((dats m 0 c).after 15 t) = _
  rw [after0_15]
  unfold out0_15
  rw [View.canon_unit_zero hz]
  simp only [View.ld_unit_zero (S := S512x512) hz, View.ld_unit_zero (S := S512x2048) hz, View.ld_unit_zero (S := S1x2048) hz, View.ld_unit_zero (S := S512x64) hz, View.ld_unit_zero (S := S1x64) hz, View.ld_unit_zero (S := S512x128) hz, View.ld_unit_zero (S := S1x128) hz, View.ld_unit_zero (S := S512x256) hz, View.ld_unit_zero (S := S1x256) hz, View.ld_unit_zero (S := S1x512) hz, View.ld_unit_zero (S := S512x960) hz, View.ld_unit_zero (S := S1x960) hz]
  funext j
  obtain ⟨p, q, rfl⟩ : ∃ (p : Fin 512) (q : Fin 960), j = ix2 p q := ⟨j 0, j 1, eq_ix2 j⟩
  show payLocal (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = (argsOf m c).localOut (((cfg0.win 15).blk t).view.emb (ix2 p q))
  have hemb : ((cfg0.win 15).blk t).view.emb (ix2 p q) = ix2 (rowOf t p) q := by
    funext a; apply Fin.ext
    match a with
    | ⟨0, _⟩ => show win0_15.index t (0 : Fin 2) * 512 + 1 * p.val = 512 * t.val + p.val; omega
    | ⟨1, _⟩ => show win0_15.index t (1 : Fin 2) * 960 + 1 * q.val = q.val; omega
  rw [hemb]
  exact payLocal_at (blockOf m c t p) q

/-- An index of the result array is in point `t`'s block iff its row is among the point's 512 rows. -/
theorem mem_blk15 (t : Fin cfg0.N) (i : S16384x960.Idx) :
    i ∈ ((cfg0.win 15).blk t).view.set ↔ ∀ a : Fin 2, win0_15.index t a * S512x960.size a ≤ (i a).val ∧ (i a).val < win0_15.index t a * S512x960.size a + S512x960.size a := by
  show i ∈ ((View.whole main_v27_0).slice (win0_15.rect t)).set ↔ _
  rw [View.set_slice_whole, Rect.mem_set_unit]
  exact Iff.rfl

/-- The 32 blocks tile the array. -/
theorem cover15 (i : S16384x960.Idx) : ∃ t : Fin cfg0.N, (cfg0.win 15).flush t = true ∧ i ∈ ((cfg0.win 15).blk t).view.set := by
  have hi0 : (i 0).val < 16384 := (i 0).isLt
  have hi1 : (i 1).val < 960 := (i 1).isLt
  have hN : cfg0.N = 32 := N_0
  obtain ⟨t, ht⟩ : ∃ t : Fin cfg0.N, t.val = (i 0).val / 512 := ⟨⟨(i 0).val / 512, by omega⟩, rfl⟩
  refine ⟨t, flush0_15 t, ?_⟩
  have hf := idx_facts t
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 960 ≤ (i 1).val ∧ (i 1).val < win0_15.index t (1 : Fin 2) * 960 + 960; omega

/-- The result array after the run. -/
theorem final15 (c : Dev nD) : (dats m 0 c).arrAt 15 cfg0.N = (argsOf m c).localOut :=
  (dats m 0 c).arrAt_eq_of_cover 15 ((argsOf m c).localOut) (fun t _ => flushed15_eq m c t) (cover15)

/-- What point `t` writes back into result 2 is rows `512 t …` of the specification's array. -/
theorem flushed16_eq (c : Dev nD) (t : Fin cfg0.N) :
    (dats m 0 c).flushed 16 t = ((cfg0.win 16).blk t).view.read (Elt Ideal) ((argsOf m c).globalOut) := by
  have hf := idx_facts t
  show (cfg0.win 16).cut (grid0.coords t) ((dats m 0 c).after 16 t) = _
  rw [after0_16]
  unfold out0_16
  rw [View.canon_unit_zero hz]
  simp only [View.ld_unit_zero (S := S512x512) hz, View.ld_unit_zero (S := S512x2048) hz, View.ld_unit_zero (S := S1x2048) hz, View.ld_unit_zero (S := S512x64) hz, View.ld_unit_zero (S := S1x64) hz, View.ld_unit_zero (S := S512x128) hz, View.ld_unit_zero (S := S1x128) hz, View.ld_unit_zero (S := S512x256) hz, View.ld_unit_zero (S := S1x256) hz, View.ld_unit_zero (S := S1x512) hz, View.ld_unit_zero (S := S512x960) hz, View.ld_unit_zero (S := S1x960) hz]
  funext j
  obtain ⟨p, q, rfl⟩ : ∃ (p : Fin 512) (q : Fin 960), j = ix2 p q := ⟨j 0, j 1, eq_ix2 j⟩
  show payGlobal (F := Ideal) (iblk m c 0 t) (iblk m c 1 t) (iblk m c 2 t) (iblk m c 3 t) (iblk m c 12 t) (iblk m c 13 t) (iblk m c 14 t) (ix2 p q) = (argsOf m c).globalOut (((cfg0.win 16).blk t).view.emb (ix2 p q))
  have hemb : ((cfg0.win 16).blk t).view.emb (ix2 p q) = ix2 (rowOf t p) q := by
    funext a; apply Fin.ext
    match a with
    | ⟨0, _⟩ => show win0_16.index t (0 : Fin 2) * 512 + 1 * p.val = 512 * t.val + p.val; omega
    | ⟨1, _⟩ => show win0_16.index t (1 : Fin 2) * 960 + 1 * q.val = q.val; omega
  rw [hemb]
  exact payGlobal_at (blockOf m c t p) q

/-- An index of the result array is in point `t`'s block iff its row is among the point's 512 rows. -/
theorem mem_blk16 (t : Fin cfg0.N) (i : S16384x960.Idx) :
    i ∈ ((cfg0.win 16).blk t).view.set ↔ ∀ a : Fin 2, win0_16.index t a * S512x960.size a ≤ (i a).val ∧ (i a).val < win0_16.index t a * S512x960.size a + S512x960.size a := by
  show i ∈ ((View.whole main_v27_1).slice (win0_16.rect t)).set ↔ _
  rw [View.set_slice_whole, Rect.mem_set_unit]
  exact Iff.rfl

/-- The 32 blocks tile the array. -/
theorem cover16 (i : S16384x960.Idx) : ∃ t : Fin cfg0.N, (cfg0.win 16).flush t = true ∧ i ∈ ((cfg0.win 16).blk t).view.set := by
  have hi0 : (i 0).val < 16384 := (i 0).isLt
  have hi1 : (i 1).val < 960 := (i 1).isLt
  have hN : cfg0.N = 32 := N_0
  obtain ⟨t, ht⟩ : ∃ t : Fin cfg0.N, t.val = (i 0).val / 512 := ⟨⟨(i 0).val / 512, by omega⟩, rfl⟩
  refine ⟨t, flush0_16 t, ?_⟩
  have hf := idx_facts t
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 960 ≤ (i 1).val ∧ (i 1).val < win0_16.index t (1 : Fin 2) * 960 + 960; omega

/-- The result array after the run. -/
theorem final16 (c : Dev nD) : (dats m 0 c).arrAt 16 cfg0.N = (argsOf m c).globalOut :=
  (dats m 0 c).arrAt_eq_of_cover 16 ((argsOf m c).globalOut) (fun t _ => flushed16_eq m c t) (cover16)

/-- THE RUN, READ: every weakly fair execution terminates with the two result arrays at the specification's arrays of
    the argument arrays, and the arguments unchanged. -/
theorem run : θ_run defs (onTc (τ := τ) (main (F := Ideal))) ⟨m, fun _ => 0, ρ⟩ (fun r => ∀ c : Dev nD,
      r.2.mem ((c.tc : Thread nD τ).loc main_v27_0) = (argsOf m c).localOut
      ∧ r.2.mem ((c.tc : Thread nD τ).loc main_v27_1) = (argsOf m c).globalOut
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 15).trans (final15 m c), ((h c).1 16).trans (final16 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Hand

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«127465_j91130616086566_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibRating.lean ====
/-
  The rating of a user row against an item row, and the two ways the programs spell it.

  For a matrix `U` of user rows and a matrix `I` of item rows (each row a vector of `K` coordinates) the rating of user `p`
  for item `q` is the logistic function of the inner product of the two rows,

      score U I p q = σ (∑ k, U[p, k] · I[q, k]),        σ z = 1 / (1 + e^(−z)),

  over the extended reals, where σ is total (σ(−∞) = 0, σ(+∞) = 1). Nothing here needs the entries to be finite: the inner
  product is one sum on both sides, and σ is one function.

  * A tile of ratings computed as "round both tiles to bf16, multiply contracting the last axis of both, accumulate into
    zeros, apply the logistic unit" is `score` of the two tiles, entry by entry (`tile_score`): rounding is the identity
    on extended reals, the product of rows is the sum above, and the unit is σ.
  * σ written out as a quotient, `1 / (1 + exp (−z))` with the two ones given by their f32 words, is σ (`quotient_eq_logistic`).
  * `score` only reads row `p` of `U` and row `q` of `I` (`score_congr`).
-/
import Idealize.ShloMosaic.PureOps.Ideal.Laws
import Idealize.ShloMosaic.Lib.ValueIdx
import Idealize.ShloMosaic.Lib.IdealHost
import Idealize.ShloMosaic.Lib.Pipeline.Value
import proofs.«127465_j91130616086566_2_alg».proof.Proof.LibDotRows

noncomputable section

open scoped BigOperators

namespace Cert.Rating

open Idealize.ShloMosaic Idealize.ShloMosaic.ValueIdx

variable {M N K : Nat}

/-- The rating of user row `p` of `U` for item row `q` of `I`: the logistic function of the rows' inner product. -/
def score (U : (⟨2, ![M, K]⟩ : Shape).Idx → EReal) (I : (⟨2, ![N, K]⟩ : Shape).Idx → EReal) (p : Fin M) (q : Fin N) : EReal :=
  Ideal.logistic (∑ k : Fin K, U (ix2 p k) * I (ix2 q k))

/-- The rating of `(p, q)` reads row `p` of the users and row `q` of the items, and nothing else: two pairs of matrices,
    possibly of different heights, that agree on those rows give the same rating. -/
theorem score_congr {M' N' : Nat} (U : (⟨2, ![M, K]⟩ : Shape).Idx → EReal) (I : (⟨2, ![N, K]⟩ : Shape).Idx → EReal)
    (U' : (⟨2, ![M', K]⟩ : Shape).Idx → EReal) (I' : (⟨2, ![N', K]⟩ : Shape).Idx → EReal)
    (p : Fin M) (q : Fin N) (p' : Fin M') (q' : Fin N')
    (hU : ∀ k : Fin K, U (ix2 p k) = U' (ix2 p' k)) (hI : ∀ k : Fin K, I (ix2 q k) = I' (ix2 q' k)) :
    score U I p q = score U' I' p' q' := by
  unfold score
  exact congrArg Ideal.logistic (Finset.sum_congr rfl fun k _ => by rw [hU k, hI k])

/-- A TILE OF RATINGS as a kernel body computes it — both tiles rounded to bf16, multiplied with the last axis of both
    contracted (any record `D` that spells those dimension numbers) into the zero accumulator, then the logistic unit — is
    `score` of the tiles at every entry. -/
theorem tile_score (D : DotDims ⟨2, ![M, K]⟩ ⟨2, ![N, K]⟩ ⟨2, ![M, N]⟩) (hD : D = DotDims.transposedRhs M K N)
    (x : FVec Ideal ⟨2, ![M, K]⟩ .f32) (y : FVec Ideal ⟨2, ![N, K]⟩ .f32)
    (hx : (⟨2, ![M, K]⟩ : Shape).ShapeCasts ⟨2, ![M, K]⟩) (hy : (⟨2, ![N, K]⟩ : Shape).ShapeCasts ⟨2, ![N, K]⟩)
    (hb : FTy.bf16.bits < FTy.f32.bits) (p : Fin M) (q : Fin N) :
    logistic (matmul D none (truncf .bf16 (shapeCast ⟨2, ![M, K]⟩ x hx) hb) (truncf .bf16 (shapeCast ⟨2, ![N, K]⟩ y hy) hb)
        (constant ⟨2, ![M, N]⟩ .f32 0x00000000#32)) (ix2 p q)
      = score x y p q := by
  rw [shapeCast_self x hx, shapeCast_self y hy]
  show Ideal.logistic (FloatOps.matmul (F := Ideal) D none (truncf .bf16 x hb) (truncf .bf16 y hb)
    (constant ⟨2, ![M, N]⟩ .f32 0x00000000#32) (ix2 p q)) = _
  rw [Cert.Lib.DotRows.matmul_rows_apply D hD]
  rfl

/-- The logistic function written as the quotient `1 / (1 + exp (−z))`, each one the f32 word of 1.0, is the logistic
    function. -/
theorem quotient_eq_logistic (z : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) z)))
      = Ideal.logistic z := by
  rw [Ideal.ofBits_one_f32]
  rfl

end Cert.Rating

end
-- ==== Proof.RefCell.lean ====
/-
  One layer of the recurrent cell, as the reference spells it over whole arrays, read at one entry.

  The reference lays the feature array `X` (512 columns) and the hidden array `H` (512 columns) side by side into a joined array
  `Z` of 1024 columns, so that row `r` of `Z` is the features of row `r` followed by its hidden row. A gate's pre-activation array is
  the matrix product `Z · W` plus the bias `b` repeated down the rows; at entry `(r, j)` that is one sum over the 1024 joined
  columns plus `b_j`, which is the specification's `pre W b x h j` for `x`, `h` the two halves of the joined row. The logistic
  function is written out as the quotient `1 / (1 + exp (−z))`, which over the extended reals is the logistic function itself.
  Hence the new cell-state array and the new hidden array, at entry `(r, j)`, are the specification's `cellC` and `cellH` of row
  `r`'s features, hidden row and cell state. A linear head `H · Wl + bl` at `(r, q)` is the specification's `head` of the hidden row.
-/
import proofs.«127465_j91130616086566_2_alg».proof.Proof.Gen.ReferenceIdeal
import proofs.«127465_j91130616086566_2_alg».proof.Proof.LstmSpec
import proofs.«127465_j91130616086566_2_alg».proof.Proof.LibDotColsHost
import proofs.«127465_j91130616086566_2_alg».proof.Proof.LibRating
import Idealize.ShloMosaic.Lib.ValueIdx
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.Lstm

/-! ## The joined row -/

/-- Column `k` of the joined array is column `k` of the features … -/
theorem joined_lo (X H : FVec Ideal S16384x512 .f32) (hc : Shape.Concatenates [S16384x512, S16384x512] S16384x1024 1)
    (r : Fin 16384) (k : Fin 512) :
    concatenate S16384x1024 1 [⟨S16384x512, X⟩, ⟨S16384x512, H⟩] hc (ix2 r (lo k)) = X (ix2 r k) := by
  refine concatenate_pair_apply_left (1 : Fin 2) X H hc (ix2 r (lo k)) rfl (ix2 r k) ?_
  intro b
  match b with
  | ⟨0, _⟩ => rfl
  | ⟨1, _⟩ => rfl

/-- … and column `512 + k` is column `k` of the hidden array. -/
theorem joined_hi (X H : FVec Ideal S16384x512 .f32) (hc : Shape.Concatenates [S16384x512, S16384x512] S16384x1024 1)
    (r : Fin 16384) (k : Fin 512) :
    concatenate S16384x1024 1 [⟨S16384x512, X⟩, ⟨S16384x512, H⟩] hc (ix2 r (hi k)) = H (ix2 r k) := by
  refine concatenate_pair_apply_right (1 : Fin 2) X H hc (ix2 r (hi k)) rfl rfl (ix2 r k) ?_ ?_
  · intro b hb
    match b, hb with
    | ⟨0, _⟩, _ => rfl
    | ⟨1, _⟩, hb => exact absurd rfl hb
  · show k.val + 512 = 512 + k.val
    omega

/-! ## A bias repeated down the rows -/

/-- A vector of `N` entries laid out as one row and then repeated down 16384 rows holds, at `(r, j)`, its entry `j`. -/
theorem bias_apply {N : Nat} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![16384, N]⟩ (![0, 1] : Fin 2 → Fin 2)) (r : Fin 16384) (j : Fin N) :
    broadcastInDim ⟨2, ![16384, N]⟩ ![0, 1] h2 (broadcastInDim ⟨2, ![1, N]⟩ ![1] h1 b) (ix2 r j) = b (ix1 j) := by
  have hj : ∀ a : Fin 1, ((ix1 j : (⟨1, ![N]⟩ : Shape).Idx) a).val
      = if (⟨1, ![N]⟩ : Shape).size a = 1 then 0 else ((ix2 (0 : Fin 1) j : (⟨2, ![1, N]⟩ : Shape).Idx) ((![1] : Fin 1 → Fin 2) a)).val := by
    intro a
    match a with
    | ⟨0, _⟩ =>
      show j.val = if N = 1 then 0 else j.val
      split
      · have := j.isLt; omega
      · rfl
  have hr : ∀ a : Fin 2, ((ix2 (0 : Fin 1) j : (⟨2, ![1, N]⟩ : Shape).Idx) a).val
      = if (⟨2, ![1, N]⟩ : Shape).size a = 1 then 0 else ((ix2 r j : (⟨2, ![16384, N]⟩ : Shape).Idx) ((![0, 1] : Fin 2 → Fin 2) a)).val := by
    intro a
    match a with
    | ⟨0, _⟩ => rfl
    | ⟨1, _⟩ =>
      show j.val = if N = 1 then 0 else j.val
      split
      · have := j.isLt; omega
      · rfl
  exact (broadcastInDim_apply _ h2 _ (ix2 r j) (ix2 (0 : Fin 1) j) hr).trans (broadcastInDim_apply _ h1 b _ (ix1 j) hj)

/-! ## A gate's pre-activation, a head -/

/-- THE PRE-ACTIVATION AT AN ENTRY. For a joined array `Z` whose row `r` is `x` followed by `h`, the product `Z · W` plus the
    bias repeated down the rows holds at `(r, j)` the specification's `pre W b x h j`. -/
theorem gate_apply {N : Nat} (D : DotDims ⟨2, ![16384, 1024]⟩ ⟨2, ![1024, N]⟩ ⟨2, ![16384, N]⟩) (hD : D = DotDims.plain 16384 1024 N)
    (Z : FVec Ideal ⟨2, ![16384, 1024]⟩ .f32) (W : FVec Ideal ⟨2, ![1024, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![16384, N]⟩ (![0, 1] : Fin 2 → Fin 2))
    (r : Fin 16384) (x h : Fin 512 → EReal) (hlo : ∀ k, Z (ix2 r (lo k)) = x k) (hhi : ∀ k, Z (ix2 r (hi k)) = h k) (j : Fin N) :
    addf (Host.dotGeneral D none Z W) (broadcastInDim ⟨2, ![16384, N]⟩ ![0, 1] h2 (broadcastInDim ⟨2, ![1, N]⟩ ![1] h1 b)) (ix2 r j)
      = pre W b x h j := by
  show FloatOps.dotGeneral D none .single Z W (ix2 r j)
      + broadcastInDim ⟨2, ![16384, N]⟩ ![0, 1] h2 (broadcastInDim ⟨2, ![1, N]⟩ ![1] h1 b) (ix2 r j) = _
  rw [bias_apply, Cert.Lib.DotColsHost.dotGeneral_cols_apply D hD]
  exact pre_joined W b x h j (fun k => Z (ix2 r k)) hlo hhi

/-- A HEAD AT AN ENTRY. The product `H · W` plus the bias repeated down the rows holds at `(r, q)` the specification's `head` of
    row `r` of `H`. -/
theorem head_apply {N : Nat} (D : DotDims ⟨2, ![16384, 512]⟩ ⟨2, ![512, N]⟩ ⟨2, ![16384, N]⟩) (hD : D = DotDims.plain 16384 512 N)
    (H : FVec Ideal ⟨2, ![16384, 512]⟩ .f32) (W : FVec Ideal ⟨2, ![512, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![16384, N]⟩ (![0, 1] : Fin 2 → Fin 2))
    (r : Fin 16384) (h : Fin 512 → EReal) (hh : ∀ k, H (ix2 r k) = h k) (q : Fin N) :
    addf (Host.dotGeneral D none H W) (broadcastInDim ⟨2, ![16384, N]⟩ ![0, 1] h2 (broadcastInDim ⟨2, ![1, N]⟩ ![1] h1 b)) (ix2 r q)
      = head W b h q := by
  show FloatOps.dotGeneral D none .single H W (ix2 r q)
      + broadcastInDim ⟨2, ![16384, N]⟩ ![0, 1] h2 (broadcastInDim ⟨2, ![1, N]⟩ ![1] h1 b) (ix2 r q) = _
  rw [bias_apply, Cert.Lib.DotColsHost.dotGeneral_cols_apply D hD]
  unfold head
  simp only [hh]

/-! ## The logistic function as a quotient; the zero array -/

/-- The array of ones. -/
def ones : FVec Ideal S16384x512 .f32 := broadcastInDim S16384x512 ![] bcast_S_S16384x512 (constant S_ .f32 0x3F800000#32)

/-- The array of zeros. -/
def zeros : FVec Ideal S16384x512 .f32 := broadcastInDim S16384x512 ![] bcast_S_S16384x512 (constant S_ .f32 0x00000000#32)

/-- The zero array is zero at every entry. -/
theorem zeros_apply (i : S16384x512.Idx) : zeros i = 0 := Ideal.ofBits_zero_f32

/-- The logistic function of an array, written `1 / (1 + exp (−z))`. -/
def sigm (z : FVec Ideal S16384x512 .f32) : FVec Ideal S16384x512 .f32 := Host.divf ones (addf ones (Host.exp (Host.negf z)))

/-- The quotient is the logistic function at every entry. -/
theorem sigm_apply (z : FVec Ideal S16384x512 .f32) (i : S16384x512.Idx) : sigm z i = Ideal.logistic (z i) :=
  Cert.Rating.quotient_eq_logistic (z i)

/-! ## One layer -/

/-- A gate's pre-activation array: the joined array times the gate's weights, plus its bias down the rows. -/
def gate (Z : FVec Ideal S16384x1024 .f32) (W : FVec Ideal S1024x512 .f32) (b : FVec Ideal S512 .f32) : FVec Ideal S16384x512 .f32 :=
  addf (Host.dotGeneral dot_S16384x1024_S1024x512_S16384x512_1_0_0_1_n_n none Z W)
    (broadcastInDim S16384x512 ![0, 1] bcast_S1x512_S16384x512_0_1 (broadcastInDim S1x512 ![1] bcast_S512_S1x512_1 b))

/-- The new cell-state array: `tanh(pre_c) · σ(pre_i) + σ(pre_f) · C`. -/
def cellArr (G : Gates) (Z : FVec Ideal S16384x1024 .f32) (C : FVec Ideal S16384x512 .f32) : FVec Ideal S16384x512 .f32 :=
  addf (mulf (Host.tanh (gate Z G.Wc G.bc)) (sigm (gate Z G.Wi G.bi))) (mulf (sigm (gate Z G.Wf G.bf)) C)

/-- The new hidden array: `σ(pre_o) · tanh(C')`. -/
def hidArr (G : Gates) (Z : FVec Ideal S16384x1024 .f32) (C' : FVec Ideal S16384x512 .f32) : FVec Ideal S16384x512 .f32 :=
  mulf (sigm (gate Z G.Wo G.bo)) (Host.tanh C')

/-- The pre-activation array at an entry, for a joined array whose row `r` is `x` followed by `h`. -/
theorem gate_entry (Z : FVec Ideal S16384x1024 .f32) (W : FVec Ideal S1024x512 .f32) (b : FVec Ideal S512 .f32)
    (r : Fin 16384) (x h : Fin 512 → EReal) (hlo : ∀ k, Z (ix2 r (lo k)) = x k) (hhi : ∀ k, Z (ix2 r (hi k)) = h k) (j : Fin 512) :
    gate Z W b (ix2 r j) = pre W b x h j :=
  gate_apply _ rfl Z W b _ _ r x h hlo hhi j

/-- THE NEW CELL STATE AT AN ENTRY is the specification's `cellC` of row `r`'s features, hidden row and cell state. -/
theorem cellArr_apply (G : Gates) (Z : FVec Ideal S16384x1024 .f32) (C : FVec Ideal S16384x512 .f32)
    (r : Fin 16384) (x h c : Fin 512 → EReal) (hlo : ∀ k, Z (ix2 r (lo k)) = x k) (hhi : ∀ k, Z (ix2 r (hi k)) = h k)
    (hC : ∀ k, C (ix2 r k) = c k) (j : Fin 512) :
    cellArr G Z C (ix2 r j) = cellC G x h c j := by
  show Ideal.tanh (gate Z G.Wc G.bc (ix2 r j)) * sigm (gate Z G.Wi G.bi) (ix2 r j) + sigm (gate Z G.Wf G.bf) (ix2 r j) * C (ix2 r j) = _
  rw [sigm_apply, sigm_apply, gate_entry Z _ _ r x h hlo hhi, gate_entry Z _ _ r x h hlo hhi, gate_entry Z _ _ r x h hlo hhi, hC]
  rfl

/-- THE NEW HIDDEN ROW AT AN ENTRY is the specification's `cellH`, given the new cell state there. -/
theorem hidArr_apply (G : Gates) (Z : FVec Ideal S16384x1024 .f32) (C' : FVec Ideal S16384x512 .f32)
    (r : Fin 16384) (x h c : Fin 512 → EReal) (hlo : ∀ k, Z (ix2 r (lo k)) = x k) (hhi : ∀ k, Z (ix2 r (hi k)) = h k)
    (j : Fin 512) (hC' : C' (ix2 r j) = cellC G x h c j) :
    hidArr G Z C' (ix2 r j) = cellH G x h c j := by
  show sigm (gate Z G.Wo G.bo) (ix2 r j) * Ideal.tanh (C' (ix2 r j)) = _
  rw [sigm_apply, gate_entry Z _ _ r x h hlo hhi, hC']
  rfl

end Cert.ReferenceIdeal.RefValue

end
-- ==== Proof.RefValue.lean ====
/-
  The reference program's two results are the specification's two arrays.

  The reference runs the cell four times over whole arrays. Before layer `n` it lays the features beside the hidden array of layer
  `n − 1` (zeros before the first); row `r` of that joined array is the features of row `r` followed by the hidden row after
  `n − 1` layers. So, by the one-layer reading, the cell-state array and the hidden array after layer `n` hold at `(r, j)` the
  specification's state `st G x n` of row `r` — its second and first component at `j`. Each per-layer head reads the hidden
  array of its layer, so the four head arrays are the specification's `loc0 … loc3` and their side-by-side arrangement is
  `localOut`; the last head reads the features beside the last hidden array, which is `globalOut`.
-/
import proofs.«127465_j91130616086566_2_alg».proof.Proof.Gen.ReferenceIdeal.Run
import proofs.«127465_j91130616086566_2_alg».proof.Proof.RefCell

noncomputable section

open scoped BigOperators

namespace Cert.ReferenceIdeal.RefValue

open Cert.ReferenceIdeal Cert.ReferenceIdeal.Gen Cert.ReferenceIdeal.Value Idealize.ShloMosaic Idealize.ShloMosaic.TcCoe Idealize.SL.Sem
  Idealize.ShloMosaic.StableHlo Idealize.ShloMosaic.ValueIdx Cert.Lstm

/-- The specification's arguments, read off the launch contents of the nineteen argument arrays. -/
def argsOf (V0 : Valuation τ sig (Elt Ideal)) : Cert.Lstm.Args where
  X := V0 (Proc.devRef .tc main_arg0)
  G := ⟨V0 (Proc.devRef .tc main_arg1), V0 (Proc.devRef .tc main_arg2), V0 (Proc.devRef .tc main_arg3), V0 (Proc.devRef .tc main_arg4),
    V0 (Proc.devRef .tc main_arg5), V0 (Proc.devRef .tc main_arg6), V0 (Proc.devRef .tc main_arg7), V0 (Proc.devRef .tc main_arg8)⟩
  Wl0 := V0 (Proc.devRef .tc main_arg9)
  bl0 := V0 (Proc.devRef .tc main_arg10)
  Wl1 := V0 (Proc.devRef .tc main_arg11)
  bl1 := V0 (Proc.devRef .tc main_arg12)
  Wl2 := V0 (Proc.devRef .tc main_arg13)
  bl2 := V0 (Proc.devRef .tc main_arg14)
  Wl3 := V0 (Proc.devRef .tc main_arg15)
  bl3 := V0 (Proc.devRef .tc main_arg16)
  Wg := V0 (Proc.devRef .tc main_arg17)
  bg := V0 (Proc.devRef .tc main_arg18)

/-! ## The named intermediate arrays, as joined arrays, cell-state arrays and hidden arrays -/

theorem v2_eq (V0 : Valuation τ sig (Elt Ideal)) :
    res_main_v2 V0 = concatenate S16384x1024 1 [⟨S16384x512, (argsOf V0).X⟩, ⟨S16384x512, zeros⟩] concatenates_S16384x512_S16384x512_S16384x1024_d1 := rfl
theorem v40_eq (V0 : Valuation τ sig (Elt Ideal)) : res_main_v40 V0 = cellArr (argsOf V0).G (res_main_v2 V0) zeros := rfl
theorem v42_eq (V0 : Valuation τ sig (Elt Ideal)) : res_main_v42 V0 = hidArr (argsOf V0).G (res_main_v2 V0) (res_main_v40 V0) := rfl
theorem v47_eq (V0 : Valuation τ sig (Elt Ideal)) :
    res_main_v47 V0 = concatenate S16384x1024 1 [⟨S16384x512, (argsOf V0).X⟩, ⟨S16384x512, res_main_v42 V0⟩] concatenates_S16384x512_S16384x512_S16384x1024_d1 := rfl
theorem v85_eq (V0 : Valuation τ sig (Elt Ideal)) : res_main_v85 V0 = cellArr (argsOf V0).G (res_main_v47 V0) (res_main_v40 V0) := rfl
theorem v87_eq (V0 : Valuation τ sig (Elt Ideal)) : res_main_v87 V0 = hidArr (argsOf V0).G (res_main_v47 V0) (res_main_v85 V0) := rfl
theorem v92_eq (V0 : Valuation τ sig (Elt Ideal)) :
    res_main_v92 V0 = concatenate S16384x1024 1 [⟨S16384x512, (argsOf V0).X⟩, ⟨S16384x512, res_main_v87 V0⟩] concatenates_S16384x512_S16384x512_S16384x1024_d1 := rfl
theorem v130_eq (V0 : Valuation τ sig (Elt Ideal)) : res_main_v130 V0 = cellArr (argsOf V0).G (res_main_v92 V0) (res_main_v85 V0) := rfl
theorem v132_eq (V0 : Valuation τ sig (Elt Ideal)) : res_main_v132 V0 = hidArr (argsOf V0).G (res_main_v92 V0) (res_main_v130 V0) := rfl
theorem v137_eq (V0 : Valuation τ sig (Elt Ideal)) :
    res_main_v137 V0 = concatenate S16384x1024 1 [⟨S16384x512, (argsOf V0).X⟩, ⟨S16384x512, res_main_v132 V0⟩] concatenates_S16384x512_S16384x512_S16384x1024_d1 := rfl
theorem v177_eq (V0 : Valuation τ sig (Elt Ideal)) :
    res_main_v177 V0 = hidArr (argsOf V0).G (res_main_v137 V0) (cellArr (argsOf V0).G (res_main_v137 V0) (res_main_v130 V0)) := rfl

/-! ## The four layers, entry by entry -/

/-! ### Layer 1 -/

theorem v2_lo (V0 : Valuation τ sig (Elt Ideal)) (r : Fin 16384) (k : Fin 512) :
    res_main_v2 V0 (ix2 r (lo k)) = (argsOf V0).row r k :=
  (congrFun (v2_eq V0) _).trans (joined_lo _ _ _ r k)

theorem v2_hi (V0 : Valuation τ sig (Elt Ideal)) (r : Fin 16384) (k : Fin 512) :
    res_main_v2 V0 (ix2 r (hi k)) = (st (argsOf V0).G ((argsOf V0).row r) 0).1 k :=
  (congrFun (v2_eq V0) _).trans ((joined_hi _ _ _ r k).trans (zeros_apply _))

/-- The cell state after the first layer. -/
theorem v40_apply (V0 : Valuation τ sig (Elt Ideal)) (r : Fin 16384) (j : Fin 512) :
    res_main_v40 V0 (ix2 r j) = (st (argsOf V0).G ((argsOf V0).row r) 1).2 j :=
  (congrFun (v40_eq V0) _).trans
    (cellArr_apply (argsOf V0).G _ _ r ((argsOf V0).row r) (st (argsOf V0).G ((argsOf V0).row r) 0).1 (st (argsOf V0).G ((argsOf V0).row r) 0).2
      (v2_lo V0 r) (v2_hi V0 r) (fun _ => zeros_apply _) j)

/-- The hidden row after the first layer. -/
theorem v42_apply (V0 : Valuation τ sig (Elt Ideal)) (r : Fin 16384) (j : Fin 512) :
    res_main_v42 V0 (ix2 r j) = (st (argsOf V0).G ((argsOf V0).row r) 1).1 j :=
  (congrFun (v42_eq V0) _).trans
    (hidArr_apply (argsOf V0).G _ _ r ((argsOf V0).row r) (st (argsOf V0).G ((argsOf V0).row r) 0).1 (st (argsOf V0).G ((argsOf V0).row r) 0).2
      (v2_lo V0 r) (v2_hi V0 r) j (v40_apply V0 r j))

/-! ### Layer 2 -/

theorem v47_lo (V0 : Valuation τ sig (Elt Ideal)) (r : Fin 16384) (k : Fin 512) :
    res_main_v47 V0 (ix2 r (lo k)) = (argsOf V0).row r k :=
  (congrFun (v47_eq V0) _).trans (joined_lo _ _ _ r k)

theorem v47_hi (V0 : Valuation τ sig (Elt Ideal)) (r : Fin 16384) (k : Fin 512) :
    res_main_v47 V0 (ix2 r (hi k)) = (st (argsOf V0).G ((argsOf V0).row r) 1).1 k :=
  (congrFun (v47_eq V0) _).trans ((joined_hi _ _ _ r k).trans (v42_apply V0 r k))

theorem v85_apply (V0 : Valuation τ sig (Elt Ideal)) (r : Fin 16384) (j : Fin 512) :
    res_main_v85 V0 (ix2 r j) = (st (argsOf V0).G ((argsOf V0).row r) 2).2 j :=
  (congrFun (v85_eq V0) _).trans
    (cellArr_apply (argsOf V0).G _ _ r ((argsOf V0).row r) (st (argsOf V0).G ((argsOf V0).row r) 1).1 (st (argsOf V0).G ((argsOf V0).row r) 1).2
      (v47_lo V0 r) (v47_hi V0 r) (v40_apply V0 r) j)

theorem v87_apply (V0 : Valuation τ sig (Elt Ideal)) (r : Fin 16384) (j : Fin 512) :
    res_main_v87 V0 (ix2 r j) = (st (argsOf V0).G ((argsOf V0).row r) 2).1 j :=
  (congrFun (v87_eq V0) _).trans
    (hidArr_apply (argsOf V0).G _ _ r ((argsOf V0).row r) (st (argsOf V0).G ((argsOf V0).row r) 1).1 (st (argsOf V0).G ((argsOf V0).row r) 1).2
      (v47_lo V0 r) (v47_hi V0 r) j (v85_apply V0 r j))

/-! ### Layer 3 -/

theorem v92_lo (V0 : Valuation τ sig (Elt Ideal)) (r : Fin 16384) (k : Fin 512) :
    res_main_v92 V0 (ix2 r (lo k)) = (argsOf V0).row r k :=
  (congrFun (v92_eq V0) _).trans (joined_lo _ _ _ r k)

theorem v92_hi (V0 : Valuation τ sig (Elt Ideal)) (r : Fin 16384) (k : Fin 512) :
    res_main_v92 V0 (ix2 r (hi k)) = (st (argsOf V0).G ((argsOf V0).row r) 2).1 k :=
  (congrFun (v92_eq V0) _).trans ((joined_hi _ _ _ r k).trans (v87_apply V0 r k))

theorem v130_apply (V0 : Valuation τ sig (Elt Ideal)) (r : Fin 16384) (j : Fin 512) :
    res_main_v130 V0 (ix2 r j) = (st (argsOf V0).G ((argsOf V0).row r) 3).2 j :=
  (congrFun (v130_eq V0) _).trans
    (cellArr_apply (argsOf V0).G _ _ r ((argsOf V0).row r) (st (argsOf V0).G ((argsOf V0).row r) 2).1 (st (argsOf V0).G ((argsOf V0).row r) 2).2
      (v92_lo V0 r) (v92_hi V0 r) (v85_apply V0 r) j)

theorem v132_apply (V0 : Valuation τ sig (Elt Ideal)) (r : Fin 16384) (j : Fin 512) :
    res_main_v132 V0 (ix2 r j) = (st (argsOf V0).G ((argsOf V0).row r) 3).1 j :=
  (congrFun (v132_eq V0) _).trans
    (hidArr_apply (argsOf V0).G _ _ r ((argsOf V0).row r) (st (argsOf V0).G ((argsOf V0).row r) 2).1 (st (argsOf V0).G ((argsOf V0).row r) 2).2
      (v92_lo V0 r) (v92_hi V0 r) j (v130_apply V0 r j))

/-! ### Layer 4 -/

theorem v137_lo (V0 : Valuation τ sig (Elt Ideal)) (r : Fin 16384) (k : Fin 512) :
    res_main_v137 V0 (ix2 r (lo k)) = (argsOf V0).row r k :=
  (congrFun (v137_eq V0) _).trans (joined_lo _ _ _ r k)

theorem v137_hi (V0 : Valuation τ sig (Elt Ideal)) (r : Fin 16384) (k : Fin 512) :
    res_main_v137 V0 (ix2 r (hi k)) = (st (argsOf V0).G ((argsOf V0).row r) 3).1 k :=
  (congrFun (v137_eq V0) _).trans ((joined_hi _ _ _ r k).trans (v132_apply V0 r k))

/-- The hidden row after the fourth layer (its cell state is not named: it is read in place). -/
theorem v177_apply (V0 : Valuation τ sig (Elt Ideal)) (r : Fin 16384) (j : Fin 512) :
    res_main_v177 V0 (ix2 r j) = (st (argsOf V0).G ((argsOf V0).row r) 4).1 j :=
  (congrFun (v177_eq V0) _).trans
    (hidArr_apply (argsOf V0).G _ _ r ((argsOf V0).row r) (st (argsOf V0).G ((argsOf V0).row r) 3).1 (st (argsOf V0).G ((argsOf V0).row r) 3).2
      (v137_lo V0 r) (v137_hi V0 r) j
      (cellArr_apply (argsOf V0).G _ _ r ((argsOf V0).row r) (st (argsOf V0).G ((argsOf V0).row r) 3).1 (st (argsOf V0).G ((argsOf V0).row r) 3).2
        (v137_lo V0 r) (v137_hi V0 r) (v130_apply V0 r) j))

/-! ## The heads -/

theorem loc0_eq (V0 : Valuation τ sig (Elt Ideal)) :
    (addf (Host.dotGeneral (φ₁ := .f32) (φ₂ := .f32) dot_S16384x512_S512x64_S16384x64_1_0_0_1_n_n none (res_main_v42 V0) (V0 (Proc.devRef .tc main_arg9))) (broadcastInDim S16384x64 ![0, 1] bcast_S1x64_S16384x64_0_1 (broadcastInDim S1x64 ![1] bcast_S64_S1x64_1 (V0 (Proc.devRef .tc main_arg10))))) = (argsOf V0).loc0 := by
  funext i
  obtain ⟨r, q, rfl⟩ : ∃ (r : Fin 16384) (q : Fin 64), i = ix2 r q := ⟨i 0, i 1, eq_ix2 i⟩
  exact head_apply _ rfl _ _ _ _ _ r _ (fun k => v42_apply V0 r k) q

theorem loc1_eq (V0 : Valuation τ sig (Elt Ideal)) :
    (addf (Host.dotGeneral (φ₁ := .f32) (φ₂ := .f32) dot_S16384x512_S512x128_S16384x128_1_0_0_1_n_n none (res_main_v87 V0) (V0 (Proc.devRef .tc main_arg11))) (broadcastInDim S16384x128 ![0, 1] bcast_S1x128_S16384x128_0_1 (broadcastInDim S1x128 ![1] bcast_S128_S1x128_1 (V0 (Proc.devRef .tc main_arg12))))) = (argsOf V0).loc1 := by
  funext i
  obtain ⟨r, q, rfl⟩ : ∃ (r : Fin 16384) (q : Fin 128), i = ix2 r q := ⟨i 0, i 1, eq_ix2 i⟩
  exact head_apply _ rfl _ _ _ _ _ r _ (fun k => v87_apply V0 r k) q

theorem loc2_eq (V0 : Valuation τ sig (Elt Ideal)) :
    (addf (Host.dotGeneral (φ₁ := .f32) (φ₂ := .f32) dot_S16384x512_S512x256_S16384x256_1_0_0_1_n_n none (res_main_v132 V0) (V0 (Proc.devRef .tc main_arg13))) (broadcastInDim S16384x256 ![0, 1] bcast_S1x256_S16384x256_0_1 (broadcastInDim S1x256 ![1] bcast_S256_S1x256_1 (V0 (Proc.devRef .tc main_arg14))))) = (argsOf V0).loc2 := by
  funext i
  obtain ⟨r, q, rfl⟩ : ∃ (r : Fin 16384) (q : Fin 256), i = ix2 r q := ⟨i 0, i 1, eq_ix2 i⟩
  exact head_apply _ rfl _ _ _ _ _ r _ (fun k => v132_apply V0 r k) q

theorem loc3_eq (V0 : Valuation τ sig (Elt Ideal)) :
    (addf (Host.dotGeneral (φ₁ := .f32) (φ₂ := .f32) dot_S16384x512_S512x512_S16384x512_1_0_0_1_n_n none (res_main_v177 V0) (V0 (Proc.devRef .tc main_arg15))) (broadcastInDim S16384x512 ![0, 1] bcast_S1x512_S16384x512_0_1 (broadcastInDim S1x512 ![1] bcast_S512_S1x512_1 (V0 (Proc.devRef .tc main_arg16))))) = (argsOf V0).loc3 := by
  funext i
  obtain ⟨r, q, rfl⟩ : ∃ (r : Fin 16384) (q : Fin 512), i = ix2 r q := ⟨i 0, i 1, eq_ix2 i⟩
  exact head_apply _ rfl _ _ _ _ _ r _ (fun k => v177_apply V0 r k) q

/-- Four pieces laid side by side depend only on the pieces. -/
theorem concatenate4_congr {α : Type} {t s0 s1 s2 s3 : Shape} (a : Fin t.rank) (x0 y0 : s0.Idx → α) (x1 y1 : s1.Idx → α)
    (x2 y2 : s2.Idx → α) (x3 y3 : s3.Idx → α) (h : Shape.Concatenates [s0, s1, s2, s3] t a)
    (e0 : x0 = y0) (e1 : x1 = y1) (e2 : x2 = y2) (e3 : x3 = y3) :
    concatenate t a [⟨s0, x0⟩, ⟨s1, x1⟩, ⟨s2, x2⟩, ⟨s3, x3⟩] h = concatenate t a [⟨s0, y0⟩, ⟨s1, y1⟩, ⟨s2, y2⟩, ⟨s3, y3⟩] h := by
  subst e0 e1 e2 e3
  rfl

/-! ## The two results -/

/-- FIRST RESULT: the four head arrays side by side are the specification's `localOut`. -/
theorem ref_local (V0 : Valuation τ sig (Elt Ideal)) :
    concatenate S16384x960 1 [⟨S16384x64, (addf (Host.dotGeneral (φ₁ := .f32) (φ₂ := .f32) dot_S16384x512_S512x64_S16384x64_1_0_0_1_n_n none (res_main_v42 V0) (V0 (Proc.devRef .tc main_arg9))) (broadcastInDim S16384x64 ![0, 1] bcast_S1x64_S16384x64_0_1 (broadcastInDim S1x64 ![1] bcast_S64_S1x64_1 (V0 (Proc.devRef .tc main_arg10)))))⟩, ⟨S16384x128, (addf (Host.dotGeneral (φ₁ := .f32) (φ₂ := .f32) dot_S16384x512_S512x128_S16384x128_1_0_0_1_n_n none (res_main_v87 V0) (V0 (Proc.devRef .tc main_arg11))) (broadcastInDim S16384x128 ![0, 1] bcast_S1x128_S16384x128_0_1 (broadcastInDim S1x128 ![1] bcast_S128_S1x128_1 (V0 (Proc.devRef .tc main_arg12)))))⟩, ⟨S16384x256, (addf (Host.dotGeneral (φ₁ := .f32) (φ₂ := .f32) dot_S16384x512_S512x256_S16384x256_1_0_0_1_n_n none (res_main_v132 V0) (V0 (Proc.devRef .tc main_arg13))) (broadcastInDim S16384x256 ![0, 1] bcast_S1x256_S16384x256_0_1 (broadcastInDim S1x256 ![1] bcast_S256_S1x256_1 (V0 (Proc.devRef .tc main_arg14)))))⟩, ⟨S16384x512, (addf (Host.dotGeneral (φ₁ := .f32) (φ₂ := .f32) dot_S16384x512_S512x512_S16384x512_1_0_0_1_n_n none (res_main_v177 V0) (V0 (Proc.devRef .tc main_arg15))) (broadcastInDim S16384x512 ![0, 1] bcast_S1x512_S16384x512_0_1 (broadcastInDim S1x512 ![1] bcast_S512_S1x512_1 (V0 (Proc.devRef .tc main_arg16)))))⟩] concatenates_S16384x64_S16384x128_S16384x256_S16384x512_S16384x960_d1
      = (argsOf V0).localOut :=
  concatenate4_congr _ _ _ _ _ _ _ _ _ _ (loc0_eq V0) (loc1_eq V0) (loc2_eq V0) (loc3_eq V0)

/-- SECOND RESULT: the last head, over the features beside the last hidden array, is the specification's `globalOut`. -/
theorem ref_global (V0 : Valuation τ sig (Elt Ideal)) :
    addf (Host.dotGeneral (φ₁ := .f32) (φ₂ := .f32) dot_S16384x1024_S1024x960_S16384x960_1_0_0_1_n_n none (concatenate S16384x1024 1 [⟨S16384x512, (V0 (Proc.devRef .tc main_arg0))⟩, ⟨S16384x512, (res_main_v177 V0)⟩] concatenates_S16384x512_S16384x512_S16384x1024_d1) (V0 (Proc.devRef .tc main_arg17))) (broadcastInDim S16384x960 ![0, 1] bcast_S1x960_S16384x960_0_1 (broadcastInDim S1x960 ![1] bcast_S960_S1x960_1 (V0 (Proc.devRef .tc main_arg18))))
      = (argsOf V0).globalOut := by
  funext i
  obtain ⟨r, q, rfl⟩ : ∃ (r : Fin 16384) (q : Fin 960), i = ix2 r q := ⟨i 0, i 1, eq_ix2 i⟩
  exact gate_apply _ rfl _ _ _ _ _ r ((argsOf V0).row r) ((argsOf V0).hid 4 r)
    (fun k => joined_lo _ _ _ r k) (fun k => (joined_hi _ _ _ r k).trans (v177_apply V0 r k)) q

end Cert.ReferenceIdeal.RefValue

end
-- ==== Proof.lean ====
/-
  The certificate's five claims for the stacked recurrent cell with per-layer heads.

  Both programs compute, for every input row, four layers of a gated recurrent cell over the same features, a linear head
  after each layer and a last head over the features and the last hidden row. The kernel program works on blocks of 512
  rows with the four gates' weights joined side by side, the feature half of every pre-activation computed once and the
  hidden half added per layer; the reference joins the features and the hidden rows and multiplies by the whole weight
  matrices. Over the extended reals the two pre-activations differ only by the order of a three-term sum, and at the first
  layer by a sum of zero products; the logistic function is one function in both spellings. So both result pairs are the
  arrays `Cert.Lstm.Args.localOut` and `Cert.Lstm.Args.globalOut` of the argument arrays; no entry has to be finite.
  The three frames: each program runs to the end, faults nowhere and leaves its arguments unchanged — the kernel programs
  by the pipeline's frame run over a body of loads, arithmetic and two whole-block stores, the reference by its run.
-/
import proofs.«127465_j91130616086566_2_alg».proof.Defs
import proofs.«127465_j91130616086566_2_alg».proof.Proof.Gen.Kernel
import proofs.«127465_j91130616086566_2_alg».proof.Proof.Gen.KernelIdeal
import proofs.«127465_j91130616086566_2_alg».proof.Proof.Gen.ReferenceIdeal
import proofs.«127465_j91130616086566_2_alg».proof.Proof.Gen.Pre_finite_inputs
import proofs.«127465_j91130616086566_2_alg».proof.Proof.Gen.ReferenceIdeal.Run
import proofs.«127465_j91130616086566_2_alg».proof.Proof.KernelFrame
import proofs.«127465_j91130616086566_2_alg».proof.Proof.KernelIdealFrame
import proofs.«127465_j91130616086566_2_alg».proof.Proof.KernelIdealValue
import proofs.«127465_j91130616086566_2_alg».proof.Proof.RefValue
import Idealize.ShloMosaic.Adequacy
import Idealize.ShloMosaic.Init

noncomputable section

namespace Cert.Proof

open Idealize.ShloMosaic Idealize.SL.Sem

/-- The word-level program runs to the end, faults nowhere and leaves its argument arrays unchanged. -/
theorem frame_k : Cert.frame_Kernel (hKernel := Cert.Kernel.Gen.facts) (hPre_finite_inputs := Cert.Pre_finite_inputs.Gen.facts) :=
  fun m ρ _ => Cert.Kernel.Hand.frame m ρ

/-- So does the program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run, with the results forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Memories that agree on the nineteen argument arrays give the specification the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RefValue.argsOf (StableHlo.launchContents m' c) = Cert.KernelIdeal.Hand.argsOf m c := by
  obtain ⟨h0, h1, h2, h3, h4, h5, h6, h7, h8, h9, h10, h11, h12, h13, h14, h15, h16, h17, h18⟩ := h
  unfold Cert.ReferenceIdeal.RefValue.argsOf Cert.KernelIdeal.Hand.argsOf
  congr 1 <;> first | assumption | (congr 1 <;> assumption)

/-- Over the extended reals, from memories agreeing on the arguments, both programs end with the specification's two
    arrays in their results. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => (Cert.KernelIdeal.Hand.argsOf m c).localOut, fun c => (Cert.KernelIdeal.Hand.argsOf m c).globalOut, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.ReferenceIdeal.RefValue.ref_local _).trans (congrArg Cert.Lstm.Args.localOut (args_agree m m' c (hagree c)))
  · exact (Cert.ReferenceIdeal.RefValue.ref_global _).trans (congrArg Cert.Lstm.Args.globalOut (args_agree m m' c (hagree c)))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
